-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S128x64 : Shape := ⟨2, ![128, 64]⟩
abbrev S128 : Shape := ⟨1, ![128]⟩
abbrev S128x32 : Shape := ⟨2, ![128, 32]⟩
abbrev S128x256 : Shape := ⟨2, ![128, 256]⟩
abbrev S384x128 : Shape := ⟨2, ![384, 128]⟩
abbrev S384 : Shape := ⟨1, ![384]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S128x256 : S_.BroadcastsInDim S128x256 (![] : Fin 0 → Fin S128x256.rank)
  reducesTo_S128x256_S_d0_1 : S128x256.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_arg12 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384 .f32 := Host.absf main_arg12
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  main_v58

def fn_part2 {F : FTy → Type} [FloatOps F] (main_arg8 : FVec F S128 .f32) (main_arg9 : FVec F S384x128 .f32) (main_arg10 : FVec F S384x128 .f32) (main_arg11 : FVec F S384 .f32) (main_arg12 : FVec F S384 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg9
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384 .f32 := Host.absf main_arg11
  let main_cst_18 : FVec F S_ .f32 := constant S_ .f32 0x7F800000#32
  let main_v50 : FVec F S384 .f32 := broadcastInDim S384 ![] bcast_S_S384 main_cst_18
  fn_part3 (F := F) main_arg12 main_v48 main_v49 main_v50

def fn_part1 {F : FTy → Type} [FloatOps F] (main_arg5 : FVec F S128x32 .f32) (main_arg6 : FVec F S128 .f32) (main_arg7 : FVec F S128x256 .f32) (main_arg8 : FVec F S128 .f32) (main_arg9 : FVec F S384x128 .f32) (main_arg10 : FVec F S384x128 .f32) (main_arg11 : FVec F S384 .f32) (main_arg12 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg5
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x64 .f32) (main_arg1 : IVec S2x800000 32) (main_arg2 : FVec F S800000x32 .f32) (main_arg3 : FVec F S128x64 .f32) (main_arg4 : FVec F S128 .f32) (main_arg5 : FVec F S128x32 .f32) (main_arg6 : FVec F S128 .f32) (main_arg7 : FVec F S128x256 .f32) (main_arg8 : FVec F S128 .f32) (main_arg9 : FVec F S384x128 .f32) (main_arg10 : FVec F S384x128 .f32) (main_arg11 : FVec F S384 .f32) (main_arg12 : FVec F S384 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S128x64 : Shape := ⟨2, ![128, 64]⟩
abbrev S128 : Shape := ⟨1, ![128]⟩
abbrev S128x32 : Shape := ⟨2, ![128, 32]⟩
abbrev S128x256 : Shape := ⟨2, ![128, 256]⟩
abbrev S384x128 : Shape := ⟨2, ![384, 128]⟩
abbrev S384 : Shape := ⟨1, ![384]⟩
abbrev S128x128 : Shape := ⟨2, ![128, 128]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S64x128 : Shape := ⟨2, ![64, 128]⟩
abbrev S800000x128 : Shape := ⟨2, ![800000, 128]⟩
abbrev S8000x32 : Shape := ⟨2, ![8000, 32]⟩
abbrev S8000x128 : Shape := ⟨2, ![8000, 128]⟩
abbrev S32x128 : Shape := ⟨2, ![32, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x384 : Shape := ⟨2, ![1, 384]⟩
abbrev S2000x128 : Shape := ⟨2, ![2000, 128]⟩
abbrev S128x384 : Shape := ⟨2, ![128, 384]⟩
abbrev S2000x384 : Shape := ⟨2, ![2000, 384]⟩

abbrev nBuf : Space → Nat
  | .hbm => 84
  | .vmem => 58
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S128x64, .f32⟩
  | .hbm, ⟨4, _⟩ => ⟨S128, .f32⟩
  | .hbm, ⟨5, _⟩ => ⟨S128x32, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S384x128, .f32⟩
  | .hbm, ⟨10, _⟩ => ⟨S384x128, .f32⟩
  | .hbm, ⟨11, _⟩ => ⟨S384, .f32⟩
  | .hbm, ⟨12, _⟩ => ⟨S384, .f32⟩
  | .hbm, ⟨13, _⟩ => ⟨S128x128, .f32⟩
  | .hbm, ⟨14, _⟩ => ⟨S128x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S1x128, .f32⟩
  | .hbm, ⟨19, _⟩ => ⟨S1x128, .f32⟩
  | .hbm, ⟨20, _⟩ => ⟨S800000x128, .f32⟩
  | .hbm, ⟨21, _⟩ => ⟨S800000x128, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S1x384, .f32⟩
  | .hbm, ⟨45, _⟩ => ⟨S1x384, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S1x384, .f32⟩
  | .hbm, ⟨63, _⟩ => ⟨S1x384, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x128, .f32⟩
  | .hbm, ⟨80, _⟩ => ⟨S1x384, .f32⟩
  | .hbm, ⟨81, _⟩ => ⟨S1x384, .f32⟩
  | .hbm, ⟨82, _⟩ => ⟨S50000x128, .f32⟩
  | .hbm, ⟨83, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S128x64, .f32⟩
  | .local _ .vmem, ⟨3, _⟩ => ⟨S1x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S8000x32, .f32⟩
  | .local _ .vmem, ⟨10, _⟩ => ⟨S8000x32, .f32⟩
  | .local _ .vmem, ⟨11, _⟩ => ⟨S128x32, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S384x128, .f32⟩
  | .local _ .vmem, ⟨24, _⟩ => ⟨S384x128, .f32⟩
  | .local _ .vmem, ⟨25, _⟩ => ⟨S1x384, .f32⟩
  | .local _ .vmem, ⟨26, _⟩ => ⟨S1x384, .f32⟩
  | .local _ .vmem, ⟨27, _⟩ => ⟨S128x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S384x128, .f32⟩
  | .local _ .vmem, ⟨37, _⟩ => ⟨S384x128, .f32⟩
  | .local _ .vmem, ⟨38, _⟩ => ⟨S1x384, .f32⟩
  | .local _ .vmem, ⟨39, _⟩ => ⟨S1x384, .f32⟩
  | .local _ .vmem, ⟨40, _⟩ => ⟨S128x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S384x128, .f32⟩
  | .local _ .vmem, ⟨50, _⟩ => ⟨S384x128, .f32⟩
  | .local _ .vmem, ⟨51, _⟩ => ⟨S1x384, .f32⟩
  | .local _ .vmem, ⟨52, _⟩ => ⟨S1x384, .f32⟩
  | .local _ .vmem, ⟨53, _⟩ => ⟨S128x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55_0 : Ref sig .tc := ⟨.hbm, 82, rfl⟩
abbrev main_v55_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg7_1 : Ref sig .tc := ⟨.vmem, 42, rfl⟩
abbrev cc3_stg8_0 : Ref sig .tc := ⟨.vmem, 43, rfl⟩
abbrev cc3_stg8_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg8_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem7_1 : DmaSem sig := 42
abbrev cc3_sem8_0 : DmaSem sig := 43
abbrev cc3_sem8_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem7_1 : DmaSem sig := 55
abbrev cc4_sem8_0 : DmaSem sig := 56
abbrev cc4_sem8_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S384x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S384x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S384x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S384x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S384x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S128x256_S128x128_0_0 : S128x256.Slices ![0, 0] S128x128
  slices_S128x256_S128x128_0_128 : S128x256.Slices ![0, 128] S128x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S8000x32_S8000x32_0_0 : ∀ a, (![0, 0] : Fin 2 → Nat) a + S8000x32.size a ≤ S8000x32.size a
  h_S8000x32 : 0 < S8000x32.numel
  inb_S128x32_S128x32_0_0 : ∀ a, (![0, 0] : Fin 2 → Nat) a + S128x32.size a ≤ S128x32.size a
  h_S128x32 : 0 < S128x32.numel
  transposes_S128x32_p1_0_S32x128 : S128x32.Transposes [1, 0] S32x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S384x128_S384x128_0_0 : ∀ a, (![0, 0] : Fin 2 → Nat) a + S384x128.size a ≤ S384x128.size a
  h_S384x128 : 0 < S384x128.numel
  transposes_S384x128_p1_0_S128x384 : S384x128.Transposes [1, 0] S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S8000x32_S32x128_S8000x128_1_0_0_1_n_n_wf : DotDims.WF S8000x32 S32x128 S8000x128 [1] [0] [0] [1] [] []
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S2000x128_S128x384_S2000x384_1_0_0_1_n_n_wf : DotDims.WF S2000x128 S128x384 S2000x384 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S800000x128.size a
  hwx1_5 : ∀ i : grid1.Coords, EltTy.bits .f32 = 32 ∨ (Rect.block (s := S800000x128) S8000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x128.size a ≤ S800000x128.size a
  hwx1_6 : ∀ i : grid1.Coords, EltTy.bits .f32 = 32 ∨ (Rect.block (s := S800000x128) S8000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S384x128.size a ≤ S384x128.size a
  hwx2_2 : ∀ i : grid2.Coords, EltTy.bits .f32 = 32 ∨ (Rect.block (s := S384x128) S384x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x128.size a ≤ S384x128.size a
  hwx2_3 : ∀ i : grid2.Coords, EltTy.bits .f32 = 32 ∨ (Rect.block (s := S384x128) S384x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S384x128.size a ≤ S384x128.size a
  hwx3_2 : ∀ i : grid3.Coords, EltTy.bits .f32 = 32 ∨ (Rect.block (s := S384x128) S384x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384x128.size a ≤ S384x128.size a
  hwx3_3 : ∀ i : grid3.Coords, EltTy.bits .f32 = 32 ∨ (Rect.block (s := S384x128) S384x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S384x128.size a ≤ S384x128.size a
  hwx4_2 : ∀ i : grid4.Coords, EltTy.bits .f32 = 32 ∨ (Rect.block (s := S384x128) S384x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S384x128.size a ≤ S384x128.size a
  hwx4_3 : ∀ i : grid4.Coords, EltTy.bits .f32 = 32 ∨ (Rect.block (s := S384x128) S384x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x128.size a ≤ S50000x128.size a
  hwx4_8 : ∀ i : grid4.Coords, EltTy.bits .f32 = 32 ∨ (Rect.block (s := S50000x128) S2000x128.size (cc4_transform_8 i) (hinb4_8 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6_0) S8000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_1) S8000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S384x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S384x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v0) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v27_1) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v38) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S384x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S384x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v0) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v41_0) S2000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v41_1) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v52) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41_0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S384x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S384x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v54) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v0) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v55_0) S2000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v55_1) S2000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S128x64 : Shape := ⟨2, ![128, 64]⟩
abbrev S128 : Shape := ⟨1, ![128]⟩
abbrev S128x32 : Shape := ⟨2, ![128, 32]⟩
abbrev S128x256 : Shape := ⟨2, ![128, 256]⟩
abbrev S384x128 : Shape := ⟨2, ![384, 128]⟩
abbrev S384 : Shape := ⟨1, ![384]⟩
abbrev S64x128 : Shape := ⟨2, ![64, 128]⟩
abbrev S50000x128 : Shape := ⟨2, ![50000, 128]⟩
abbrev S1x128 : Shape := ⟨2, ![1, 128]⟩
abbrev S32x128 : Shape := ⟨2, ![32, 128]⟩
abbrev S800000x128 : Shape := ⟨2, ![800000, 128]⟩
abbrev S1x800000 : Shape := ⟨2, ![1, 800000]⟩
abbrev S800000 : Shape := ⟨1, ![800000]⟩
abbrev S128x128 : Shape := ⟨2, ![128, 128]⟩
abbrev S_ : Shape := ⟨0, ![]⟩
abbrev S800000x1 : Shape := ⟨2, ![800000, 1]⟩
abbrev S128x384 : Shape := ⟨2, ![128, 384]⟩
abbrev S50000x384 : Shape := ⟨2, ![50000, 384]⟩
abbrev S1x384 : Shape := ⟨2, ![1, 384]⟩

abbrev nBuf : Space → Nat
  | .hbm => 211
  | .vmem => 0
  | .smem => 0
  | _ => 0

abbrev hbmTy0_0 (i : Nat) : BufTy := match i % 128 with
  | 0 => ⟨S50000x64, .f32⟩
  | 1 => ⟨S2x800000, .i32⟩
  | 2 => ⟨S800000x32, .f32⟩
  | 3 => ⟨S128x64, .f32⟩
  | 4 => ⟨S128, .f32⟩
  | 5 => ⟨S128x32, .f32⟩
  | 6 => ⟨S128, .f32⟩
  | 7 => ⟨S128x256, .f32⟩
  | 8 => ⟨S128, .f32⟩
  | 9 => ⟨S384x128, .f32⟩
  | 10 => ⟨S384x128, .f32⟩
  | 11 => ⟨S384, .f32⟩
  | 12 => ⟨S384, .f32⟩
  | 13 => ⟨S64x128, .f32⟩
  | 14 => ⟨S50000x128, .f32⟩
  | 15 => ⟨S1x128, .f32⟩
  | 16 => ⟨S50000x128, .f32⟩
  | 17 => ⟨S50000x128, .f32⟩
  | 18 => ⟨S32x128, .f32⟩
  | 19 => ⟨S800000x128, .f32⟩
  | 20 => ⟨S1x128, .f32⟩
  | 21 => ⟨S800000x128, .f32⟩
  | 22 => ⟨S800000x128, .f32⟩
  | 23 => ⟨S1x800000, .i32⟩
  | 24 => ⟨S800000, .i32⟩
  | 25 => ⟨S1x800000, .i32⟩
  | 26 => ⟨S800000, .i32⟩
  | 27 => ⟨S128x128, .f32⟩
  | 28 => ⟨S128x128, .f32⟩
  | 29 => ⟨S128x128, .f32⟩
  | 30 => ⟨S800000x128, .f32⟩
  | 31 => ⟨S1x128, .f32⟩
  | 32 => ⟨S800000x128, .f32⟩
  | 33 => ⟨S800000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S128x128, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S128x384, .f32⟩
  | 51 => ⟨S50000x384, .f32⟩
  | 52 => ⟨S1x384, .f32⟩
  | 53 => ⟨S50000x384, .f32⟩
  | 54 => ⟨S50000x384, .f32⟩
  | 55 => ⟨S128x384, .f32⟩
  | 56 => ⟨S50000x384, .f32⟩
  | 57 => ⟨S1x384, .f32⟩
  | 58 => ⟨S50000x384, .f32⟩
  | 59 => ⟨S50000x384, .f32⟩
  | 60 => ⟨S50000x128, .f32⟩
  | 61 => ⟨S50000x128, .f32⟩
  | 62 => ⟨S50000x128, .f32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S128x128, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S128x384, .f32⟩
  | 110 => ⟨S50000x384, .f32⟩
  | 111 => ⟨S1x384, .f32⟩
  | 112 => ⟨S50000x384, .f32⟩
  | 113 => ⟨S50000x384, .f32⟩
  | 114 => ⟨S128x384, .f32⟩
  | 115 => ⟨S50000x384, .f32⟩
  | 116 => ⟨S1x384, .f32⟩
  | 117 => ⟨S50000x384, .f32⟩
  | 118 => ⟨S50000x384, .f32⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S50000x128, .f32⟩
  | 126 => ⟨S50000x128, .f32⟩
  | 127 => ⟨S50000x128, .f32⟩
  | _ => ⟨S50000x64, .f32⟩

abbrev hbmTy0_1 (i : Nat) : BufTy := match i % 128 with
  | 0 => ⟨S_, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S128x128, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S128x384, .f32⟩
  | 41 => ⟨S50000x384, .f32⟩
  | 42 => ⟨S1x384, .f32⟩
  | 43 => ⟨S50000x384, .f32⟩
  | 44 => ⟨S50000x384, .f32⟩
  | 45 => ⟨S128x384, .f32⟩
  | 46 => ⟨S50000x384, .f32⟩
  | 47 => ⟨S1x384, .f32⟩
  | 48 => ⟨S50000x384, .f32⟩
  | 49 => ⟨S50000x384, .f32⟩
  | 50 => ⟨S50000x128, .f32⟩
  | 51 => ⟨S50000x128, .f32⟩
  | 52 => ⟨S50000x128, .f32⟩
  | 53 => ⟨S50000x128, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S50000x128, .f32⟩
  | 82 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_1 : Ref sig .tc := ⟨.hbm, 69, rfl⟩
abbrev main_v53 : Ref sig .tc := ⟨.hbm, 70, rfl⟩
abbrev main_v54 : Ref sig .tc := ⟨.hbm, 71, rfl⟩
abbrev main_cst_2 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_3 : Ref sig .tc := ⟨.hbm, 78, rfl⟩
abbrev main_v60 : Ref sig .tc := ⟨.hbm, 79, rfl⟩
abbrev main_v61 : Ref sig .tc := ⟨.hbm, 80, rfl⟩
abbrev main_cst_4 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_5 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_6 : Ref sig .tc := ⟨.hbm, 93, rfl⟩
abbrev main_v72 : Ref sig .tc := ⟨.hbm, 94, rfl⟩
abbrev main_v73 : Ref sig .tc := ⟨.hbm, 95, rfl⟩
abbrev main_c_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_8 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_9 : Ref sig .tc := ⟨.hbm, 128, rfl⟩
abbrev main_v104 : Ref sig .tc := ⟨.hbm, 129, rfl⟩
abbrev main_v105 : Ref sig .tc := ⟨.hbm, 130, rfl⟩
abbrev main_cst_10 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_11 : Ref sig .tc := ⟨.hbm, 137, rfl⟩
abbrev main_v111 : Ref sig .tc := ⟨.hbm, 138, rfl⟩
abbrev main_v112 : Ref sig .tc := ⟨.hbm, 139, rfl⟩
abbrev main_cst_12 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_13 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_c_14 : Ref sig .tc := ⟨.hbm, 152, rfl⟩
abbrev main_v123 : Ref sig .tc := ⟨.hbm, 153, rfl⟩
abbrev main_v124 : Ref sig .tc := ⟨.hbm, 154, rfl⟩
abbrev main_c_15 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_16 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_17 : Ref sig .tc := ⟨.hbm, 187, rfl⟩
abbrev main_v155 : Ref sig .tc := ⟨.hbm, 188, rfl⟩
abbrev main_v156 : Ref sig .tc := ⟨.hbm, 189, rfl⟩
abbrev main_cst_18 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_19 : Ref sig .tc := ⟨.hbm, 196, rfl⟩
abbrev main_v162 : Ref sig .tc := ⟨.hbm, 197, rfl⟩
abbrev main_v163 : Ref sig .tc := ⟨.hbm, 198, rfl⟩
abbrev main_cst_20 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_cst_21 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x32_S32x128_1_0 : S128x32.Transposes [1, 0] S32x128
  bcast_S1x128_S800000x128_0_1 : S1x128.BroadcastsInDim S800000x128 (![0, 1] : Fin 2 → Fin S800000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S128x256_S128x128_0_0 : S128x256.Slices ![0, 0] S128x128
  slices_S128x256_S128x128_0_128 : S128x256.Slices ![0, 128] S128x128
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  dot_S50000x64_S64x128_S50000x128_1_0_0_1_n_n_wf : DotDims.WF S50000x64 S64x128 S50000x128 [1] [0] [0] [1] [] []
  dot_S800000x32_S32x128_S800000x128_1_0_0_1_n_n_wf : DotDims.WF S800000x32 S32x128 S800000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.Spec.lean ====
/-
  The mathematics of the message-passing network, as functions of index functions into the extended reals.

  A node state h (one row of 128 features per node) is updated three times. Each update gathers, for every edge, the
  row of its source node, applies the message map to it, adds the edge's own (loop-invariant) message, sums the
  messages over the edges that point at each node, and feeds the sum and the old state to a gated recurrent cell.

  Two arrangements of one update are compared. One applies the message map to the gathered rows, edge by edge, and
  sums messages that already contain the edge term (`stepR`). The other applies the message map once per NODE and
  gathers the mapped rows, and sums the edge terms separately, once (`stepK`). They agree because reading a row and
  then contracting it is contracting and then reading the row (`lin_rowsAt`), and because a sum over edges of
  a + b is the sum of the a plus the sum of the b — which holds in any commutative monoid, so on the extended reals
  with no finiteness assumption (`segSum_add`).
-/
import Idealize.ShloMosaic.PureOps.Ideal
import Idealize.ShloMosaic.Lib.ValueIdx

noncomputable section

namespace Cert.Gnn

open Idealize.ShloMosaic Idealize.ShloMosaic.ValueIdx

/-- A matrix of extended reals with `a` rows and `b` columns. -/
abbrev Mat (a b : Nat) : Type := (⟨2, ![a, b]⟩ : Shape).Idx → EReal

/-- `x · Wᵀ`: entry (a, j) is the sum over c of x(a, c) · W(j, c). -/
def lin {n k h : Nat} (x : Mat n k) (W : Mat h k) : Mat n h :=
  fun i => ∑ c : Fin k, x (ix2 (i 0) c) * W (ix2 (i 1) c)

theorem lin_apply {n k h : Nat} (x : Mat n k) (W : Mat h k) (a : Fin n) (j : Fin h) :
    lin x W (ix2 a j) = ∑ c : Fin k, x (ix2 a c) * W (ix2 j c) := rfl

/-- `x · Wᵀ + b`, the bias a one-row matrix added to every row. -/
def affine {n k h : Nat} (x : Mat n k) (W : Mat h k) (b : Mat 1 h) : Mat n h :=
  fun i => lin x W i + b (ix2 0 (i 1))

theorem affine_apply {n k h : Nat} (x : Mat n k) (W : Mat h k) (b : Mat 1 h) (a : Fin n) (j : Fin h) :
    affine x W b (ix2 a j) = (∑ c : Fin k, x (ix2 a c) * W (ix2 j c)) + b (ix2 0 j) := rfl

/-- A vector of `h` entries as a one-row matrix. -/
def rowMat {h : Nat} (b : (⟨1, ![h]⟩ : Shape).Idx → EReal) : Mat 1 h := fun i => b (ix1 (i 1))

theorem rowMat_apply {h : Nat} (b : (⟨1, ![h]⟩ : Shape).Idx → EReal) (u : Fin 1) (j : Fin h) :
    rowMat b (ix2 u j) = b (ix1 j) := rfl

/-- Columns 0 … 127 of a 128 × 256 matrix (the half of the message map that meets the node state). -/
def leftHalf (W : Mat 128 256) : Mat 128 128 :=
  fun i => W (ix2 (i 0) ⟨(i 1).val, by have := idx2_lt1 i; omega⟩)

/-- Columns 128 … 255 of a 128 × 256 matrix (the half of the message map that meets the edge features). -/
def rightHalf (W : Mat 128 256) : Mat 128 128 :=
  fun i => W (ix2 (i 0) ⟨128 + (i 1).val, by have := idx2_lt1 i; omega⟩)

theorem leftHalf_apply (W : Mat 128 256) (a j : Fin 128) :
    leftHalf W (ix2 a j) = W (ix2 a ⟨j.val, by omega⟩) := rfl

theorem rightHalf_apply (W : Mat 128 256) (a j : Fin 128) :
    rightHalf W (ix2 a j) = W (ix2 a ⟨128 + j.val, by omega⟩) := rfl

/-- Row `s e` of `x` for every edge `e`: the gathered source rows. -/
def rowsAt {N C E : Nat} (x : Mat N C) (s : Fin E → Fin N) : Mat E C :=
  fun i => x (ix2 (s (i 0)) (i 1))

theorem rowsAt_apply {N C E : Nat} (x : Mat N C) (s : Fin E → Fin N) (e : Fin E) (k : Fin C) :
    rowsAt x s (ix2 e k) = x (ix2 (s e) k) := rfl

/-- Entry (n, k) is the sum of the entries (e, k) of `u` over the edges `e` whose target word `d e` is `n`. -/
def segSum {N C E : Nat} (d : Fin E → Int) (u : Mat E C) : Mat N C :=
  fun i => ∑ e : Fin E, if d e = ((i 0).val : Int) then u (ix2 e (i 1)) else 0

theorem segSum_apply {N C E : Nat} (d : Fin E → Int) (u : Mat E C) (n : Fin N) (k : Fin C) :
    segSum (N := N) d u (ix2 n k) = ∑ e : Fin E, if d e = (n.val : Int) then u (ix2 e k) else 0 := rfl

/-- Contracting the gathered rows is gathering the contracted rows. -/
theorem lin_rowsAt {N C H E : Nat} (x : Mat N C) (W : Mat H C) (s : Fin E → Fin N) :
    lin (rowsAt x s) W = rowsAt (lin x W) s := rfl

/-- A segment sum of a + b is the segment sum of a plus that of b: on the extended reals, with no finiteness. -/
theorem segSum_add {N C E : Nat} (d : Fin E → Int) (u v : Mat E C) :
    segSum (N := N) d (fun i => u i + v i) = fun i => segSum (N := N) d u i + segSum (N := N) d v i := by
  funext i
  unfold segSum
  rw [← Finset.sum_add_distrib]
  refine Finset.sum_congr rfl fun e _ => ?_
  by_cases h : d e = ((i 0).val : Int)
  · simp only [if_pos h]
  · simp only [if_neg h, add_zero]

/-- The word for one, as both programs carry it. -/
def one : EReal := Ideal.ofBits .f32 0x3F800000#32

/-- The logistic function as the expression 1 / (1 + e⁻ˣ) over the word for one. -/
def sigm (x : EReal) : EReal := Ideal.div one (one + Ideal.exp (-x))

/-- The gated recurrent cell, from the input-side pre-activations `gi`, the state-side ones `gh` (384 columns each:
    reset, update and candidate gates, 128 apiece) and the old state `h`: with r = σ(giᵣ + ghᵣ), z = σ(gi_z + gh_z),
    n = tanh(giₙ + r · ghₙ), the new state is (1 − z) · n + z · h. -/
def gru {n : Nat} (gi gh : Mat n 384) (h : Mat n 128) : Mat n 128 := fun i =>
  have hj : (i 1).val < 128 := idx2_lt1 i
  let a : Fin n := i 0
  let r := sigm (gi (ix2 a ⟨(i 1).val, by omega⟩) + gh (ix2 a ⟨(i 1).val, by omega⟩))
  let z := sigm (gi (ix2 a ⟨128 + (i 1).val, by omega⟩) + gh (ix2 a ⟨128 + (i 1).val, by omega⟩))
  let c := Ideal.tanh (gi (ix2 a ⟨256 + (i 1).val, by omega⟩) + r * gh (ix2 a ⟨256 + (i 1).val, by omega⟩))
  (one - z) * c + z * h (ix2 a ⟨(i 1).val, hj⟩)

theorem gru_apply {n : Nat} (gi gh : Mat n 384) (h : Mat n 128) (a : Fin n) (j : Fin 128) :
    gru gi gh h (ix2 a j)
      = (one - sigm (gi (ix2 a ⟨128 + j.val, by omega⟩) + gh (ix2 a ⟨128 + j.val, by omega⟩)))
          * Ideal.tanh (gi (ix2 a ⟨256 + j.val, by omega⟩)
              + sigm (gi (ix2 a ⟨j.val, by omega⟩) + gh (ix2 a ⟨j.val, by omega⟩)) * gh (ix2 a ⟨256 + j.val, by omega⟩))
        + sigm (gi (ix2 a ⟨128 + j.val, by omega⟩) + gh (ix2 a ⟨128 + j.val, by omega⟩)) * h (ix2 a j) := rfl

section Step
variable {N E : Nat} (s : Fin E → Fin N) (d : Fin E → Int) (Wm : Mat 128 128) (emsg : Mat E 128)
  (Wih Whh : Mat 384 128) (bih bhh : Mat 1 384)

/-- One update, the message map applied per node and the edge terms summed apart. -/
def stepK (h : Mat N 128) : Mat N 128 :=
  gru (affine (fun i => segSum (N := N) d (rowsAt (lin h Wm) s) i + segSum (N := N) d emsg i) Wih bih) (affine h Whh bhh) h

/-- One update, the message map applied per edge to the gathered rows, the edge term inside the message. -/
def stepR (h : Mat N 128) : Mat N 128 :=
  gru (affine (segSum (N := N) d (fun i => lin (rowsAt h s) Wm i + emsg i)) Wih bih) (affine h Whh bhh) h

/-- The two arrangements of an update agree. -/
theorem stepK_eq_stepR (h : Mat N 128) : stepK s d Wm emsg Wih Whh bih bhh h = stepR s d Wm emsg Wih Whh bih bhh h := by
  unfold stepK stepR
  rw [segSum_add, lin_rowsAt]

end Step

section Net
variable {N E : Nat} (s : Fin E → Fin N) (d : Fin E → Int)
  (x : Mat N 64) (ef : Mat E 32) (Wn : Mat 128 64) (bn : Mat 1 128) (We : Mat 128 32) (be : Mat 1 128)
  (Wmsg : Mat 128 256) (bm : Mat 1 128) (Wih Whh : Mat 384 128) (bih bhh : Mat 1 384)

/-- The node states before the first update: x · W_nodeᵀ + b_node. -/
def h0 : Mat N 128 := affine x Wn bn

/-- The projected edge features: ef · W_edgeᵀ + b_edge (the network's second result). -/
def eProj : Mat E 128 := affine ef We be

/-- The edge half of every message: e · W_msg_eᵀ + b_msg (the same in all three updates). -/
def eMsg : Mat E 128 := affine (eProj ef We be) (rightHalf Wmsg) bm

/-- The node states after three updates, the per-node arrangement. -/
def netK : Mat N 128 :=
  stepK s d (leftHalf Wmsg) (eMsg ef We be Wmsg bm) Wih Whh bih bhh
    (stepK s d (leftHalf Wmsg) (eMsg ef We be Wmsg bm) Wih Whh bih bhh
      (stepK s d (leftHalf Wmsg) (eMsg ef We be Wmsg bm) Wih Whh bih bhh (h0 x Wn bn)))

/-- The node states after three updates, the per-edge arrangement. -/
def netR : Mat N 128 :=
  stepR s d (leftHalf Wmsg) (eMsg ef We be Wmsg bm) Wih Whh bih bhh
    (stepR s d (leftHalf Wmsg) (eMsg ef We be Wmsg bm) Wih Whh bih bhh
      (stepR s d (leftHalf Wmsg) (eMsg ef We be Wmsg bm) Wih Whh bih bhh (h0 x Wn bn)))

/-- Three updates in either arrangement give the same node states. -/
theorem netK_eq_netR :
    netK s d x ef Wn bn We be Wmsg bm Wih Whh bih bhh = netR s d x ef Wn bn We be Wmsg bm Wih Whh bih bhh := by
  unfold netK netR
  rw [stepK_eq_stepR, stepK_eq_stepR, stepK_eq_stepR]

end Net

end Cert.Gnn

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.LibScatterAdd.lean ====
/-
  An additive scatter of rows, read at one element.

  The host's accumulating scatter `x.at[idx].add(upd)` at the ideal instance is, at each element of the operand, that
  element plus the sum of the update elements whose destination is that element. For the two layouts a segment sum
  lowers to this file computes the destination and turns the sum over "updates that land here" into a sum over the
  update ROWS guarded by "this row's index word is my row":

  * rows: operand `[N, C]`, one index word per update row (indices `[E, 1]`), updates `[E, C]`. Update `(e, c)`
    lands on `(idx e, c)` when `0 ≤ idx e < N` (the word read signed, nothing clamped) and is dropped otherwise. So
    element `(n, k)` receives `∑ e, [idx e = n] · upd (e, k)`: only column `k` of the updates reaches column `k`.
  * scalars: operand `[N]`, indices `[E, 1]`, updates `[E]`. Update `e` lands on `idx e`; element `n`
    receives `∑ e, [idx e = n] · upd e`.

  Nothing here needs the summands to be finite: the sums are only re-indexed.
-/
import Idealize.ShloMosaic.PureOps.Ideal
import Idealize.ShloMosaic.Lib.ValueIdx

noncomputable section

open scoped BigOperators

namespace Idealize.ShloMosaic.ScatterAddAt

open Idealize.ShloMosaic Idealize.ShloMosaic.ValueIdx

/-! ## Rows: operand `[N, C]`, indices `[E, 1]`, updates `[E, C]` -/

section Rows
variable {N C E w : Nat}

/-- The dimension numbers of a row scatter: the updates' axis 1 is the window axis and goes to the operand's axis 1, the
    operand's axis 0 is the one the index word addresses, the index vector is the indices' axis 1 (of extent one). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- The index word of update row `e`. -/
abbrev rowWord (idx : IVec ⟨2, ![E, 1]⟩ w) (e : Fin E) : Int := (idx (ix2 e ⟨0, Nat.one_pos⟩)).toInt

/-- On the addressed axis the window starts at the update row's index word, read signed. -/
theorem rowDims_start0 (j : (⟨2, ![E, C]⟩ : Shape).Idx) (idx : IVec ⟨2, ![E, 1]⟩ w) :
    (rowDims N C E wf).start j idx 0 = rowWord idx (j 0) := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the window axis the window starts at zero. -/
theorem rowDims_start1 (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from by simp)]

/-- The addressed axis has no window coordinate. -/
theorem rowDims_window0 (j : (⟨2, ![E, C]⟩ : Shape).Idx) : (rowDims N C E wf).window j 0 = 0 := by
  unfold ScatterDims.window
  rw [dif_neg (show ¬ (0 : Fin 2) ∈ (rowDims N C E wf).sKept from by simp [ScatterDims.sKept, Shape.kept])]

/-- The window coordinate on the operand's axis 1 is the update's column. -/
theorem rowDims_window1 (j : (⟨2, ![E, C]⟩ : Shape).Idx) : (rowDims N C E wf).window j 1 = (j 1).val := by
  unfold ScatterDims.window
  rw [dif_pos (show (1 : Fin 2) ∈ (rowDims N C E wf).sKept from by simp [ScatterDims.sKept, Shape.kept])]
  rfl

/-- WHERE AN UPDATE LANDS: update `j = (e, c)` lands on operand element `i` exactly when row `e`'s index word is
    `i`'s row and `c` is `i`'s column. (A word outside `[0, N)` is no row: the update is dropped.) -/
theorem rowDims_resultIdx_eq_some_iff (j : (⟨2, ![E, C]⟩ : Shape).Idx) (idx : IVec ⟨2, ![E, 1]⟩ w)
    (i : (⟨2, ![N, C]⟩ : Shape).Idx) :
    (rowDims N C E wf).resultIdx? j idx = some i ↔ rowWord idx (j 0) = ((i 0).val : Int) ∧ (j 1).val = (i 1).val := by
  have hi0 := idx2_lt0 i
  have hi1 := idx2_lt1 i
  have hj1 := idx2_lt1 j
  unfold ScatterDims.resultIdx?
  split
  · next h =>
    rw [Option.some.injEq]
    have h0 := h 0
    rw [rowDims_start0, rowDims_window0] at h0
    constructor
    · intro hi
      have e0 : ((rowDims N C E wf).start j idx 0 + ((rowDims N C E wf).window j 0 : Int)).toNat = (i 0).val :=
        congrArg (fun f => (f 0).val) hi
      have e1 : ((rowDims N C E wf).start j idx 1 + ((rowDims N C E wf).window j 1 : Int)).toNat = (i 1).val :=
        congrArg (fun f => (f 1).val) hi
      rw [rowDims_start0, rowDims_window0] at e0
      rw [rowDims_start1, rowDims_window1] at e1
      omega
    · intro ⟨e0, e1⟩
      funext a
      refine Fin.ext ?_
      match a with
      | ⟨0, _⟩ =>
        show ((rowDims N C E wf).start j idx 0 + ((rowDims N C E wf).window j 0 : Int)).toNat = (i 0).val
        rw [rowDims_start0, rowDims_window0]; omega
      | ⟨1, _⟩ =>
        show ((rowDims N C E wf).start j idx 1 + ((rowDims N C E wf).window j 1 : Int)).toNat = (i 1).val
        rw [rowDims_start1, rowDims_window1]; omega
  · next h =>
    constructor
    · intro hn; cases hn
    · intro ⟨e0, e1⟩
      refine absurd (fun a => ?_) h
      match a with
      | ⟨0, _⟩ =>
        show 0 ≤ (rowDims N C E wf).start j idx 0 + ((rowDims N C E wf).window j 0 : Int)
          ∧ (rowDims N C E wf).start j idx 0 + ((rowDims N C E wf).window j 0 : Int) < ((N : Nat) : Int)
        rw [rowDims_start0, rowDims_window0]; omega
      | ⟨1, _⟩ =>
        show 0 ≤ (rowDims N C E wf).start j idx 1 + ((rowDims N C E wf).window j 1 : Int)
          ∧ (rowDims N C E wf).start j idx 1 + ((rowDims N C E wf).window j 1 : Int) < ((C : Nat) : Int)
        rw [rowDims_start1, rowDims_window1]; omega

/-- THE ROW SCATTER READ AT `(n, k)`: the operand's element plus, over the update rows whose index word is `n`, their
    column-`k` entries. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e : Fin E, if rowWord idx e = (n.val : Int) then upd (ix2 e k) else 0 := by
  unfold Ideal.hostScatterAdd
  congr 1
  rw [Finset.sum_filter, sum_idx2]
  refine Finset.sum_congr rfl fun e _ => ?_
  simp only [rowDims_resultIdx_eq_some_iff]
  by_cases hc : rowWord idx e = (n.val : Int)
  · rw [if_pos hc, Finset.sum_eq_single k]
    · exact if_pos ⟨hc, rfl⟩
    · intro b _ hb
      exact if_neg fun h => hb (Fin.ext h.2)
    · intro h; exact absurd (Finset.mem_univ k) h
  · rw [if_neg hc]
    exact Finset.sum_eq_zero fun b _ => if_neg fun h => hc h.1

end Rows

/-! ## Scalars: operand `[N]`, indices `[E, 1]`, updates `[E]` -/

section Scalars
variable {N E w : Nat}

/-- The dimension numbers of a scalar scatter: no window axis; the operand's one axis is addressed by the index word. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The window starts at the update's index word, read signed. -/
theorem vecDims_start0 (j : (⟨1, ![E]⟩ : Shape).Idx) (idx : IVec ⟨2, ![E, 1]⟩ w) :
    (vecDims N E wf).start j idx 0 = rowWord idx (j 0) := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- There is no window coordinate. -/
theorem vecDims_window0 (j : (⟨1, ![E]⟩ : Shape).Idx) : (vecDims N E wf).window j 0 = 0 := by
  unfold ScatterDims.window
  rw [dif_neg (show ¬ (0 : Fin 1) ∈ (vecDims N E wf).sKept from by simp [ScatterDims.sKept, Shape.kept])]

/-- WHERE AN UPDATE LANDS: update `e` lands on element `i` exactly when its index word is `i`. -/
theorem vecDims_resultIdx_eq_some_iff (j : (⟨1, ![E]⟩ : Shape).Idx) (idx : IVec ⟨2, ![E, 1]⟩ w)
    (i : (⟨1, ![N]⟩ : Shape).Idx) :
    (vecDims N E wf).resultIdx? j idx = some i ↔ rowWord idx (j 0) = ((i 0).val : Int) := by
  have hi0 : (i 0).val < N := (i 0).isLt
  unfold ScatterDims.resultIdx?
  split
  · next h =>
    rw [Option.some.injEq]
    have h0 := h 0
    rw [vecDims_start0, vecDims_window0] at h0
    constructor
    · intro hi
      have e0 : ((vecDims N E wf).start j idx 0 + ((vecDims N E wf).window j 0 : Int)).toNat = (i 0).val :=
        congrArg (fun f => (f 0).val) hi
      rw [vecDims_start0, vecDims_window0] at e0
      omega
    · intro e0
      funext a
      refine Fin.ext ?_
      match a with
      | ⟨0, _⟩ =>
        show ((vecDims N E wf).start j idx 0 + ((vecDims N E wf).window j 0 : Int)).toNat = (i 0).val
        rw [vecDims_start0, vecDims_window0]; omega
  · next h =>
    constructor
    · intro hn; cases hn
    · intro e0
      refine absurd (fun a => ?_) h
      match a with
      | ⟨0, _⟩ =>
        show 0 ≤ (vecDims N E wf).start j idx 0 + ((vecDims N E wf).window j 0 : Int)
          ∧ (vecDims N E wf).start j idx 0 + ((vecDims N E wf).window j 0 : Int) < ((N : Nat) : Int)
        rw [vecDims_start0, vecDims_window0]; omega

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE SCALAR SCATTER READ AT `n`: the operand's element plus the updates whose index word is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if rowWord idx e = (n.val : Int) then upd (ix1 e) else 0 := by
  unfold Ideal.hostScatterAdd
  congr 1
  rw [Finset.sum_filter, sum_idx1]
  refine Finset.sum_congr rfl fun e _ => ?_
  simp only [vecDims_resultIdx_eq_some_iff]
  rfl

end Scalars

end Idealize.ShloMosaic.ScatterAddAt

end
-- ==== Proof.LibGatherRows.lean ====
/-
  A gather of rows, read at one element.

  The host's gather `x[idx]` along the leading axis reads, for each result row, one index word; the word is read as a
  signed integer and clamped into `[0, N − 1]` (so that the slice of one row fits in the operand), and the result row is
  the operand's row at that clamped position. For the two layouts such a lookup lowers to this file computes the operand
  index a result element reads:

  * rows: operand `[N, C]`, one index word per result row (start indices `[E, 1]`), result `[E, C]`, slices of one whole
    row. Result element `(e, k)` is the operand at `(clamp (idx e), k)`.
  * scalars: operand `[N]`, start indices `[E, 1]`, result `[E]`, slices of one element. Result element `e` is the
    operand at `clamp (idx e)`.

  Here `clamp z = min (toNat z) (N − 1)`: a negative word reads row 0, a word past the end reads the last row. The
  element type is arbitrary: a gather only moves elements.
-/
import Idealize.ShloMosaic.PureOps.Ideal
import Idealize.ShloMosaic.Lib.ValueIdx

noncomputable section

namespace Idealize.ShloMosaic.GatherAt

open Idealize.ShloMosaic Idealize.ShloMosaic.ValueIdx

/-! ## Rows: operand `[N, C]`, start indices `[E, 1]`, result `[E, C]` -/

section Rows
variable {α : Type} {N C E w : Nat}

/-- The dimension numbers of a row gather: the result's axis 1 is the offset axis and reads the operand's axis 1 (a whole
    row is one slice), the operand's axis 0 is collapsed and is the one the index word addresses, the index vector is the
    start indices' axis 1 (of extent one). -/
abbrev rowGDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the addressed axis the slice starts at the result row's index word, read signed and clamped into `[0, N − 1]`. -/
theorem rowGDims_start0 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 0 = min (idx (ix2 (j 0) ⟨0, Nat.one_pos⟩)).toInt.toNat (N - 1) := by
  unfold GatherDims.start
  rw [dif_pos (show (0 : Fin 2) ∈ (rowGDims N C E wf).startIndexMap from List.mem_singleton.mpr rfl)]
  have hsi : (rowGDims N C E wf).siIdx j ⟨List.idxOf (0 : Fin 2) (rowGDims N C E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the row's own axis the slice starts at zero. -/
theorem rowGDims_start1 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 1 = 0 := by
  unfold GatherDims.start
  rw [dif_neg (show ¬ (1 : Fin 2) ∈ (rowGDims N C E wf).startIndexMap from by simp)]

/-- The addressed axis is collapsed: it has no offset coordinate. -/
theorem rowGDims_off0 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 0 = 0 :=
  GatherDims.offCoord_eq_zero _ _ _ (fun h => ((GatherDims.mem_sKept _ _).mp h).1 (List.mem_singleton.mpr rfl))

/-- The offset coordinate on the operand's axis 1 is the result's column. -/
theorem rowGDims_off1 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 1 = (j 1).val := by
  unfold GatherDims.offCoord
  rw [dif_pos (show (1 : Fin 2) ∈ (rowGDims N C E wf).sKept from by simp [GatherDims.sKept, Shape.kept])]
  rfl

/-- THE ROW GATHER READ AT `(e, k)`: the operand at row "index word of `e`, read signed and clamped into
    `[0, N − 1]`", column `k`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowGDims N C E wf).start (ix2 e k) idx 0 + (rowGDims N C E wf).batchCoord (ix2 e k) 0
      + (rowGDims N C E wf).offCoord (ix2 e k) 0 = _
    rw [GatherDims.batchCoord_eq_zero _ _ _ List.not_mem_nil, rowGDims_off0, rowGDims_start0]
    rfl
  | ⟨1, _⟩ =>
    show (rowGDims N C E wf).start (ix2 e k) idx 1 + (rowGDims N C E wf).batchCoord (ix2 e k) 1
      + (rowGDims N C E wf).offCoord (ix2 e k) 1 = _
    rw [GatherDims.batchCoord_eq_zero _ _ _ List.not_mem_nil, rowGDims_off1, rowGDims_start1]
    simp only [Nat.add_zero, Nat.zero_add]
    rfl

end Rows

/-! ## Scalars: operand `[N]`, start indices `[E, 1]`, result `[E]` -/

section Scalars
variable {α : Type} {N E w : Nat}

/-- The dimension numbers of a scalar gather: no offset axis (a slice is one element); the operand's one axis is collapsed
    and addressed by the index word; the index vector is the start indices' axis 1 (of extent one). -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The slice starts at the result element's index word, read signed and clamped into `[0, N − 1]`. -/
theorem vecGDims_start0 (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (vecGDims N E wf).start j idx 0 = min (idx (ix2 (j 0) ⟨0, Nat.one_pos⟩)).toInt.toNat (N - 1) := by
  unfold GatherDims.start
  rw [dif_pos (show (0 : Fin 1) ∈ (vecGDims N E wf).startIndexMap from List.mem_singleton.mpr rfl)]
  have hsi : (vecGDims N E wf).siIdx j ⟨List.idxOf (0 : Fin 1) (vecGDims N E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- THE SCALAR GATHER READ AT `e`: the operand at "index word of `e`, read signed and clamped into `[0, N − 1]`". -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecGDims N E wf).start (ix1 e) idx 0 + (vecGDims N E wf).batchCoord (ix1 e) 0
    + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vecGDims_start0]
  rfl

end Scalars

end Idealize.ShloMosaic.GatherAt

end
-- ==== Proof.HostOps.lean ====
/-
  The host operations of the two programs, read as the specification's functions (at the extended reals): a plain
  product against a transposed weight, the bias broadcast down the rows, the two halves of the message weight, a vector
  laid out as a one-row matrix, the edge words cut out of the edge-index array, the row gather by source word, the
  scatter-add by target word into zeros, and the gated recurrent cell spelt in whole-array operations.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«158604_j30331059044708_2_alg».proof.Proof.Spec
import proofs.«158604_j30331059044708_2_alg».proof.Proof.LibPlainProduct
import proofs.«158604_j30331059044708_2_alg».proof.Proof.LibScatterAdd
import proofs.«158604_j30331059044708_2_alg».proof.Proof.LibGatherRows

noncomputable section

open scoped BigOperators

namespace Cert.Gnn.HostOps

open Idealize.ShloMosaic Idealize.ShloMosaic.ValueIdx Cert.Gnn

/-! ## The edge words -/

/-- The source words: row 0 of the edge-index array. -/
def srcWords (ei : IVec ⟨2, ![2, 800000]⟩ 32) : IVec ⟨1, ![800000]⟩ 32 := fun i => ei (ix2 0 (i 0))

/-- The target words: row 1 of the edge-index array. -/
def dstWords (ei : IVec ⟨2, ![2, 800000]⟩ 32) : IVec ⟨1, ![800000]⟩ 32 := fun i => ei (ix2 1 (i 0))

theorem srcWords_eq (ei : IVec ⟨2, ![2, 800000]⟩ 32)
    (hs : (⟨2, ![2, 800000]⟩ : Shape).Slices ![0, 0] ⟨2, ![1, 800000]⟩)
    (hc : (⟨2, ![1, 800000]⟩ : Shape).ShapeCasts ⟨1, ![800000]⟩) :
    shapeCast ⟨1, ![800000]⟩ (extractStridedSlice ⟨2, ![1, 800000]⟩ ![0, 0] ei hs) hc = srcWords ei := by
  funext i
  obtain ⟨e, rfl⟩ : ∃ e : Fin 800000, i = ix1 e := ⟨i 0, eq_ix1 i⟩
  rw [shapeCast_1a_a_apply]
  exact slice2_axis0_apply 0 ei hs (0 : Fin 1) e (0 : Fin 2) rfl

theorem dstWords_eq (ei : IVec ⟨2, ![2, 800000]⟩ 32)
    (hs : (⟨2, ![2, 800000]⟩ : Shape).Slices ![1, 0] ⟨2, ![1, 800000]⟩)
    (hc : (⟨2, ![1, 800000]⟩ : Shape).ShapeCasts ⟨1, ![800000]⟩) :
    shapeCast ⟨1, ![800000]⟩ (extractStridedSlice ⟨2, ![1, 800000]⟩ ![1, 0] ei hs) hc = dstWords ei := by
  funext i
  obtain ⟨e, rfl⟩ : ∃ e : Fin 800000, i = ix1 e := ⟨i 0, eq_ix1 i⟩
  rw [shapeCast_1a_a_apply]
  exact slice2_axis0_apply 1 ei hs (0 : Fin 1) e (1 : Fin 2) rfl

/-- The source row of edge `e`: its word, plus 50000 when negative, read signed and clamped into [0, 49999]. -/
def srcRow (w : IVec ⟨1, ![800000]⟩ 32) (e : Fin 800000) : Fin 50000 :=
  ⟨min (Scalar.select (IntOp.cmpi .slt (w (ix1 e)) 0#32) (w (ix1 e) + 50000#32) (w (ix1 e))).toInt.toNat 49999, by omega⟩

/-- The target word of edge `e`, read signed. -/
def dstWord (w : IVec ⟨1, ![800000]⟩ 32) (e : Fin 800000) : Int := (w (ix1 e)).toInt

/-- The index word of edge `e` in the broadcast, wrapped source words: the wrapped word of `e`. -/
theorem srcIdx_apply
    (hb : (⟨1, ![800000]⟩ : Shape).BroadcastsInDim ⟨2, ![800000, 1]⟩ (![0] : Fin 1 → Fin 2))
    (hb0 : (⟨0, ![]⟩ : Shape).BroadcastsInDim ⟨1, ![800000]⟩ (![] : Fin 0 → Fin 1))
    (w : IVec ⟨1, ![800000]⟩ 32) (e : Fin 800000) (z : Fin 1) :
    broadcastInDim ⟨2, ![800000, 1]⟩ ![0] hb
        (select (cmpi .slt w (broadcastInDim ⟨1, ![800000]⟩ ![] hb0 (constantI ⟨0, ![]⟩ 32 0#32)))
          (addi w (broadcastInDim ⟨1, ![800000]⟩ ![] hb0 (constantI ⟨0, ![]⟩ 32 50000#32))) w) (ix2 e z)
      = Scalar.select (IntOp.cmpi .slt (w (ix1 e)) 0#32) (w (ix1 e) + 50000#32) (w (ix1 e)) := by
  rw [broadcastInDim_apply (![0] : Fin 1 → Fin 2) hb _ (ix2 e z) (ix1 e)
    (fun a => by
      match a with
      | ⟨0, _⟩ => exact (if_neg (by decide : ¬ (800000 : Nat) = 1)).symm)]
  rfl

/-- The row gather by source word. -/
theorem gather_src
    (wf : GatherDims.WF ⟨2, ![50000, 128]⟩ ⟨2, ![800000, 1]⟩ ⟨2, ![800000, 128]⟩ [1] [0] [] [0] [] 1 ![1, 128])
    (hb : (⟨1, ![800000]⟩ : Shape).BroadcastsInDim ⟨2, ![800000, 1]⟩ (![0] : Fin 1 → Fin 2))
    (hb0 : (⟨0, ![]⟩ : Shape).BroadcastsInDim ⟨1, ![800000]⟩ (![] : Fin 0 → Fin 1))
    (x : Mat 50000 128) (w : IVec ⟨1, ![800000]⟩ 32) :
    Host.gather (GatherAt.rowGDims 50000 128 800000 wf) x
        (broadcastInDim ⟨2, ![800000, 1]⟩ ![0] hb
          (select (cmpi .slt w (broadcastInDim ⟨1, ![800000]⟩ ![] hb0 (constantI ⟨0, ![]⟩ 32 0#32)))
            (addi w (broadcastInDim ⟨1, ![800000]⟩ ![] hb0 (constantI ⟨0, ![]⟩ 32 50000#32))) w))
      = rowsAt x (srcRow w) := by
  funext i
  obtain ⟨e, k, rfl⟩ : ∃ (e : Fin 800000) (k : Fin 128), i = ix2 e k := ⟨i 0, i 1, eq_ix2 i⟩
  rw [GatherAt.rowGather_apply (by omega : 0 < 50000) wf x _ e k, rowsAt_apply]
  refine congrArg (fun r : Fin 50000 => x (ix2 r k)) (Fin.ext ?_)
  show min (BitVec.toInt _).toNat (50000 - 1) = min (BitVec.toInt _).toNat 49999
  rw [srcIdx_apply hb hb0 w e ⟨0, Nat.one_pos⟩]

/-- An accumulating row scatter into an array that is zero at (n, k), read at (n, k): the sum of the column-k entries
    of the update rows whose index word, read signed, is n. Over abstract arrays. -/
theorem rowScatterAdd_zero_apply {N C E w : Nat}
    (wf : ScatterDims.WF ⟨2, ![N, C]⟩ ⟨2, ![E, 1]⟩ ⟨2, ![E, C]⟩ [1] [0] [0] 1)
    (x : Mat N C) (idx : IVec ⟨2, ![E, 1]⟩ w) (upd : Mat E C) (n : Fin N) (k : Fin C) (hx : x (ix2 n k) = 0) :
    Host.scatterAdd (F := Ideal) (φ := .f32) (ScatterAddAt.rowDims N C E wf) x idx upd (ix2 n k)
      = ∑ e : Fin E, if (idx (ix2 e ⟨0, Nat.one_pos⟩)).toInt = (n.val : Int) then upd (ix2 e k) else 0 := by
  show Ideal.hostScatterAdd (ScatterAddAt.rowDims N C E wf) x idx upd (ix2 n k) = _
  rw [ScatterAddAt.rowScatterAdd_apply wf x idx upd n k, hx, zero_add]

/-- The scatter-add by target word into the zero array: the broadcast index word of edge e is its target word, the
    operand is zero everywhere, so entry (n, k) is the segment sum's. -/
theorem scatter_dst
    (wf : ScatterDims.WF ⟨2, ![50000, 128]⟩ ⟨2, ![800000, 1]⟩ ⟨2, ![800000, 128]⟩ [1] [0] [0] 1)
    (hbz : (⟨0, ![]⟩ : Shape).BroadcastsInDim ⟨2, ![50000, 128]⟩ (![] : Fin 0 → Fin 2))
    (hb : (⟨1, ![800000]⟩ : Shape).BroadcastsInDim ⟨2, ![800000, 1]⟩ (![0] : Fin 1 → Fin 2))
    (w : IVec ⟨1, ![800000]⟩ 32) (u : Mat 800000 128) :
    Host.scatterAdd (F := Ideal) (ScatterAddAt.rowDims 50000 128 800000 wf)
        (broadcastInDim ⟨2, ![50000, 128]⟩ ![] hbz (constant (F := Ideal) ⟨0, ![]⟩ .f32 0x00000000#32))
        (broadcastInDim ⟨2, ![800000, 1]⟩ ![0] hb w) u
      = segSum (N := 50000) (dstWord w) u := by
  have hne : ¬ ((800000 : Nat) = 1) := by omega
  have hw : ∀ e : Fin 800000, broadcastInDim ⟨2, ![800000, 1]⟩ ![0] hb w (ix2 e ⟨0, Nat.one_pos⟩) = w (ix1 e) := fun e =>
    broadcastInDim_apply ![0] hb w (ix2 e ⟨0, Nat.one_pos⟩) (ix1 e) (fun ax => by
      match ax with
      | ⟨0, _⟩ => exact (if_neg hne).symm)
  funext i
  obtain ⟨n, k, rfl⟩ : ∃ (n : Fin 50000) (k : Fin 128), i = ix2 n k := ⟨i 0, i 1, eq_ix2 i⟩
  have hx : broadcastInDim ⟨2, ![50000, 128]⟩ ![] hbz (constant (F := Ideal) ⟨0, ![]⟩ .f32 0x00000000#32) (ix2 n k) = 0 := by
    rw [broadcastInDim_scalar_apply hbz, constant_apply, Ideal.ofBits_zero_f32]
  rw [rowScatterAdd_zero_apply wf _ _ u n k hx, segSum_apply]
  refine Finset.sum_congr rfl fun e _ => ?_
  rw [hw e]
  rfl

/-! ## Products, biases, halves -/

/-- A plain product against the transposed weight is `lin`. -/
theorem dot_transpose {n k h : Nat}
    (wf : DotDims.WF ⟨2, ![n, k]⟩ ⟨2, ![k, h]⟩ ⟨2, ![n, h]⟩ [1] [0] [0] [1] [] [])
    (ht : (⟨2, ![h, k]⟩ : Shape).Transposes [1, 0] ⟨2, ![k, h]⟩)
    (x : Mat n k) (W : Mat h k) :
    Host.dotGeneral (F := Ideal) (φ₁ := .f32) (φ₂ := .f32) (Cert.LibPlainProduct.plainDims wf) none x (transpose ⟨2, ![k, h]⟩ [1, 0] W ht)
      = lin x W := by
  funext i
  obtain ⟨a, j, rfl⟩ : ∃ (a : Fin n) (j : Fin h), i = ix2 a j := ⟨i 0, i 1, eq_ix2 i⟩
  rw [Cert.LibPlainProduct.dotGeneral_plain_apply, lin_apply]
  refine Finset.sum_congr rfl fun c _ => ?_
  rw [transpose_ix2_apply]

/-- The product plus the bias vector broadcast to a row and then down the rows is `affine`. -/
theorem affine_host {n k h : Nat}
    (wf : DotDims.WF ⟨2, ![n, k]⟩ ⟨2, ![k, h]⟩ ⟨2, ![n, h]⟩ [1] [0] [0] [1] [] [])
    (ht : (⟨2, ![h, k]⟩ : Shape).Transposes [1, 0] ⟨2, ![k, h]⟩)
    (h1 : (⟨1, ![h]⟩ : Shape).BroadcastsInDim ⟨2, ![1, h]⟩ (![1] : Fin 1 → Fin 2))
    (h2 : (⟨2, ![1, h]⟩ : Shape).BroadcastsInDim ⟨2, ![n, h]⟩ (![0, 1] : Fin 2 → Fin 2))
    (x : Mat n k) (W : Mat h k) (b : (⟨1, ![h]⟩ : Shape).Idx → EReal) :
    addf (F := Ideal) (φ := .f32)
        (Host.dotGeneral (F := Ideal) (φ₁ := .f32) (φ₂ := .f32) (Cert.LibPlainProduct.plainDims wf) none x (transpose ⟨2, ![k, h]⟩ [1, 0] W ht))
        (broadcastInDim ⟨2, ![n, h]⟩ ![0, 1] h2 (broadcastInDim ⟨2, ![1, h]⟩ ![1] h1 b))
      = affine x W (rowMat b) := by
  rw [dot_transpose wf ht x W]
  funext i
  obtain ⟨a, j, rfl⟩ : ∃ (a : Fin n) (j : Fin h), i = ix2 a j := ⟨i 0, i 1, eq_ix2 i⟩
  -- a coordinate j < h is 0 when h = 1
  have hj : j.val = if h = 1 then 0 else j.val := by
    split
    · have := j.isLt; omega
    · rfl
  rw [addf_apply, affine_apply, rowMat_apply, lin_apply,
    broadcastInDim_apply ![0, 1] h2 _ (ix2 a j) (ix2 (0 : Fin 1) j) (fun ax => by
      match ax with
      | ⟨0, _⟩ => exact (if_pos rfl).symm
      | ⟨1, _⟩ => exact hj),
    broadcastInDim_apply ![1] h1 b (ix2 (0 : Fin 1) j) (ix1 j) (fun ax => by
      match ax with
      | ⟨0, _⟩ => exact hj)]

/-- A vector reshaped to one row is `rowMat`. -/
theorem reshape_row {h : Nat} (hc : (⟨1, ![h]⟩ : Shape).ShapeCasts ⟨2, ![1, h]⟩) (b : (⟨1, ![h]⟩ : Shape).Idx → EReal) :
    shapeCast ⟨2, ![1, h]⟩ b hc = rowMat b := by
  funext i
  obtain ⟨u, j, rfl⟩ : ∃ (u : Fin 1) (j : Fin h), i = ix2 u j := ⟨i 0, i 1, eq_ix2 i⟩
  rw [rowMat_apply]
  exact shapeCast_a_1a_apply b hc u j

theorem slice_left (hs : (⟨2, ![128, 256]⟩ : Shape).Slices ![0, 0] ⟨2, ![128, 128]⟩) (W : Mat 128 256) :
    extractStridedSlice ⟨2, ![128, 128]⟩ ![0, 0] W hs = leftHalf W := by
  funext i
  obtain ⟨a, j, rfl⟩ : ∃ (a : Fin 128) (j : Fin 128), i = ix2 a j := ⟨i 0, i 1, eq_ix2 i⟩
  rw [leftHalf_apply]
  exact slice2_axis1_apply 0 W hs a j _ (Nat.zero_add _).symm

theorem slice_right (hs : (⟨2, ![128, 256]⟩ : Shape).Slices ![0, 128] ⟨2, ![128, 128]⟩) (W : Mat 128 256) :
    extractStridedSlice ⟨2, ![128, 128]⟩ ![0, 128] W hs = rightHalf W := by
  funext i
  obtain ⟨a, j, rfl⟩ : ∃ (a : Fin 128) (j : Fin 128), i = ix2 a j := ⟨i 0, i 1, eq_ix2 i⟩
  rw [rightHalf_apply]
  exact slice2_axis1_apply 128 W hs a j _ rfl

/-! ## The gated recurrent cell in whole-array operations -/

/-- The cell as the host spells it: the logistic function as 1 / (1 + e⁻ˣ) over the broadcast word for one, the three
    gates cut out of the 384 columns at 0, 128 and 256. -/
theorem gru_host {n : Nat}
    (hb1 : (⟨0, ![]⟩ : Shape).BroadcastsInDim ⟨2, ![n, 128]⟩ (![] : Fin 0 → Fin 2))
    (s0 : (⟨2, ![n, 384]⟩ : Shape).Slices ![0, 0] ⟨2, ![n, 128]⟩)
    (s1 : (⟨2, ![n, 384]⟩ : Shape).Slices ![0, 128] ⟨2, ![n, 128]⟩)
    (s2 : (⟨2, ![n, 384]⟩ : Shape).Slices ![0, 256] ⟨2, ![n, 128]⟩)
    (gi gh : Mat n 384) (h : Mat n 128) :
    let ONE : FVec Ideal ⟨2, ![n, 128]⟩ .f32 := broadcastInDim ⟨2, ![n, 128]⟩ ![] hb1 (constant (F := Ideal) ⟨0, ![]⟩ .f32 0x3F800000#32)
    let Z : FVec Ideal ⟨2, ![n, 128]⟩ .f32 := Host.divf ONE (addf ONE (Host.exp (Host.negf (addf (extractStridedSlice ⟨2, ![n, 128]⟩ ![0, 128] gi s1) (extractStridedSlice ⟨2, ![n, 128]⟩ ![0, 128] gh s1)))))
    addf (mulf (subf ONE Z)
          (Host.tanh (addf (extractStridedSlice ⟨2, ![n, 128]⟩ ![0, 256] gi s2)
            (mulf (Host.divf ONE (addf ONE (Host.exp (Host.negf (addf (extractStridedSlice ⟨2, ![n, 128]⟩ ![0, 0] gi s0) (extractStridedSlice ⟨2, ![n, 128]⟩ ![0, 0] gh s0))))))
              (extractStridedSlice ⟨2, ![n, 128]⟩ ![0, 256] gh s2)))))
        (mulf Z h)
      = gru gi gh h := by
  intro ONE Z
  funext i
  obtain ⟨a, j, rfl⟩ : ∃ (a : Fin n) (j : Fin 128), i = ix2 a j := ⟨i 0, i 1, eq_ix2 i⟩
  -- the broadcast word for one reads as `one` everywhere
  have hONE : ∀ q : (⟨2, ![n, 128]⟩ : Shape).Idx, ONE q = one := fun q =>
    broadcastInDim_scalar_apply hb1 _ q
  -- 1 / (1 + e^(-(p + q))) at an index is the logistic function of the sum there
  have hsig : ∀ (p q : FVec Ideal ⟨2, ![n, 128]⟩ .f32) (y : (⟨2, ![n, 128]⟩ : Shape).Idx),
      Host.divf ONE (addf ONE (Host.exp (Host.negf (addf p q)))) y = sigm (p y + q y) := by
    intro p q y
    show Ideal.div (ONE y) (ONE y + Ideal.exp (-(p y + q y))) = _
    rw [hONE]; rfl
  -- the three column cuts at (a, j)
  have e0 : ∀ g : Mat n 384, extractStridedSlice ⟨2, ![n, 128]⟩ ![0, 0] g s0 (ix2 a j) = g (ix2 a ⟨j.val, by omega⟩) :=
    fun g => slice2_axis1_apply 0 g s0 a j _ (Nat.zero_add _).symm
  have e1 : ∀ g : Mat n 384, extractStridedSlice ⟨2, ![n, 128]⟩ ![0, 128] g s1 (ix2 a j) = g (ix2 a ⟨128 + j.val, by omega⟩) :=
    fun g => slice2_axis1_apply 128 g s1 a j _ rfl
  have e2 : ∀ g : Mat n 384, extractStridedSlice ⟨2, ![n, 128]⟩ ![0, 256] g s2 (ix2 a j) = g (ix2 a ⟨256 + j.val, by omega⟩) :=
    fun g => slice2_axis1_apply 256 g s2 a j _ rfl
  have hZ : Z (ix2 a j) = sigm (gi (ix2 a ⟨128 + j.val, by omega⟩) + gh (ix2 a ⟨128 + j.val, by omega⟩)) := by
    refine (hsig _ _ _).trans ?_
    rw [e1, e1]
  show (ONE (ix2 a j) - Z (ix2 a j))
        * Ideal.tanh (extractStridedSlice ⟨2, ![n, 128]⟩ ![0, 256] gi s2 (ix2 a j)
            + Host.divf ONE (addf ONE (Host.exp (Host.negf (addf (extractStridedSlice ⟨2, ![n, 128]⟩ ![0, 0] gi s0) (extractStridedSlice ⟨2, ![n, 128]⟩ ![0, 0] gh s0))))) (ix2 a j)
              * extractStridedSlice ⟨2, ![n, 128]⟩ ![0, 256] gh s2 (ix2 a j))
      + Z (ix2 a j) * h (ix2 a j) = _
  rw [hONE, hZ, hsig, e0, e0, e2, e2, gru_apply]

end Cert.Gnn.HostOps

end
-- ==== Proof.ChainKeep.lean ====
/-
  The host stretches of the kernel's program and the boundaries between its regions: which buffers a step leaves alone.

  A stretch of host operations changes only the buffers its operations write, so every other buffer holds after the
  stretch what it held before it. A region changes only its two output arrays: its input arrays are read through
  windows and end as entered, and every other buffer is not touched. These are the facts that carry a value computed
  early (the halves of the message weight, the edge words, the edge messages' segment sum, the node states) unchanged
  to the boundary where a later stretch or region reads it.
-/
import proofs.«158604_j30331059044708_2_alg».proof.Proof.Patched.KernelIdeal.Frame
import proofs.«158604_j30331059044708_2_alg».proof.Proof.Spec
import proofs.«158604_j30331059044708_2_alg».proof.Proof.HostOps
import Idealize.ShloMosaic.Lib.StableHlo.Run

set_option maxRecDepth 16384

noncomputable section

namespace Cert.KernelIdeal.Chain

open Cert.KernelIdeal Cert.KernelIdeal.Gen Cert.Gnn Cert.Gnn.HostOps
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-! ## What each stretch of host operations writes -/

abbrev written0 : List (Ref sig .tc) := [main_v0, main_v1, main_v2]
abbrev written1 : List (Ref sig .tc) := [main_v4, main_v5]
abbrev written2 : List (Ref sig .tc) := [main_v7, main_v8, main_v9, main_v10, main_cst, main_v11, main_v12, main_v13, main_c, main_v14,
  main_v15, main_c_0, main_v16, main_v17, main_v18, main_v19, main_v20, main_cst_1, main_v21, main_v22, main_v23, main_v24, main_v25, main_v26]
abbrev written3 : List (Ref sig .tc) := [main_c_2, main_v28, main_v29, main_c_3, main_v30, main_v31, main_v32, main_v33, main_v34, main_cst_4,
  main_v35, main_v36, main_v37, main_v38, main_v39, main_v40]
abbrev written4 : List (Ref sig .tc) := [main_c_5, main_v42, main_v43, main_c_6, main_v44, main_v45, main_v46, main_v47, main_v48, main_cst_7,
  main_v49, main_v50, main_v51, main_v52, main_v53, main_v54]

local macro "writes_sub" : tactic => `(tactic| (
  simp only [List.Forall]
  repeat' apply And.intro
  all_goals (simp only [nullary_writes, unary_writes, binary_writes, ternary_writes, reshape_writes,
    Finset.singleton_subset_iff, List.mem_toFinset]; exact List.mem_map_of_mem (by decide))))

theorem hostOps0_writes : (hostOps0 : List (HloOp τ sig (Elt Ideal))).Forall fun op => op.writes ⊆ (written0.map (Proc.devRef (τ := τ) .tc)).toFinset := by
  writes_sub
theorem hostOps1_writes : (hostOps1 : List (HloOp τ sig (Elt Ideal))).Forall fun op => op.writes ⊆ (written1.map (Proc.devRef (τ := τ) .tc)).toFinset := by
  writes_sub
theorem hostOps2_writes : (hostOps2 : List (HloOp τ sig (Elt Ideal))).Forall fun op => op.writes ⊆ (written2.map (Proc.devRef (τ := τ) .tc)).toFinset := by
  writes_sub
theorem hostOps3_writes : (hostOps3 : List (HloOp τ sig (Elt Ideal))).Forall fun op => op.writes ⊆ (written3.map (Proc.devRef (τ := τ) .tc)).toFinset := by
  writes_sub
theorem hostOps4_writes : (hostOps4 : List (HloOp τ sig (Elt Ideal))).Forall fun op => op.writes ⊆ (written4.map (Proc.devRef (τ := τ) .tc)).toFinset := by
  writes_sub

/-- A buffer a stretch does not write keeps its contents through it. -/
theorem keepH0 (r : Ref sig .tc) (h : r ∉ written0) : W1 m ρ c (Proc.devRef .tc r) = W0 m ρ c (Proc.devRef .tc r) :=
  after_of_writes_sub hostOps0 _ hostOps0_writes h
theorem keepH1 (r : Ref sig .tc) (h : r ∉ written1) : W3 m ρ c (Proc.devRef .tc r) = W2 m ρ c (Proc.devRef .tc r) :=
  after_of_writes_sub hostOps1 _ hostOps1_writes h
theorem keepH2 (r : Ref sig .tc) (h : r ∉ written2) : W5 m ρ c (Proc.devRef .tc r) = W4 m ρ c (Proc.devRef .tc r) :=
  after_of_writes_sub hostOps2 _ hostOps2_writes h
theorem keepH3 (r : Ref sig .tc) (h : r ∉ written3) : W7 m ρ c (Proc.devRef .tc r) = W6 m ρ c (Proc.devRef .tc r) :=
  after_of_writes_sub hostOps3 _ hostOps3_writes h
theorem keepH4 (r : Ref sig .tc) (h : r ∉ written4) : W9 m ρ c (Proc.devRef .tc r) = W8 m ρ c (Proc.devRef .tc r) :=
  after_of_writes_sub hostOps4 _ hostOps4_writes h

/-! ## A region changes only its two output arrays -/

theorem keepR0 (b : Ref sig .tc) (h4 : b ≠ main_v3_0) (h5 : b ≠ main_v3_1) :
    W2 m ρ c (Proc.devRef .tc b) = W1 m ρ c (Proc.devRef .tc b) := by
  by_cases hb : ∀ w, Pipeline.arrRef spec0 w ≠ b
  · exact W2_of_ne m ρ c b hb
  · push_neg at hb
    obtain ⟨w, rfl⟩ := hb
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact (W2_arr m ρ c 3).trans (((dat0 (V1 m ρ) c).arrAt_in 3 rfl _).trans (A_eq0 (V1 m ρ) c 3))
    | ⟨4, _⟩ => exact absurd rfl h4
    | ⟨5, _⟩ => exact absurd rfl h5

theorem keepR1 (b : Ref sig .tc) (h5 : b ≠ main_v6_0) (h6 : b ≠ main_v6_1) :
    W4 m ρ c (Proc.devRef .tc b) = W3 m ρ c (Proc.devRef .tc b) := by
  by_cases hb : ∀ w, Pipeline.arrRef spec1 w ≠ b
  · exact W4_of_ne m ρ c b hb
  · push_neg at hb
    obtain ⟨w, rfl⟩ := hb
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact (W4_arr m ρ c 4).trans (((dat1 (V3 m ρ) c).arrAt_in 4 rfl _).trans (A_eq1 (V3 m ρ) c 4))
    | ⟨5, _⟩ => exact absurd rfl h5
    | ⟨6, _⟩ => exact absurd rfl h6

theorem keepR2 (b : Ref sig .tc) (h7 : b ≠ main_v27_0) (h8 : b ≠ main_v27_1) :
    W6 m ρ c (Proc.devRef .tc b) = W5 m ρ c (Proc.devRef .tc b) := by
  by_cases hb : ∀ w, Pipeline.arrRef spec2 w ≠ b
  · exact W6_of_ne m ρ c b hb
  · push_neg at hb
    obtain ⟨w, rfl⟩ := hb
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (W6_arr m ρ c 3).trans (((dat2 (V5 m ρ) c).arrAt_in 3 rfl _).trans (A_eq2 (V5 m ρ) c 3))
    | ⟨4, _⟩ => exact (W6_arr m ρ c 4).trans (((dat2 (V5 m ρ) c).arrAt_in 4 rfl _).trans (A_eq2 (V5 m ρ) c 4))
    | ⟨5, _⟩ => exact (W6_arr m ρ c 5).trans (((dat2 (V5 m ρ) c).arrAt_in 5 rfl _).trans (A_eq2 (V5 m ρ) c 5))
    | ⟨6, _⟩ => exact (W6_arr m ρ c 6).trans (((dat2 (V5 m ρ) c).arrAt_in 6 rfl _).trans (A_eq2 (V5 m ρ) c 6))
    | ⟨7, _⟩ => exact absurd rfl h7
    | ⟨8, _⟩ => exact absurd rfl h8

theorem keepR3 (b : Ref sig .tc) (h7 : b ≠ main_v41_0) (h8 : b ≠ main_v41_1) :
    W8 m ρ c (Proc.devRef .tc b) = W7 m ρ c (Proc.devRef .tc b) := by
  by_cases hb : ∀ w, Pipeline.arrRef spec3 w ≠ b
  · exact W8_of_ne m ρ c b hb
  · push_neg at hb
    obtain ⟨w, rfl⟩ := hb
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact (W8_arr m ρ c 3).trans (((dat3 (V7 m ρ) c).arrAt_in 3 rfl _).trans (A_eq3 (V7 m ρ) c 3))
    | ⟨4, _⟩ => exact (W8_arr m ρ c 4).trans (((dat3 (V7 m ρ) c).arrAt_in 4 rfl _).trans (A_eq3 (V7 m ρ) c 4))
    | ⟨5, _⟩ => exact (W8_arr m ρ c 5).trans (((dat3 (V7 m ρ) c).arrAt_in 5 rfl _).trans (A_eq3 (V7 m ρ) c 5))
    | ⟨6, _⟩ => exact (W8_arr m ρ c 6).trans (((dat3 (V7 m ρ) c).arrAt_in 6 rfl _).trans (A_eq3 (V7 m ρ) c 6))
    | ⟨7, _⟩ => exact absurd rfl h7
    | ⟨8, _⟩ => exact absurd rfl h8

theorem keepR4 (b : Ref sig .tc) (h7 : b ≠ main_v55_0) (h8 : b ≠ main_v55_1) :
    W10 m ρ c (Proc.devRef .tc b) = W9 m ρ c (Proc.devRef .tc b) := by
  by_cases hb : ∀ w, Pipeline.arrRef spec4 w ≠ b
  · exact W10_of_ne m ρ c b hb
  · push_neg at hb
    obtain ⟨w, rfl⟩ := hb
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact (W10_arr m ρ c 3).trans (((dat4 (V9 m ρ) c).arrAt_in 3 rfl _).trans (A_eq4 (V9 m ρ) c 3))
    | ⟨4, _⟩ => exact (W10_arr m ρ c 4).trans (((dat4 (V9 m ρ) c).arrAt_in 4 rfl _).trans (A_eq4 (V9 m ρ) c 4))
    | ⟨5, _⟩ => exact (W10_arr m ρ c 5).trans (((dat4 (V9 m ρ) c).arrAt_in 5 rfl _).trans (A_eq4 (V9 m ρ) c 5))
    | ⟨6, _⟩ => exact (W10_arr m ρ c 6).trans (((dat4 (V9 m ρ) c).arrAt_in 6 rfl _).trans (A_eq4 (V9 m ρ) c 6))
    | ⟨7, _⟩ => exact absurd rfl h7
    | ⟨8, _⟩ => exact absurd rfl h8

end Cert.KernelIdeal.Chain

end
-- ==== Proof.ChainStages.lean ====
/-
  What each stretch of host operations of the kernel's program computes, as the specification's functions of the
  buffer contents `Wp` the stretch starts from (any contents: the lemmas are used at each boundary of the run).
-/
import proofs.«158604_j30331059044708_2_alg».proof.Proof.Patched.KernelIdeal.Frame
import proofs.«158604_j30331059044708_2_alg».proof.Proof.Spec
import proofs.«158604_j30331059044708_2_alg».proof.Proof.HostOps
import Idealize.ShloMosaic.Lib.StableHlo.Run

set_option maxRecDepth 16384

noncomputable section

namespace Cert.KernelIdeal.Chain

open Cert.KernelIdeal Cert.KernelIdeal.Gen Cert.Gnn Cert.Gnn.HostOps
open Idealize.ShloMosaic Idealize.ShloMosaic.TcCoe Idealize.ShloMosaic.StableHlo Idealize.SL.Sem

variable (Wp : Valuation τ sig (Elt Ideal))

/-! ## Before region 0: the halves of the message weight, the node bias as a row -/

theorem stage0_v0 : after hostOps0 Wp (Proc.devRef .tc main_v0) = leftHalf (Wp (Proc.devRef .tc main_arg7)) := by
  refine Eq.trans ?_ (slice_left slices_S128x256_S128x128_0_0 (Wp (Proc.devRef .tc main_arg7)))
  after_results

theorem stage0_v1 : after hostOps0 Wp (Proc.devRef .tc main_v1) = rightHalf (Wp (Proc.devRef .tc main_arg7)) := by
  refine Eq.trans ?_ (slice_right slices_S128x256_S128x128_0_128 (Wp (Proc.devRef .tc main_arg7)))
  after_results

theorem stage0_v2 : after hostOps0 Wp (Proc.devRef .tc main_v2) = rowMat (Wp (Proc.devRef .tc main_arg4)) := by
  refine Eq.trans ?_ (reshape_row shapeCasts_S128_S1x128 (Wp (Proc.devRef .tc main_arg4)))
  after_results; rfl

/-! ## Before region 1: the two edge-side biases as rows -/

theorem stage1_v4 : after hostOps1 Wp (Proc.devRef .tc main_v4) = rowMat (Wp (Proc.devRef .tc main_arg6)) := by
  refine Eq.trans ?_ (reshape_row shapeCasts_S128_S1x128 (Wp (Proc.devRef .tc main_arg6)))
  after_results; rfl

theorem stage1_v5 : after hostOps1 Wp (Proc.devRef .tc main_v5) = rowMat (Wp (Proc.devRef .tc main_arg8)) := by
  refine Eq.trans ?_ (reshape_row shapeCasts_S128_S1x128 (Wp (Proc.devRef .tc main_arg8)))
  after_results; rfl

/-! ## Before region 2: the edge words, the edge messages' segment sum, the first aggregate, the gate biases -/

theorem stage2_v8 : after hostOps2 Wp (Proc.devRef .tc main_v8) = srcWords (Wp (Proc.devRef .tc main_arg1)) := by
  refine Eq.trans ?_ (srcWords_eq (Wp (Proc.devRef .tc main_arg1)) slices_S2x800000_S1x800000_0_0 shapeCasts_S1x800000_S800000)
  after_results; rfl

theorem stage2_v10 : after hostOps2 Wp (Proc.devRef .tc main_v10) = dstWords (Wp (Proc.devRef .tc main_arg1)) := by
  refine Eq.trans ?_ (dstWords_eq (Wp (Proc.devRef .tc main_arg1)) slices_S2x800000_S1x800000_1_0 shapeCasts_S1x800000_S800000)
  after_results; rfl

theorem stage2_v13 : after hostOps2 Wp (Proc.devRef .tc main_v13)
    = segSum (N := 50000) (dstWord (dstWords (Wp (Proc.devRef .tc main_arg1)))) (Wp (Proc.devRef .tc main_v6_1)) := by
  rw [← scatter_dst scatter_S50000x128_S800000x1_S800000x128_1_0_0_1_wf bcast_S_S50000x128 bcast_S800000_S800000x1_0,
    ← dstWords_eq (Wp (Proc.devRef .tc main_arg1)) slices_S2x800000_S1x800000_1_0 shapeCasts_S1x800000_S800000]
  after_results; rfl

theorem stage2_v24 : after hostOps2 Wp (Proc.devRef .tc main_v24)
    = fun i => segSum (N := 50000) (dstWord (dstWords (Wp (Proc.devRef .tc main_arg1))))
          (rowsAt (Wp (Proc.devRef .tc main_v3_1)) (srcRow (srcWords (Wp (Proc.devRef .tc main_arg1))))) i
        + segSum (N := 50000) (dstWord (dstWords (Wp (Proc.devRef .tc main_arg1)))) (Wp (Proc.devRef .tc main_v6_1)) i := by
  rw [← gather_src gather_S50000x128_S800000x1_S800000x128_1_0_n_n_0_1_1128_wf bcast_S800000_S800000x1_0 bcast_S_S800000,
    ← scatter_dst scatter_S50000x128_S800000x1_S800000x128_1_0_0_1_wf bcast_S_S50000x128 bcast_S800000_S800000x1_0,
    ← scatter_dst scatter_S50000x128_S800000x1_S800000x128_1_0_0_1_wf bcast_S_S50000x128 bcast_S800000_S800000x1_0,
    ← srcWords_eq (Wp (Proc.devRef .tc main_arg1)) slices_S2x800000_S1x800000_0_0 shapeCasts_S1x800000_S800000,
    ← dstWords_eq (Wp (Proc.devRef .tc main_arg1)) slices_S2x800000_S1x800000_1_0 shapeCasts_S1x800000_S800000]
  after_results_simp; rfl

theorem stage2_v25 : after hostOps2 Wp (Proc.devRef .tc main_v25) = rowMat (Wp (Proc.devRef .tc main_arg11)) := by
  refine Eq.trans ?_ (reshape_row shapeCasts_S384_S1x384 (Wp (Proc.devRef .tc main_arg11)))
  after_results; rfl

theorem stage2_v26 : after hostOps2 Wp (Proc.devRef .tc main_v26) = rowMat (Wp (Proc.devRef .tc main_arg12)) := by
  refine Eq.trans ?_ (reshape_row shapeCasts_S384_S1x384 (Wp (Proc.devRef .tc main_arg12)))
  after_results; rfl

/-! ## Before regions 3 and 4: the next aggregate from the stored words and the stored segment sum -/

theorem stage3_v38 : after hostOps3 Wp (Proc.devRef .tc main_v38)
    = fun i => segSum (N := 50000) (dstWord (Wp (Proc.devRef .tc main_v10)))
          (rowsAt (Wp (Proc.devRef .tc main_v27_1)) (srcRow (Wp (Proc.devRef .tc main_v8)))) i
        + Wp (Proc.devRef .tc main_v13) i := by
  rw [← gather_src gather_S50000x128_S800000x1_S800000x128_1_0_n_n_0_1_1128_wf bcast_S800000_S800000x1_0 bcast_S_S800000,
    ← scatter_dst scatter_S50000x128_S800000x1_S800000x128_1_0_0_1_wf bcast_S_S50000x128 bcast_S800000_S800000x1_0]
  after_results_simp; rfl

theorem stage3_v39 : after hostOps3 Wp (Proc.devRef .tc main_v39) = rowMat (Wp (Proc.devRef .tc main_arg11)) := by
  refine Eq.trans ?_ (reshape_row shapeCasts_S384_S1x384 (Wp (Proc.devRef .tc main_arg11)))
  after_results; rfl

theorem stage3_v40 : after hostOps3 Wp (Proc.devRef .tc main_v40) = rowMat (Wp (Proc.devRef .tc main_arg12)) := by
  refine Eq.trans ?_ (reshape_row shapeCasts_S384_S1x384 (Wp (Proc.devRef .tc main_arg12)))
  after_results; rfl

theorem stage4_v52 : after hostOps4 Wp (Proc.devRef .tc main_v52)
    = fun i => segSum (N := 50000) (dstWord (Wp (Proc.devRef .tc main_v10)))
          (rowsAt (Wp (Proc.devRef .tc main_v41_1)) (srcRow (Wp (Proc.devRef .tc main_v8)))) i
        + Wp (Proc.devRef .tc main_v13) i := by
  rw [← gather_src gather_S50000x128_S800000x1_S800000x128_1_0_n_n_0_1_1128_wf bcast_S800000_S800000x1_0 bcast_S_S800000,
    ← scatter_dst scatter_S50000x128_S800000x1_S800000x128_1_0_0_1_wf bcast_S_S50000x128 bcast_S800000_S800000x1_0]
  after_results_simp; rfl

theorem stage4_v53 : after hostOps4 Wp (Proc.devRef .tc main_v53) = rowMat (Wp (Proc.devRef .tc main_arg11)) := by
  refine Eq.trans ?_ (reshape_row shapeCasts_S384_S1x384 (Wp (Proc.devRef .tc main_arg11)))
  after_results; rfl

theorem stage4_v54 : after hostOps4 Wp (Proc.devRef .tc main_v54) = rowMat (Wp (Proc.devRef .tc main_arg12)) := by
  refine Eq.trans ?_ (reshape_row shapeCasts_S384_S1x384 (Wp (Proc.devRef .tc main_arg12)))
  after_results; rfl

end Cert.KernelIdeal.Chain

end
-- ==== Proof.Region0.lean ====
/-
  Region 0 of the kernel program, read as values: after its ten row blocks the first output array holds the projected
  node states x · W_nodeᵀ + b (an entry is the sum over the 64 input features plus the bias of its column), and the
  second holds their product with the node half of the message weight, h · W_msg_hᵀ.

  Each point of the grid writes one block of 5000 rows; its stored values are read entry by entry (the matrix-unit
  product into zeros is a finite sum, the transposed weight is read with its coordinates exchanged, the bias row is
  the same on every row), the input blocks are read off the arrays where the block's rectangle says, and the ten row
  blocks cover the array.
-/
import proofs.«158604_j30331059044708_2_alg».proof.Proof.Patched.KernelIdeal.Frame
import proofs.«158604_j30331059044708_2_alg».proof.Proof.Spec
import proofs.«158604_j30331059044708_2_alg».proof.Proof.LibPlainProduct
import Idealize.ShloMosaic.Lib.ValueLayout
import Idealize.ShloMosaic.Lib.Pipeline.Value

set_option maxRecDepth 16384

noncomputable section

namespace Cert.KernelIdeal.RegionVal

open Idealize.ShloMosaic Idealize.ShloMosaic.ValueIdx Idealize.ShloMosaic.TcCoe
open Idealize.SL.Sem
open Idealize.ShloMosaic.Pipeline (Dat Cfg Window)
open Cert.KernelIdeal Cert.KernelIdeal.Gen Cert.Gnn

variable (V : (c : Dev nD) → (b : Ref sig .tc) → Buf (Elt Ideal) ((c : Thread nD τ).loc b))

/-! ## Small readings -/

/-- The zero offsets, however spelt. -/
theorem hz0 : (![0, 0] : Fin 2 → Nat) = fun _ => 0 := funext fun a => by fin_cases a <;> rfl

/-- The transpose of a matrix read at (a, b) is the matrix at (b, a). -/
theorem transpose2_apply0 {α : Type} {m n : Nat} (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) := by
  refine transpose_apply [1, 0] x h (ix2 a b) (ix2 b a) fun ax => ?_
  match ax with
  | ⟨0, _⟩ => rfl
  | ⟨1, _⟩ => rfl

/-! ## The payloads at an entry -/

/-- The first stored value at entry (p, q): row p of the node block against row q of the weight, plus the bias. -/
theorem pay0_1_apply (x0 : Vec Ideal S5000x64 .f32) (x1 : Vec Ideal S128x64 .f32) (x2 : Vec Ideal S1x128 .f32)
    (p : Fin 5000) (q : Fin 128) :
    k0_pay1 (F := Ideal) x0 x1 x2 (ix2 p q) = (∑ k : Fin 64, x0 (ix2 p k) * x1 (ix2 q k)) + x2 (ix2 0 q) := by
  unfold k0_pay1
  refine (addf_apply _ _ _).trans ?_
  refine congrArg₂ (· + ·) ?_ ?_
  · refine (Cert.LibPlainProduct.matmul_zero_plain_apply _ none _ _ p q).trans ?_
    refine Finset.sum_congr rfl fun k _ => ?_
    refine congrArg₂ (· * ·) rfl ?_
    exact transpose2_apply0 _ _ k q
  · refine (broadcastTo_1b_ab_apply _ _ p q).trans ?_
    rw [shapeCast_self]

/-- The second stored value at entry (p, q): row p of the first stored value against row q of the message weight. -/
theorem pay0_2_apply (x0 : Vec Ideal S5000x64 .f32) (x1 : Vec Ideal S128x64 .f32) (x2 : Vec Ideal S1x128 .f32)
    (x3 : Vec Ideal S128x128 .f32) (p : Fin 5000) (q : Fin 128) :
    k0_pay2 (F := Ideal) x0 x1 x2 x3 (ix2 p q) = ∑ k : Fin 128, k0_pay1 (F := Ideal) x0 x1 x2 (ix2 p k) * x3 (ix2 q k) := by
  unfold k0_pay2
  refine (Cert.LibPlainProduct.matmul_zero_plain_apply _ none _ _ p q).trans ?_
  refine Finset.sum_congr rfl fun k _ => ?_
  refine congrArg₂ (· * ·) rfl ?_
  refine (transpose2_apply0 _ _ k q).trans ?_
  rw [shapeCast_self]
  rfl

/-! ## The index maps over the grid -/

/-- The node block and both output blocks move together down the rows; the weights and the bias stay at block 0. -/
theorem idx_facts0 : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0
    ∧ win0_5.index t (0 : Fin 2) = win0_4.index t (0 : Fin 2) ∧ win0_5.index t (1 : Fin 2) = 0
    ∧ win0_4.index t (0 : Fin 2) ≤ 9 :=
  (by decide +kernel : ∀ t : Fin grid0.N, _)

/-- Every row block is some point's. -/
theorem idx_onto0 : ∀ q0 : Fin 10, ∃ t : Fin cfg0.N, win0_4.index t = ![q0.val, 0] ∧ win0_5.index t = ![q0.val, 0] :=
  (by decide +kernel : ∀ q0 : Fin 10, ∃ t : Fin grid0.N, win0_4.index t = ![q0.val, 0] ∧ win0_5.index t = ![q0.val, 0])

/-! ## The input blocks read off the arrays -/

theorem iblk0_0_apply (c : Dev nD) (t : Fin cfg0.N) (p : Fin 5000) (k : Fin 64) (r : Fin 50000)
    (hr : r.val = win0_4.index t (0 : Fin 2) * 5000 + p.val) :
    iblk0 V c 0 t (ix2 p k) = V c main_arg0 (ix2 r k) := by
  obtain ⟨e0, e1, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

theorem iblk0_1_apply (c : Dev nD) (t : Fin cfg0.N) (a : Fin 128) (b : Fin 64) :
    iblk0 V c 1 t (ix2 a b) = V c main_arg3 (ix2 a b) := by
  obtain ⟨-, -, e2, e3, -⟩ := idx_facts0 t
  show V c main_arg3 (((cfg0.win 1).blk t).view.emb (ix2 a b)) = V c main_arg3 (ix2 a b)
  refine congrArg (V c main_arg3) (funext fun ax => Fin.ext ?_)
  match ax with
  | ⟨0, _⟩ => show win0_1.index t (0 : Fin 2) * 128 + 1 * a.val = a.val; omega
  | ⟨1, _⟩ => show win0_1.index t (1 : Fin 2) * 64 + 1 * b.val = b.val; omega

theorem iblk0_2_apply (c : Dev nD) (t : Fin cfg0.N) (a : Fin 1) (b : Fin 128) :
    iblk0 V c 2 t (ix2 a b) = V c main_v2 (ix2 a b) := by
  obtain ⟨-, -, -, -, e4, e5, -⟩ := idx_facts0 t
  show V c main_v2 (((cfg0.win 2).blk t).view.emb (ix2 a b)) = V c main_v2 (ix2 a b)
  refine congrArg (V c main_v2) (funext fun ax => Fin.ext ?_)
  match ax with
  | ⟨0, _⟩ => show win0_2.index t (0 : Fin 2) * 1 + 1 * a.val = a.val; omega
  | ⟨1, _⟩ => show win0_2.index t (1 : Fin 2) * 128 + 1 * b.val = b.val; omega

theorem iblk0_3_apply (c : Dev nD) (t : Fin cfg0.N) (a : Fin 128) (b : Fin 128) :
    iblk0 V c 3 t (ix2 a b) = V c main_v0 (ix2 a b) := by
  obtain ⟨-, -, -, -, -, -, e6, e7, -⟩ := idx_facts0 t
  show V c main_v0 (((cfg0.win 3).blk t).view.emb (ix2 a b)) = V c main_v0 (ix2 a b)
  refine congrArg (V c main_v0) (funext fun ax => Fin.ext ?_)
  match ax with
  | ⟨0, _⟩ => show win0_3.index t (0 : Fin 2) * 128 + 1 * a.val = a.val; omega
  | ⟨1, _⟩ => show win0_3.index t (1 : Fin 2) * 128 + 1 * b.val = b.val; omega

/-- The first stored value of point t at (p, k) is the projected node state at the array's row. -/
theorem h_blk0 (c : Dev nD) (t : Fin cfg0.N) (p : Fin 5000) (k : Fin 128) (r : Fin 50000)
    (hr : r.val = win0_4.index t (0 : Fin 2) * 5000 + p.val) :
    k0_pay1 (F := Ideal) (iblk0 V c 0 t) (iblk0 V c 1 t) (iblk0 V c 2 t) (ix2 p k)
      = affine (V c main_arg0) (V c main_arg3) (V c main_v2) (ix2 r k) := by
  refine (pay0_1_apply _ _ _ p k).trans ?_
  refine Eq.trans ?_ (affine_apply (V c main_arg0) (V c main_arg3) (V c main_v2) r k).symm
  refine congrArg₂ (· + ·) (Finset.sum_congr rfl fun j _ => congrArg₂ (· * ·) ?_ ?_) ?_
  · exact iblk0_0_apply V c t p j r hr
  · exact iblk0_1_apply V c t k j
  · exact iblk0_2_apply V c t 0 k

/-! ## Output window 4: the projected node states -/

theorem flushed0_4_eq (c : Dev nD) (t : Fin cfg0.N) :
    (dat0 (F := Ideal) V c).flushed 4 t
      = ((cfg0.win 4).blk t).view.read (Elt Ideal) (affine (V c main_arg0) (V c main_arg3) (V c main_v2)) := by
  show (cfg0.win 4).cut (grid0.coords t) ((dat0 V c).after 4 t) = _
  rw [after0_4]
  unfold out0_4
  rw [View.canon_unit_zero hz0]
  simp only [View.ld_unit_zero (S := S5000x64) hz0, View.ld_unit_zero (S := S128x64) hz0, View.ld_unit_zero (S := S1x128) hz0]
  obtain ⟨-, -, -, -, -, -, -, -, e8, -, -, e11⟩ := idx_facts0 t
  funext j
  obtain ⟨p, q, rfl⟩ : ∃ (p : Fin 5000) (q : Fin 128), j = ix2 p q := ⟨j 0, j 1, eq_ix2 j⟩
  have hr : win0_4.index t (0 : Fin 2) * 5000 + p.val < 50000 := by have := p.isLt; omega
  have hemb : ((cfg0.win 4).blk t).view.emb (ix2 p q)
      = ix2 (⟨win0_4.index t (0 : Fin 2) * 5000 + p.val, hr⟩ : Fin 50000) q := by
    funext a; apply Fin.ext
    match a with
    | ⟨0, _⟩ => show win0_4.index t (0 : Fin 2) * 5000 + 1 * p.val = win0_4.index t (0 : Fin 2) * 5000 + p.val; omega
    | ⟨1, _⟩ => show win0_4.index t (1 : Fin 2) * 128 + 1 * q.val = q.val; omega
  show k0_pay1 (F := Ideal) (iblk0 V c 0 t) (iblk0 V c 1 t) (iblk0 V c 2 t) (ix2 p q)
    = affine (V c main_arg0) (V c main_arg3) (V c main_v2) (((cfg0.win 4).blk t).view.emb (ix2 p q))
  rw [hemb]
  exact h_blk0 V c t p q _ rfl

theorem mem_blk0_4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v3_0).slice (win0_4.rect t)).set ↔ _
  rw [View.set_slice_whole, Rect.mem_set_unit]
  exact Iff.rfl

theorem cover0_4_all (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht, -⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After region 0 the first output array holds the projected node states x · W_nodeᵀ + b. -/
theorem region0_h (c : Dev nD) :
    (dat0 (F := Ideal) V c).arrAt 4 cfg0.N = affine (V c main_arg0) (V c main_arg3) (V c main_v2) :=
  (dat0 (F := Ideal) V c).arrAt_eq_of_cover 4 _ (fun t _ => flushed0_4_eq V c t) cover0_4_all

/-! ## Output window 5: the node half of the messages -/

theorem flushed0_5_eq (c : Dev nD) (t : Fin cfg0.N) :
    (dat0 (F := Ideal) V c).flushed 5 t
      = ((cfg0.win 5).blk t).view.read (Elt Ideal)
          (lin (affine (V c main_arg0) (V c main_arg3) (V c main_v2)) (V c main_v0)) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S128x64) hz0, View.ld_unit_zero (S := S1x128) hz0,
    View.ld_unit_zero (S := S128x128) hz0]
  obtain ⟨-, -, -, -, -, -, -, -, -, e9, e10, e11⟩ := idx_facts0 t
  funext j
  obtain ⟨p, q, rfl⟩ : ∃ (p : Fin 5000) (q : Fin 128), j = ix2 p q := ⟨j 0, j 1, eq_ix2 j⟩
  have hr : win0_4.index t (0 : Fin 2) * 5000 + p.val < 50000 := by have := p.isLt; omega
  have hemb : ((cfg0.win 5).blk t).view.emb (ix2 p q)
      = ix2 (⟨win0_4.index t (0 : Fin 2) * 5000 + p.val, hr⟩ : Fin 50000) q := by
    funext a; apply Fin.ext
    match a with
    | ⟨0, _⟩ => show win0_5.index t (0 : Fin 2) * 5000 + 1 * p.val = win0_4.index t (0 : Fin 2) * 5000 + p.val; omega
    | ⟨1, _⟩ => show win0_5.index t (1 : Fin 2) * 128 + 1 * q.val = q.val; omega
  show k0_pay2 (F := Ideal) (iblk0 V c 0 t) (iblk0 V c 1 t) (iblk0 V c 2 t) (iblk0 V c 3 t) (ix2 p q)
    = lin (affine (V c main_arg0) (V c main_arg3) (V c main_v2)) (V c main_v0) (((cfg0.win 5).blk t).view.emb (ix2 p q))
  rw [hemb]
  refine (pay0_2_apply _ _ _ _ p q).trans ?_
  refine Eq.trans ?_ (lin_apply (affine (V c main_arg0) (V c main_arg3) (V c main_v2)) (V c main_v0) _ q).symm
  refine Finset.sum_congr rfl fun k _ => congrArg₂ (· * ·) ?_ ?_
  · exact h_blk0 V c t p k _ rfl
  · exact iblk0_3_apply V c t q k

theorem mem_blk0_5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v3_1).slice (win0_5.rect t)).set ↔ _
  rw [View.set_slice_whole, Rect.mem_set_unit]
  exact Iff.rfl

theorem cover0_5_all (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, -, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After region 0 the second output array holds the node half of the messages, h · W_msg_hᵀ. -/
theorem region0_hW (c : Dev nD) :
    (dat0 (F := Ideal) V c).arrAt 5 cfg0.N
      = lin (affine (V c main_arg0) (V c main_arg3) (V c main_v2)) (V c main_v0) :=
  (dat0 (F := Ideal) V c).arrAt_eq_of_cover 5 _ (fun t _ => flushed0_5_eq V c t) cover0_5_all

end Cert.KernelIdeal.RegionVal

end
-- ==== Proof.Region1.lean ====
/-
  Region 1 of the kernel program, read as values: after its hundred row blocks the first output array holds the
  projected edge features ef · W_edgeᵀ + b_e (an entry is the sum over the 32 input features plus the bias of its
  column), and the second holds the edge half of every message, e · W_msg_eᵀ + b_m.

  Each point of the grid writes one block of 8000 rows; its stored values are read entry by entry (the matrix-unit
  product into zeros is a finite sum, the transposed weight is read with its coordinates exchanged, a bias row is
  the same on every row), the input blocks are read off the arrays where the block's rectangle says, and the hundred
  row blocks cover the array.
-/
import proofs.«158604_j30331059044708_2_alg».proof.Proof.Patched.KernelIdeal.Frame
import proofs.«158604_j30331059044708_2_alg».proof.Proof.Spec
import proofs.«158604_j30331059044708_2_alg».proof.Proof.LibPlainProduct
import Idealize.ShloMosaic.Lib.ValueLayout
import Idealize.ShloMosaic.Lib.Pipeline.Value

set_option maxRecDepth 16384

noncomputable section

namespace Cert.KernelIdeal.RegionVal

open Idealize.ShloMosaic Idealize.ShloMosaic.ValueIdx Idealize.ShloMosaic.TcCoe
open Idealize.SL.Sem
open Idealize.ShloMosaic.Pipeline (Dat Cfg Window)
open Cert.KernelIdeal Cert.KernelIdeal.Gen Cert.Gnn

variable (V : (c : Dev nD) → (b : Ref sig .tc) → Buf (Elt Ideal) ((c : Thread nD τ).loc b))

/-! ## Small readings -/

/-- The zero offsets, however spelt. -/
theorem hz1 : (![0, 0] : Fin 2 → Nat) = fun _ => 0 := funext fun a => by fin_cases a <;> rfl

/-- The transpose of a matrix read at (a, b) is the matrix at (b, a). -/
theorem transpose2_apply1 {α : Type} {m n : Nat} (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) := by
  refine transpose_apply [1, 0] x h (ix2 a b) (ix2 b a) fun ax => ?_
  match ax with
  | ⟨0, _⟩ => rfl
  | ⟨1, _⟩ => rfl

/-! ## The payloads at an entry -/

/-- The first stored value at entry (p, q): row p of the edge block against row q of the weight, plus the bias. -/
theorem pay1_1_apply (x0 : Vec Ideal S8000x32 .f32) (x1 : Vec Ideal S128x32 .f32) (x2 : Vec Ideal S1x128 .f32)
    (p : Fin 8000) (q : Fin 128) :
    k1_pay1 (F := Ideal) x0 x1 x2 (ix2 p q) = (∑ k : Fin 32, x0 (ix2 p k) * x1 (ix2 q k)) + x2 (ix2 0 q) := by
  unfold k1_pay1
  refine (addf_apply _ _ _).trans ?_
  refine congrArg₂ (· + ·) ?_ ?_
  · refine (Cert.LibPlainProduct.matmul_zero_plain_apply _ none _ _ p q).trans ?_
    refine Finset.sum_congr rfl fun k _ => ?_
    refine congrArg₂ (· * ·) rfl ?_
    exact transpose2_apply1 _ _ k q
  · refine (broadcastTo_1b_ab_apply _ _ p q).trans ?_
    rw [shapeCast_self]

/-- The second stored value at entry (p, q): row p of the first stored value against row q of the message weight,
    plus the message bias. -/
theorem pay1_2_apply (x0 : Vec Ideal S8000x32 .f32) (x1 : Vec Ideal S128x32 .f32) (x2 : Vec Ideal S1x128 .f32)
    (x3 : Vec Ideal S128x128 .f32) (x4 : Vec Ideal S1x128 .f32) (p : Fin 8000) (q : Fin 128) :
    k1_pay2 (F := Ideal) x0 x1 x2 x3 x4 (ix2 p q)
      = (∑ k : Fin 128, k1_pay1 (F := Ideal) x0 x1 x2 (ix2 p k) * x3 (ix2 q k)) + x4 (ix2 0 q) := by
  unfold k1_pay2
  refine (addf_apply _ _ _).trans ?_
  refine congrArg₂ (· + ·) ?_ ?_
  · refine (Cert.LibPlainProduct.matmul_zero_plain_apply _ none _ _ p q).trans ?_
    refine Finset.sum_congr rfl fun k _ => ?_
    refine congrArg₂ (· * ·) rfl ?_
    refine (transpose2_apply1 _ _ k q).trans ?_
    rw [shapeCast_self]
    rfl
  · refine (broadcastTo_1b_ab_apply _ _ p q).trans ?_
    rw [shapeCast_self]

/-! ## The index maps over the grid -/

/-- The edge block and both output blocks move together down the rows; the weights and the biases stay at block 0. -/
theorem idx_facts1 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0
    ∧ win1_6.index t (0 : Fin 2) = win1_5.index t (0 : Fin 2) ∧ win1_6.index t (1 : Fin 2) = 0
    ∧ win1_5.index t (0 : Fin 2) ≤ 99 :=
  (by decide +kernel : ∀ t : Fin grid1.N, _)

/-- Every row block is some point's. -/
theorem idx_onto1 : ∀ q0 : Fin 100, ∃ t : Fin cfg1.N, win1_5.index t = ![q0.val, 0] ∧ win1_6.index t = ![q0.val, 0] :=
  (by decide +kernel : ∀ q0 : Fin 100, ∃ t : Fin grid1.N, win1_5.index t = ![q0.val, 0] ∧ win1_6.index t = ![q0.val, 0])

/-! ## The input blocks read off the arrays -/

theorem iblk1_0_apply (c : Dev nD) (t : Fin cfg1.N) (p : Fin 8000) (k : Fin 32) (r : Fin 800000)
    (hr : r.val = win1_5.index t (0 : Fin 2) * 8000 + p.val) :
    iblk1 V c 0 t (ix2 p k) = V c main_arg2 (ix2 r k) := by
  obtain ⟨e0, e1, -⟩ := idx_facts1 t
  show V c main_arg2 (((cfg1.win 0).blk t).view.emb (ix2 p k)) = V c main_arg2 (ix2 r k)
  refine congrArg (V c main_arg2) (funext fun a => Fin.ext ?_)
  match a with
  | ⟨0, _⟩ => show win1_0.index t (0 : Fin 2) * 8000 + 1 * p.val = r.val; omega
  | ⟨1, _⟩ => show win1_0.index t (1 : Fin 2) * 32 + 1 * k.val = k.val; omega

theorem iblk1_1_apply (c : Dev nD) (t : Fin cfg1.N) (a : Fin 128) (b : Fin 32) :
    iblk1 V c 1 t (ix2 a b) = V c main_arg5 (ix2 a b) := by
  obtain ⟨-, -, e2, e3, -⟩ := idx_facts1 t
  show V c main_arg5 (((cfg1.win 1).blk t).view.emb (ix2 a b)) = V c main_arg5 (ix2 a b)
  refine congrArg (V c main_arg5) (funext fun ax => Fin.ext ?_)
  match ax with
  | ⟨0, _⟩ => show win1_1.index t (0 : Fin 2) * 128 + 1 * a.val = a.val; omega
  | ⟨1, _⟩ => show win1_1.index t (1 : Fin 2) * 32 + 1 * b.val = b.val; omega

theorem iblk1_2_apply (c : Dev nD) (t : Fin cfg1.N) (a : Fin 1) (b : Fin 128) :
    iblk1 V c 2 t (ix2 a b) = V c main_v4 (ix2 a b) := by
  obtain ⟨-, -, -, -, e4, e5, -⟩ := idx_facts1 t
  show V c main_v4 (((cfg1.win 2).blk t).view.emb (ix2 a b)) = V c main_v4 (ix2 a b)
  refine congrArg (V c main_v4) (funext fun ax => Fin.ext ?_)
  match ax with
  | ⟨0, _⟩ => show win1_2.index t (0 : Fin 2) * 1 + 1 * a.val = a.val; omega
  | ⟨1, _⟩ => show win1_2.index t (1 : Fin 2) * 128 + 1 * b.val = b.val; omega

theorem iblk1_3_apply (c : Dev nD) (t : Fin cfg1.N) (a : Fin 128) (b : Fin 128) :
    iblk1 V c 3 t (ix2 a b) = V c main_v1 (ix2 a b) := by
  obtain ⟨-, -, -, -, -, -, e6, e7, -⟩ := idx_facts1 t
  show V c main_v1 (((cfg1.win 3).blk t).view.emb (ix2 a b)) = V c main_v1 (ix2 a b)
  refine congrArg (V c main_v1) (funext fun ax => Fin.ext ?_)
  match ax with
  | ⟨0, _⟩ => show win1_3.index t (0 : Fin 2) * 128 + 1 * a.val = a.val; omega
  | ⟨1, _⟩ => show win1_3.index t (1 : Fin 2) * 128 + 1 * b.val = b.val; omega

theorem iblk1_4_apply (c : Dev nD) (t : Fin cfg1.N) (a : Fin 1) (b : Fin 128) :
    iblk1 V c 4 t (ix2 a b) = V c main_v5 (ix2 a b) := by
  obtain ⟨-, -, -, -, -, -, -, -, e8, e9, -⟩ := idx_facts1 t
  show V c main_v5 (((cfg1.win 4).blk t).view.emb (ix2 a b)) = V c main_v5 (ix2 a b)
  refine congrArg (V c main_v5) (funext fun ax => Fin.ext ?_)
  match ax with
  | ⟨0, _⟩ => show win1_4.index t (0 : Fin 2) * 1 + 1 * a.val = a.val; omega
  | ⟨1, _⟩ => show win1_4.index t (1 : Fin 2) * 128 + 1 * b.val = b.val; omega

/-- The first stored value of point t at (p, k) is the projected edge feature at the array's row. -/
theorem e_blk1 (c : Dev nD) (t : Fin cfg1.N) (p : Fin 8000) (k : Fin 128) (r : Fin 800000)
    (hr : r.val = win1_5.index t (0 : Fin 2) * 8000 + p.val) :
    k1_pay1 (F := Ideal) (iblk1 V c 0 t) (iblk1 V c 1 t) (iblk1 V c 2 t) (ix2 p k)
      = affine (V c main_arg2) (V c main_arg5) (V c main_v4) (ix2 r k) := by
  refine (pay1_1_apply _ _ _ p k).trans ?_
  refine Eq.trans ?_ (affine_apply (V c main_arg2) (V c main_arg5) (V c main_v4) r k).symm
  refine congrArg₂ (· + ·) (Finset.sum_congr rfl fun j _ => congrArg₂ (· * ·) ?_ ?_) ?_
  · exact iblk1_0_apply V c t p j r hr
  · exact iblk1_1_apply V c t k j
  · exact iblk1_2_apply V c t 0 k

/-! ## Output window 5: the projected edge features -/

theorem flushed1_5_eq (c : Dev nD) (t : Fin cfg1.N) :
    (dat1 (F := Ideal) V c).flushed 5 t
      = ((cfg1.win 5).blk t).view.read (Elt Ideal) (affine (V c main_arg2) (V c main_arg5) (V c main_v4)) := by
  show (cfg1.win 5).cut (grid1.coords t) ((dat1 V c).after 5 t) = _
  rw [after1_5]
  unfold out1_5
  rw [View.canon_unit_zero hz1]
  simp only [View.ld_unit_zero (S := S8000x32) hz1, View.ld_unit_zero (S := S128x32) hz1, View.ld_unit_zero (S := S1x128) hz1]
  obtain ⟨-, -, -, -, -, -, -, -, -, -, e10, -, -, e13⟩ := idx_facts1 t
  funext j
  obtain ⟨p, q, rfl⟩ : ∃ (p : Fin 8000) (q : Fin 128), j = ix2 p q := ⟨j 0, j 1, eq_ix2 j⟩
  have hr : win1_5.index t (0 : Fin 2) * 8000 + p.val < 800000 := by have := p.isLt; omega
  have hemb : ((cfg1.win 5).blk t).view.emb (ix2 p q)
      = ix2 (⟨win1_5.index t (0 : Fin 2) * 8000 + p.val, hr⟩ : Fin 800000) q := by
    funext a; apply Fin.ext
    match a with
    | ⟨0, _⟩ => show win1_5.index t (0 : Fin 2) * 8000 + 1 * p.val = win1_5.index t (0 : Fin 2) * 8000 + p.val; omega
    | ⟨1, _⟩ => show win1_5.index t (1 : Fin 2) * 128 + 1 * q.val = q.val; omega
  show k1_pay1 (F := Ideal) (iblk1 V c 0 t) (iblk1 V c 1 t) (iblk1 V c 2 t) (ix2 p q)
    = affine (V c main_arg2) (V c main_arg5) (V c main_v4) (((cfg1.win 5).blk t).view.emb (ix2 p q))
  rw [hemb]
  exact e_blk1 V c t p q _ rfl

theorem mem_blk1_5 (t : Fin cfg1.N) (i : S800000x128.Idx) :
    i ∈ ((cfg1.win 5).blk t).view.set ↔ ∀ a : Fin 2, win1_5.index t a * S8000x128.size a ≤ (i a).val
      ∧ (i a).val < win1_5.index t a * S8000x128.size a + S8000x128.size a := by
  show i ∈ ((View.whole main_v6_0).slice (win1_5.rect t)).set ↔ _
  rw [View.set_slice_whole, Rect.mem_set_unit]
  exact Iff.rfl

theorem cover1_5_all (i : S800000x128.Idx) :
    ∃ t : Fin cfg1.N, (cfg1.win 5).flush t = true ∧ i ∈ ((cfg1.win 5).blk t).view.set := by
  have hi0 : (i 0).val < 800000 := (i 0).isLt
  have hi1 : (i 1).val < 128 := (i 1).isLt
  obtain ⟨t, ht, -⟩ := idx_onto1 ⟨(i 0).val / 8000, by omega⟩
  have q0 : win1_5.index t (0 : Fin 2) = (i 0).val / 8000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 8000 ≤ (i 0).val ∧ (i 0).val < win1_5.index t (0 : Fin 2) * 8000 + 8000; omega
  | ⟨1, _⟩ => show win1_5.index t (1 : Fin 2) * 128 ≤ (i 1).val ∧ (i 1).val < win1_5.index t (1 : Fin 2) * 128 + 128; omega

/-- After region 1 the first output array holds the projected edge features ef · W_edgeᵀ + b_e. -/
theorem region1_e (c : Dev nD) :
    (dat1 (F := Ideal) V c).arrAt 5 cfg1.N = affine (V c main_arg2) (V c main_arg5) (V c main_v4) :=
  (dat1 (F := Ideal) V c).arrAt_eq_of_cover 5 _ (fun t _ => flushed1_5_eq V c t) cover1_5_all

/-! ## Output window 6: the edge half of the messages -/

theorem flushed1_6_eq (c : Dev nD) (t : Fin cfg1.N) :
    (dat1 (F := Ideal) V c).flushed 6 t
      = ((cfg1.win 6).blk t).view.read (Elt Ideal)
          (affine (affine (V c main_arg2) (V c main_arg5) (V c main_v4)) (V c main_v1) (V c main_v5)) := by
  show (cfg1.win 6).cut (grid1.coords t) ((dat1 V c).after 6 t) = _
  rw [after1_6]
  unfold out1_6
  rw [View.canon_unit_zero hz1]
  simp only [View.ld_unit_zero (S := S8000x32) hz1, View.ld_unit_zero (S := S128x32) hz1, View.ld_unit_zero (S := S1x128) hz1,
    View.ld_unit_zero (S := S128x128) hz1]
  obtain ⟨-, -, -, -, -, -, -, -, -, -, -, e11, e12, e13⟩ := idx_facts1 t
  funext j
  obtain ⟨p, q, rfl⟩ : ∃ (p : Fin 8000) (q : Fin 128), j = ix2 p q := ⟨j 0, j 1, eq_ix2 j⟩
  have hr : win1_5.index t (0 : Fin 2) * 8000 + p.val < 800000 := by have := p.isLt; omega
  have hemb : ((cfg1.win 6).blk t).view.emb (ix2 p q)
      = ix2 (⟨win1_5.index t (0 : Fin 2) * 8000 + p.val, hr⟩ : Fin 800000) q := by
    funext a; apply Fin.ext
    match a with
    | ⟨0, _⟩ => show win1_6.index t (0 : Fin 2) * 8000 + 1 * p.val = win1_5.index t (0 : Fin 2) * 8000 + p.val; omega
    | ⟨1, _⟩ => show win1_6.index t (1 : Fin 2) * 128 + 1 * q.val = q.val; omega
  show k1_pay2 (F := Ideal) (iblk1 V c 0 t) (iblk1 V c 1 t) (iblk1 V c 2 t) (iblk1 V c 3 t) (iblk1 V c 4 t) (ix2 p q)
    = affine (affine (V c main_arg2) (V c main_arg5) (V c main_v4)) (V c main_v1) (V c main_v5)
        (((cfg1.win 6).blk t).view.emb (ix2 p q))
  rw [hemb]
  refine (pay1_2_apply _ _ _ _ _ p q).trans ?_
  refine Eq.trans ?_ (affine_apply (affine (V c main_arg2) (V c main_arg5) (V c main_v4)) (V c main_v1) (V c main_v5) _ q).symm
  refine congrArg₂ (· + ·) (Finset.sum_congr rfl fun k _ => congrArg₂ (· * ·) ?_ ?_) ?_
  · exact e_blk1 V c t p k _ rfl
  · exact iblk1_3_apply V c t q k
  · exact iblk1_4_apply V c t 0 q

theorem mem_blk1_6 (t : Fin cfg1.N) (i : S800000x128.Idx) :
    i ∈ ((cfg1.win 6).blk t).view.set ↔ ∀ a : Fin 2, win1_6.index t a * S8000x128.size a ≤ (i a).val
      ∧ (i a).val < win1_6.index t a * S8000x128.size a + S8000x128.size a := by
  show i ∈ ((View.whole main_v6_1).slice (win1_6.rect t)).set ↔ _
  rw [View.set_slice_whole, Rect.mem_set_unit]
  exact Iff.rfl

theorem cover1_6_all (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  obtain ⟨t, -, ht⟩ := idx_onto1 ⟨(i 0).val / 8000, by omega⟩
  have q0 : win1_6.index t (0 : Fin 2) = (i 0).val / 8000 := congrFun ht 0
  have q1 : win1_6.index t (1 : Fin 2) = 0 := congrFun ht 1
  refine ⟨t, flush1_6 t, ?_⟩
  rw [mem_blk1_6]
  intro a
  match a with
  | ⟨0, _⟩ => show win1_6.index t (0 : Fin 2) * 8000 ≤ (i 0).val ∧ (i 0).val < win1_6.index t (0 : Fin 2) * 8000 + 8000; omega
  | ⟨1, _⟩ => show win1_6.index t (1 : Fin 2) * 128 ≤ (i 1).val ∧ (i 1).val < win1_6.index t (1 : Fin 2) * 128 + 128; omega

/-- After region 1 the second output array holds the edge half of the messages, e · W_msg_eᵀ + b_m. -/
theorem region1_emsg (c : Dev nD) :
    (dat1 (F := Ideal) V c).arrAt 6 cfg1.N
      = affine (affine (V c main_arg2) (V c main_arg5) (V c main_v4)) (V c main_v1) (V c main_v5) :=
  (dat1 (F := Ideal) V c).arrAt_eq_of_cover 6 _ (fun t _ => flushed1_6_eq V c t) cover1_6_all

end Cert.KernelIdeal.RegionVal

end
-- ==== Proof.Region2.lean ====
/-
  The value of fused recurrent-cell region 2 of the kernel's program, at the ideal values.

  The region walks the 50000 node rows in 25 blocks of 2000. At block t it reads rows 2000·t … 2000·t + 1999 of the
  summed messages and of the old node state, the whole of the two gate matrices (384 × 128), of the two gate biases
  (1 × 384) and of the state half of the message map (128 × 128). From these it forms the input-side and state-side
  pre-activations x · Wᵀ + b over 384 columns, cuts each into the reset, update and candidate thirds, and leaves
  (1 − z) · n + z · h in the block of the new state, and the new state contracted with the message map in the block of
  the second result. Format changes are the identity on extended reals, a product into the zero splat is the plain sum,
  and the logistic function is the specification's 1 / (1 + e⁻ˣ) because the word for one is the real one.

  An entry of either result depends on the inputs only through the entry's row, so block t of the whole-array function
  (`Cert.Gnn.gru` of the two `Cert.Gnn.affine`s; `Cert.Gnn.lin` of that) is the same function of the blocks; the 25
  blocks tile the array (the block covering row r is r / 2000), so each result array ends holding the whole-array
  function.
-/
import proofs.«158604_j30331059044708_2_alg».proof.Proof.Patched.KernelIdeal.Frame
import proofs.«158604_j30331059044708_2_alg».proof.Proof.Spec
import proofs.«158604_j30331059044708_2_alg».proof.Proof.LibPlainProduct
import Idealize.ShloMosaic.Lib.ValueLayout
import Idealize.ShloMosaic.Lib.Pipeline.Value
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen Cert.Gnn Cert.LibPlainProduct

/-! ## The cell's arithmetic at an entry -/

/-- The specification's logistic expression is the ideal logistic function: its word for one is the real one. -/
theorem sigm_eq_logistic_r2 (x : EReal) : sigm x = Ideal.logistic x := by
  unfold sigm Ideal.logistic one
  rw [Ideal.ofBits_one_f32]

/-- A logistic of a vector, at an index. -/
theorem logistic_apply_r2 {s : Shape} {φ : FTy} (a : FVec Ideal s φ) (i : s.Idx) : logistic a i = Ideal.logistic (a i) := rfl
/-- A hyperbolic tangent of a vector, at an index. -/
theorem tanh_apply_r2 {s : Shape} {φ : FTy} (a : FVec Ideal s φ) (i : s.Idx) : tanh a i = Ideal.tanh (a i) := rfl

/-- A product against a transposed N × K matrix, accumulated into the zero splat, at entry (p, j): the sum over c of
    A(p, c) · B(j, c). -/
theorem prodT_apply_r2 {M K N : Nat} {φ₁ φ₂ : FTy}
    (w : DotDims.WF ⟨2, ![M, K]⟩ ⟨2, ![K, N]⟩ ⟨2, ![M, N]⟩ [1] [0] [0] [1] [] [])
    (ht : (⟨2, ![N, K]⟩ : Shape).Transposes [1, 0] ⟨2, ![K, N]⟩)
    (A : FVec Ideal ⟨2, ![M, K]⟩ φ₁) (B : FVec Ideal ⟨2, ![N, K]⟩ φ₂) (p : Fin M) (j : Fin N) :
    matmul (plainDims w) none A (transpose ⟨2, ![K, N]⟩ [1, 0] B ht) (constant ⟨2, ![M, N]⟩ .f32 0x00000000#32) (ix2 p j)
      = ∑ c : Fin K, A (ix2 p c) * B (ix2 j c) := by
  refine (matmul_zero_plain_apply w none _ _ p j).trans ?_
  refine Finset.sum_congr rfl fun c _ => ?_
  rw [transpose_ix2_apply]

/-- The cell's 384-column products, at entry (p, j). -/
theorem prod384_apply_r2 {φ₁ φ₂ : FTy} (A : FVec Ideal S2000x128 φ₁) (B : FVec Ideal S384x128 φ₂) (p : Fin 2000) (j : Fin 384) :
    matmul dot_S2000x128_S128x384_S2000x384_1_0_0_1_n_n none A
        (transpose S128x384 [1, 0] B transposes_S384x128_p1_0_S128x384) (constant S2000x384 .f32 0x00000000#32) (ix2 p j)
      = ∑ c : Fin 128, A (ix2 p c) * B (ix2 j c) :=
  prodT_apply_r2 (M := 2000) (K := 128) (N := 384) dot_S2000x128_S128x384_S2000x384_1_0_0_1_n_n_wf
    transposes_S384x128_p1_0_S128x384 A B p j

/-- The product with the message map, at entry (p, j). -/
theorem prod128_apply_r2 {φ₁ φ₂ : FTy} (A : FVec Ideal S2000x128 φ₁) (B : FVec Ideal S128x128 φ₂) (p : Fin 2000) (j : Fin 128) :
    matmul dot_S2000x128_S128x128_S2000x128_1_0_0_1_n_n none A
        (transpose S128x128 [1, 0] B transposes_S128x128_p1_0_S128x128) (constant S2000x128 .f32 0x00000000#32) (ix2 p j)
      = ∑ c : Fin 128, A (ix2 p c) * B (ix2 j c) :=
  prodT_apply_r2 (M := 2000) (K := 128) (N := 128) dot_S2000x128_S128x128_S2000x128_1_0_0_1_n_n_wf
    transposes_S128x128_p1_0_S128x128 A B p j

/-- THE NEW STATE'S BLOCK, at entry (p, q): the cell of the blocks' pre-activations. -/
theorem state_pay_apply_r2 (x0 x1 : Vec Ideal S2000x128 .f32) (x2 x3 : Vec Ideal S384x128 .f32) (x4 x5 : Vec Ideal S1x384 .f32)
    (p : Fin 2000) (q : Fin 128) :
    k2_pay2 (F := Ideal) x0 x1 x2 x3 x4 x5 (ix2 p q) = gru (affine x0 x2 x4) (affine x1 x3 x5) x1 (ix2 p q) := by
  rw [gru_apply]
  simp only [affine_apply, sigm_eq_logistic_r2]
  unfold k2_pay2
  simp only [addf_apply, mulf_apply, subf_apply, logistic_apply_r2, tanh_apply_r2, broadcast_apply, slice2_axis1_eq,
    broadcastTo_1b_ab_apply, shapeCast_self, Nat.zero_add, one, Ideal.ofBits_def]
  rw [prod384_apply_r2, prod384_apply_r2, prod384_apply_r2, prod384_apply_r2, prod384_apply_r2, prod384_apply_r2]
  simp only [truncf_apply]

/-- THE SECOND RESULT'S BLOCK, at entry (p, q): a block of new states contracted with the message map. -/
theorem msg_pay_apply_r2 (y : FVec Ideal S2000x128 .f32) (x6 : Vec Ideal S128x128 .f32) (p : Fin 2000) (q : Fin 128) :
    k2_pay1 (F := Ideal) y x6 (ix2 p q) = lin y x6 (ix2 p q) := by
  rw [lin_apply]
  unfold k2_pay1
  simp only [shapeCast_self]
  rw [prod128_apply_r2]
  simp only [truncf_apply]

/-- An entry of the cell's output depends on its three inputs only through the entry's row: two triples of inputs whose
    rows agree give the same entry. -/
theorem gru_affine_row_r2 {n n' : Nat} (X H : Mat n 128) (X' H' : Mat n' 128) (Wih Whh : Mat 384 128) (bih bhh : Mat 1 384)
    (a : Fin n) (a' : Fin n') (hX : ∀ k, X (ix2 a k) = X' (ix2 a' k)) (hH : ∀ k, H (ix2 a k) = H' (ix2 a' k)) (j : Fin 128) :
    gru (affine X Wih bih) (affine H Whh bhh) H (ix2 a j) = gru (affine X' Wih bih) (affine H' Whh bhh) H' (ix2 a' j) := by
  simp only [gru_apply, affine_apply, hX, hH]

/-- The same for the cell's output contracted with the message map. -/
theorem lin_gru_affine_row_r2 {n n' : Nat} (X H : Mat n 128) (X' H' : Mat n' 128) (Wih Whh : Mat 384 128) (bih bhh : Mat 1 384)
    (Wm : Mat 128 128) (a : Fin n) (a' : Fin n') (hX : ∀ k, X (ix2 a k) = X' (ix2 a' k)) (hH : ∀ k, H (ix2 a k) = H' (ix2 a' k))
    (j : Fin 128) :
    lin (gru (affine X Wih bih) (affine H Whh bhh) H) Wm (ix2 a j)
      = lin (gru (affine X' Wih bih) (affine H' Whh bhh) H') Wm (ix2 a' j) := by
  rw [lin_apply, lin_apply]
  refine Finset.sum_congr rfl fun k _ => ?_
  rw [gru_affine_row_r2 X H X' H' Wih Whh bih bhh a a' hX hH k]

/-! ## The blocks -/

variable (V : (c : Dev nD) → (b : Ref sig .tc) → Buf (Elt Ideal) ((c : Thread nD τ).loc b))

theorem hz_r2 : (![0, 0] : Fin 2 → Nat) = fun _ => 0 := funext fun a => by fin_cases a <;> rfl

/-- The index maps, decided over the 25 points: the two row windows and the two results sit at row block t, column
    block 0; the five whole windows at block (0, 0). -/
theorem idx_facts_r2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0) :=
  (by decide +kernel : ∀ t : Fin grid2.N, _)

/-- Block t of the summed messages is their rows 2000·t … 2000·t + 1999. -/
theorem blk0_apply_r2 (c : Dev nD) (t : Fin cfg2.N) (p : Fin 2000) (k : Fin 128) (i : Fin 50000) (hi : i.val = 2000 * t.val + p.val) :
    (iblk2 V c 0 t : Vec Ideal S2000x128 .f32) (ix2 p k) = (V c main_v24 : S50000x128.Idx → EReal) (ix2 i k) := by
  obtain ⟨⟨e0, e1⟩, -⟩ := idx_facts_r2 t
  unfold iblk2
  rw [View.read_apply]
  show V c main_v24 _ = V c main_v24 _
  congr 1
  funext a
  apply Fin.ext
  match a with
  | ⟨0, _⟩ => show win2_0.index t (0 : Fin 2) * 2000 + 1 * p.val = i.val; rw [e0, hi]; omega
  | ⟨1, _⟩ => show win2_0.index t (1 : Fin 2) * 128 + 1 * k.val = k.val; rw [e1]; omega

/-- Block t of the old state is its rows 2000·t … 2000·t + 1999. -/
theorem blk1_apply_r2 (c : Dev nD) (t : Fin cfg2.N) (p : Fin 2000) (k : Fin 128) (i : Fin 50000) (hi : i.val = 2000 * t.val + p.val) :
    (iblk2 V c 1 t : Vec Ideal S2000x128 .f32) (ix2 p k) = (V c main_v3_0 : S50000x128.Idx → EReal) (ix2 i k) := by
  obtain ⟨-, ⟨e0, e1⟩, -⟩ := idx_facts_r2 t
  unfold iblk2
  rw [View.read_apply]
  show V c main_v3_0 _ = V c main_v3_0 _
  congr 1
  funext a
  apply Fin.ext
  match a with
  | ⟨0, _⟩ => show win2_1.index t (0 : Fin 2) * 2000 + 1 * p.val = i.val; rw [e0, hi]; omega
  | ⟨1, _⟩ => show win2_1.index t (1 : Fin 2) * 128 + 1 * k.val = k.val; rw [e1]; omega

/-- The input-side gate matrix is staged whole. -/
theorem blk2_eq_r2 (c : Dev nD) (t : Fin cfg2.N) : (iblk2 V c 2 t : Vec Ideal S384x128 .f32) = V c main_arg9 := by
  obtain ⟨-, -, ⟨e0, e1⟩, -⟩ := idx_facts_r2 t
  funext y
  unfold iblk2
  rw [View.read_apply]
  show V c main_arg9 _ = V c main_arg9 y
  congr 1
  funext a
  apply Fin.ext
  match a with
  | ⟨0, _⟩ => show win2_2.index t (0 : Fin 2) * 384 + 1 * (y 0).val = (y 0).val; rw [e0]; omega
  | ⟨1, _⟩ => show win2_2.index t (1 : Fin 2) * 128 + 1 * (y 1).val = (y 1).val; rw [e1]; omega

/-- The state-side gate matrix is staged whole. -/
theorem blk3_eq_r2 (c : Dev nD) (t : Fin cfg2.N) : (iblk2 V c 3 t : Vec Ideal S384x128 .f32) = V c main_arg10 := by
  obtain ⟨-, -, -, ⟨e0, e1⟩, -⟩ := idx_facts_r2 t
  funext y
  unfold iblk2
  rw [View.read_apply]
  show V c main_arg10 _ = V c main_arg10 y
  congr 1
  funext a
  apply Fin.ext
  match a with
  | ⟨0, _⟩ => show win2_3.index t (0 : Fin 2) * 384 + 1 * (y 0).val = (y 0).val; rw [e0]; omega
  | ⟨1, _⟩ => show win2_3.index t (1 : Fin 2) * 128 + 1 * (y 1).val = (y 1).val; rw [e1]; omega

/-- The input-side gate bias is staged whole. -/
theorem blk4_eq_r2 (c : Dev nD) (t : Fin cfg2.N) : (iblk2 V c 4 t : Vec Ideal S1x384 .f32) = V c main_v25 := by
  obtain ⟨-, -, -, -, ⟨e0, e1⟩, -⟩ := idx_facts_r2 t
  funext y
  unfold iblk2
  rw [View.read_apply]
  show V c main_v25 _ = V c main_v25 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 384 + 1 * (y 1).val = (y 1).val; rw [e1]; omega

/-- The state-side gate bias is staged whole. -/
theorem blk5_eq_r2 (c : Dev nD) (t : Fin cfg2.N) : (iblk2 V c 5 t : Vec Ideal S1x384 .f32) = V c main_v26 := by
  obtain ⟨-, -, -, -, -, ⟨e0, e1⟩, -⟩ := idx_facts_r2 t
  funext y
  unfold iblk2
  rw [View.read_apply]
  show V c main_v26 _ = V c main_v26 y
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 384 + 1 * (y 1).val = (y 1).val; rw [e1]; omega

/-- The state half of the message map is staged whole. -/
theorem blk6_eq_r2 (c : Dev nD) (t : Fin cfg2.N) : (iblk2 V c 6 t : Vec Ideal S128x128 .f32) = V c main_v0 := by
  obtain ⟨-, -, -, -, -, -, ⟨e0, e1⟩, -⟩ := idx_facts_r2 t
  funext y
  unfold iblk2
  rw [View.read_apply]
  show V c main_v0 _ = V c main_v0 y
  congr 1
  funext a
  apply Fin.ext
  match a with
  | ⟨0, _⟩ => show win2_6.index t (0 : Fin 2) * 128 + 1 * (y 0).val = (y 0).val; rw [e0]; omega
  | ⟨1, _⟩ => show win2_6.index t (1 : Fin 2) * 128 + 1 * (y 1).val = (y 1).val; rw [e1]; omega

/-- Entry (p, q) of block t of the new state sits at row 2000·t + p, column q of its array. -/
theorem emb7_r2 (t : Fin cfg2.N) (p : Fin 2000) (q : Fin 128) (i : Fin 50000) (hi : i.val = 2000 * t.val + p.val) :
    ((cfg2.win 7).blk t).view.emb (ix2 p q) = (ix2 i q : S50000x128.Idx) := by
  obtain ⟨-, -, -, -, -, -, -, ⟨e0, e1⟩, -⟩ := idx_facts_r2 t
  funext a
  apply Fin.ext
  match a with
  | ⟨0, _⟩ => show win2_7.index t (0 : Fin 2) * 2000 + 1 * p.val = i.val; rw [e0, hi]; omega
  | ⟨1, _⟩ => show win2_7.index t (1 : Fin 2) * 128 + 1 * q.val = q.val; rw [e1]; omega

/-- Entry (p, q) of block t of the second result sits at row 2000·t + p, column q of its array. -/
theorem emb8_r2 (t : Fin cfg2.N) (p : Fin 2000) (q : Fin 128) (i : Fin 50000) (hi : i.val = 2000 * t.val + p.val) :
    ((cfg2.win 8).blk t).view.emb (ix2 p q) = (ix2 i q : S50000x128.Idx) := by
  obtain ⟨-, -, -, -, -, -, -, -, ⟨e0, e1⟩⟩ := idx_facts_r2 t
  funext a
  apply Fin.ext
  match a with
  | ⟨0, _⟩ => show win2_8.index t (0 : Fin 2) * 2000 + 1 * p.val = i.val; rw [e0, hi]; omega
  | ⟨1, _⟩ => show win2_8.index t (1 : Fin 2) * 128 + 1 * q.val = q.val; rw [e1]; omega

/-! ## What a point writes back -/

/-- The new state as one function of the arrays the region finds. -/
abbrev newState_r2 (c : Dev nD) : Mat 50000 128 :=
  gru (affine (V c main_v24) (V c main_arg9) (V c main_v25)) (affine (V c main_v3_0) (V c main_arg10) (V c main_v26)) (V c main_v3_0)

/-- WHAT POINT t WRITES BACK INTO THE NEW STATE is block t of the cell of the whole arrays. -/
theorem flushed7_eq_r2 (c : Dev nD) (t : Fin cfg2.N) :
    (dat2 (F := Ideal) V c).flushed 7 t = ((cfg2.win 7).blk t).view.read (Elt Ideal) (newState_r2 V c) := by
  show (cfg2.win 7).cut (grid2.coords t) ((dat2 V c).after 7 t) = _
  rw [after2_7]
  unfold out2_7
  rw [View.canon_unit_zero hz_r2]
  simp only [View.ld_unit_zero (S := S2000x128) hz_r2, View.ld_unit_zero (S := S384x128) hz_r2,
    View.ld_unit_zero (S := S1x384) hz_r2]
  funext j
  obtain ⟨p, q, rfl⟩ : ∃ (p : Fin 2000) (q : Fin 128), j = ix2 p q := ⟨j 0, j 1, eq_ix2 j⟩
  have hN : cfg2.N = 25 := N_2
  have ht : t.val < 25 := hN ▸ t.isLt
  have hrow : 2000 * t.val + p.val < 50000 := by have := p.isLt; omega
  show k2_pay2 (iblk2 V c 0 t) (iblk2 V c 1 t) (iblk2 V c 2 t) (iblk2 V c 3 t) (iblk2 V c 4 t) (iblk2 V c 5 t) (ix2 p q)
    = newState_r2 V c (((cfg2.win 7).blk t).view.emb (ix2 p q))
  rw [emb7_r2 t p q ⟨2000 * t.val + p.val, hrow⟩ rfl]
  refine (state_pay_apply_r2 (iblk2 V c 0 t) (iblk2 V c 1 t) (iblk2 V c 2 t) (iblk2 V c 3 t) (iblk2 V c 4 t)
    (iblk2 V c 5 t) p q).trans ?_
  rw [blk2_eq_r2 V c t, blk3_eq_r2 V c t, blk4_eq_r2 V c t, blk5_eq_r2 V c t]
  exact gru_affine_row_r2 _ _ _ _ _ _ _ _ p ⟨2000 * t.val + p.val, hrow⟩
    (fun k => blk0_apply_r2 V c t p k _ rfl) (fun k => blk1_apply_r2 V c t p k _ rfl) q

/-- WHAT POINT t WRITES BACK INTO THE SECOND RESULT is block t of the new state contracted with the message map. -/
theorem flushed8_eq_r2 (c : Dev nD) (t : Fin cfg2.N) :
    (dat2 (F := Ideal) V c).flushed 8 t
      = ((cfg2.win 8).blk t).view.read (Elt Ideal) (lin (newState_r2 V c) (V c main_v0)) := by
  show (cfg2.win 8).cut (grid2.coords t) ((dat2 V c).after 8 t) = _
  rw [after2_8]
  unfold out2_8
  rw [View.canon_unit_zero hz_r2]
  simp only [View.ld_unit_zero (S := S2000x128) hz_r2, View.ld_unit_zero (S := S384x128) hz_r2,
    View.ld_unit_zero (S := S1x384) hz_r2, View.ld_unit_zero (S := S128x128) hz_r2]
  funext j
  obtain ⟨p, q, rfl⟩ : ∃ (p : Fin 2000) (q : Fin 128), j = ix2 p q := ⟨j 0, j 1, eq_ix2 j⟩
  have hN : cfg2.N = 25 := N_2
  have ht : t.val < 25 := hN ▸ t.isLt
  have hrow : 2000 * t.val + p.val < 50000 := by have := p.isLt; omega
  show k2_pay1 (k2_pay2 (iblk2 V c 0 t) (iblk2 V c 1 t) (iblk2 V c 2 t) (iblk2 V c 3 t) (iblk2 V c 4 t) (iblk2 V c 5 t))
      (iblk2 V c 6 t) (ix2 p q)
    = lin (newState_r2 V c) (V c main_v0) (((cfg2.win 8).blk t).view.emb (ix2 p q))
  rw [emb8_r2 t p q ⟨2000 * t.val + p.val, hrow⟩ rfl]
  refine (msg_pay_apply_r2 (k2_pay2 (iblk2 V c 0 t) (iblk2 V c 1 t) (iblk2 V c 2 t) (iblk2 V c 3 t) (iblk2 V c 4 t)
    (iblk2 V c 5 t)) (iblk2 V c 6 t) p q).trans ?_
  have hs : (k2_pay2 (F := Ideal) (iblk2 V c 0 t) (iblk2 V c 1 t) (iblk2 V c 2 t) (iblk2 V c 3 t) (iblk2 V c 4 t)
      (iblk2 V c 5 t) : Mat 2000 128)
      = gru (affine (iblk2 V c 0 t) (iblk2 V c 2 t) (iblk2 V c 4 t))
          (affine (iblk2 V c 1 t) (iblk2 V c 3 t) (iblk2 V c 5 t)) (iblk2 V c 1 t) := by
    funext j
    obtain ⟨a, b, rfl⟩ : ∃ (a : Fin 2000) (b : Fin 128), j = ix2 a b := ⟨j 0, j 1, eq_ix2 j⟩
    exact state_pay_apply_r2 (iblk2 V c 0 t) (iblk2 V c 1 t) (iblk2 V c 2 t) (iblk2 V c 3 t) (iblk2 V c 4 t)
      (iblk2 V c 5 t) a b
  rw [hs, blk2_eq_r2 V c t, blk3_eq_r2 V c t, blk4_eq_r2 V c t, blk5_eq_r2 V c t, blk6_eq_r2 V c t]
  exact lin_gru_affine_row_r2 _ _ _ _ _ _ _ _ _ p ⟨2000 * t.val + p.val, hrow⟩
    (fun k => blk0_apply_r2 V c t p k _ rfl) (fun k => blk1_apply_r2 V c t p k _ rfl) q

/-! ## The blocks tile the arrays -/

/-- An index of the new state's array is in point t's block iff each coordinate is in the block's range. -/
theorem mem_blk7_r2 (t : Fin cfg2.N) (i : S50000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v27_0).slice (win2_7.rect t)).set ↔ _
  rw [View.set_slice_whole, Rect.mem_set_unit]
  exact Iff.rfl

/-- The same for the second result's array. -/
theorem mem_blk8_r2 (t : Fin cfg2.N) (i : S50000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v27_1).slice (win2_8.rect t)).set ↔ _
  rw [View.set_slice_whole, Rect.mem_set_unit]
  exact Iff.rfl

/-- Row r of the new state is in the block of point r / 2000, and every point writes back. -/
theorem covered7_r2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  have hq : (i 0).val / 2000 < cfg2.N := by rw [hN]; omega
  obtain ⟨-, -, -, -, -, -, -, ⟨e0, e1⟩, -⟩ := idx_facts_r2 ⟨(i 0).val / 2000, hq⟩
  refine ⟨⟨(i 0).val / 2000, hq⟩, flush2_7 _, ?_⟩
  rw [mem_blk7_r2]
  intro a
  match a with
  | ⟨0, _⟩ =>
    show win2_7.index ⟨(i 0).val / 2000, hq⟩ (0 : Fin 2) * 2000 ≤ (i 0).val
      ∧ (i 0).val < win2_7.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win2_7.index ⟨(i 0).val / 2000, hq⟩ (1 : Fin 2) * 128 ≤ (i 1).val
      ∧ (i 1).val < win2_7.index ⟨(i 0).val / 2000, hq⟩ (1 : Fin 2) * 128 + 128
    rw [e1]; omega

/-- The same for the second result. -/
theorem covered8_r2 (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 25 := N_2
  have hq : (i 0).val / 2000 < cfg2.N := by rw [hN]; omega
  obtain ⟨-, -, -, -, -, -, -, -, ⟨e0, e1⟩⟩ := idx_facts_r2 ⟨(i 0).val / 2000, hq⟩
  refine ⟨⟨(i 0).val / 2000, hq⟩, flush2_8 _, ?_⟩
  rw [mem_blk8_r2]
  intro a
  match a with
  | ⟨0, _⟩ =>
    show win2_8.index ⟨(i 0).val / 2000, hq⟩ (0 : Fin 2) * 2000 ≤ (i 0).val
      ∧ (i 0).val < win2_8.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win2_8.index ⟨(i 0).val / 2000, hq⟩ (1 : Fin 2) * 128 ≤ (i 1).val
      ∧ (i 1).val < win2_8.index ⟨(i 0).val / 2000, hq⟩ (1 : Fin 2) * 128 + 128
    rw [e1]; omega

/-! ## The arrays after the region -/

/-- THE NEW STATE after region 2: the recurrent cell of the summed messages and the old state, row by row. -/
theorem region2_h (c : Dev nD) : (dat2 (F := Ideal) V c).arrAt 7 cfg2.N
    = gru (affine (V c main_v24) (V c main_arg9) (V c main_v25)) (affine (V c main_v3_0) (V c main_arg10) (V c main_v26)) (V c main_v3_0) :=
  (dat2 V c).arrAt_eq_of_cover 7 (newState_r2 V c) (fun t _ => flushed7_eq_r2 V c t) covered7_r2

/-- THE SECOND RESULT after region 2: that new state contracted with the state half of the message map. -/
theorem region2_hW (c : Dev nD) : (dat2 (F := Ideal) V c).arrAt 8 cfg2.N
    = lin (gru (affine (V c main_v24) (V c main_arg9) (V c main_v25)) (affine (V c main_v3_0) (V c main_arg10) (V c main_v26)) (V c main_v3_0))
        (V c main_v0) :=
  (dat2 V c).arrAt_eq_of_cover 8 (lin (newState_r2 V c) (V c main_v0)) (fun t _ => flushed8_eq_r2 V c t) covered8_r2

end Cert.KernelIdeal.RegionVal

end
-- ==== Proof.Region3.lean ====
/-
  The value of fused recurrent-cell region 3 of the kernel's program, at the ideal values.

  The region walks the 50000 node rows in 25 blocks of 2000. At block t it reads rows 2000·t … 2000·t + 1999 of the
  summed messages and of the old node state, the whole of the two gate matrices (384 × 128), of the two gate biases
  (1 × 384) and of the state half of the message map (128 × 128). From these it forms the input-side and state-side
  pre-activations x · Wᵀ + b over 384 columns, cuts each into the reset, update and candidate thirds, and leaves
  (1 − z) · n + z · h in the block of the new state, and the new state contracted with the message map in the block of
  the second result. Format changes are the identity on extended reals, a product into the zero splat is the plain sum,
  and the logistic function is the specification's 1 / (1 + e⁻ˣ) because the word for one is the real one.

  An entry of either result depends on the inputs only through the entry's row, so block t of the whole-array function
  (`Cert.Gnn.gru` of the two `Cert.Gnn.affine`s; `Cert.Gnn.lin` of that) is the same function of the blocks; the 25
  blocks tile the array (the block covering row r is r / 2000), so each result array ends holding the whole-array
  function.
-/
import proofs.«158604_j30331059044708_2_alg».proof.Proof.Patched.KernelIdeal.Frame
import proofs.«158604_j30331059044708_2_alg».proof.Proof.Spec
import proofs.«158604_j30331059044708_2_alg».proof.Proof.LibPlainProduct
import Idealize.ShloMosaic.Lib.ValueLayout
import Idealize.ShloMosaic.Lib.Pipeline.Value
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen Cert.Gnn Cert.LibPlainProduct

/-! ## The cell's arithmetic at an entry -/

/-- The specification's logistic expression is the ideal logistic function: its word for one is the real one. -/
theorem sigm_eq_logistic_r3 (x : EReal) : sigm x = Ideal.logistic x := by
  unfold sigm Ideal.logistic one
  rw [Ideal.ofBits_one_f32]

/-- A logistic of a vector, at an index. -/
theorem logistic_apply_r3 {s : Shape} {φ : FTy} (a : FVec Ideal s φ) (i : s.Idx) : logistic a i = Ideal.logistic (a i) := rfl
/-- A hyperbolic tangent of a vector, at an index. -/
theorem tanh_apply_r3 {s : Shape} {φ : FTy} (a : FVec Ideal s φ) (i : s.Idx) : tanh a i = Ideal.tanh (a i) := rfl

/-- A product against a transposed N × K matrix, accumulated into the zero splat, at entry (p, j): the sum over c of
    A(p, c) · B(j, c). -/
theorem prodT_apply_r3 {M K N : Nat} {φ₁ φ₂ : FTy}
    (w : DotDims.WF ⟨2, ![M, K]⟩ ⟨2, ![K, N]⟩ ⟨2, ![M, N]⟩ [1] [0] [0] [1] [] [])
    (ht : (⟨2, ![N, K]⟩ : Shape).Transposes [1, 0] ⟨2, ![K, N]⟩)
    (A : FVec Ideal ⟨2, ![M, K]⟩ φ₁) (B : FVec Ideal ⟨2, ![N, K]⟩ φ₂) (p : Fin M) (j : Fin N) :
    matmul (plainDims w) none A (transpose ⟨2, ![K, N]⟩ [1, 0] B ht) (constant ⟨2, ![M, N]⟩ .f32 0x00000000#32) (ix2 p j)
      = ∑ c : Fin K, A (ix2 p c) * B (ix2 j c) := by
  refine (matmul_zero_plain_apply w none _ _ p j).trans ?_
  refine Finset.sum_congr rfl fun c _ => ?_
  rw [transpose_ix2_apply]

/-- The cell's 384-column products, at entry (p, j). -/
theorem prod384_apply_r3 {φ₁ φ₂ : FTy} (A : FVec Ideal S2000x128 φ₁) (B : FVec Ideal S384x128 φ₂) (p : Fin 2000) (j : Fin 384) :
    matmul dot_S2000x128_S128x384_S2000x384_1_0_0_1_n_n none A
        (transpose S128x384 [1, 0] B transposes_S384x128_p1_0_S128x384) (constant S2000x384 .f32 0x00000000#32) (ix2 p j)
      = ∑ c : Fin 128, A (ix2 p c) * B (ix2 j c) :=
  prodT_apply_r3 (M := 2000) (K := 128) (N := 384) dot_S2000x128_S128x384_S2000x384_1_0_0_1_n_n_wf
    transposes_S384x128_p1_0_S128x384 A B p j

/-- The product with the message map, at entry (p, j). -/
theorem prod128_apply_r3 {φ₁ φ₂ : FTy} (A : FVec Ideal S2000x128 φ₁) (B : FVec Ideal S128x128 φ₂) (p : Fin 2000) (j : Fin 128) :
    matmul dot_S2000x128_S128x128_S2000x128_1_0_0_1_n_n none A
        (transpose S128x128 [1, 0] B transposes_S128x128_p1_0_S128x128) (constant S2000x128 .f32 0x00000000#32) (ix2 p j)
      = ∑ c : Fin 128, A (ix2 p c) * B (ix2 j c) :=
  prodT_apply_r3 (M := 2000) (K := 128) (N := 128) dot_S2000x128_S128x128_S2000x128_1_0_0_1_n_n_wf
    transposes_S128x128_p1_0_S128x128 A B p j

/-- THE NEW STATE'S BLOCK, at entry (p, q): the cell of the blocks' pre-activations. -/
theorem state_pay_apply_r3 (x0 x1 : Vec Ideal S2000x128 .f32) (x2 x3 : Vec Ideal S384x128 .f32) (x4 x5 : Vec Ideal S1x384 .f32)
    (p : Fin 2000) (q : Fin 128) :
    k3_pay2 (F := Ideal) x0 x1 x2 x3 x4 x5 (ix2 p q) = gru (affine x0 x2 x4) (affine x1 x3 x5) x1 (ix2 p q) := by
  rw [gru_apply]
  simp only [affine_apply, sigm_eq_logistic_r3]
  unfold k3_pay2
  simp only [addf_apply, mulf_apply, subf_apply, logistic_apply_r3, tanh_apply_r3, broadcast_apply, slice2_axis1_eq,
    broadcastTo_1b_ab_apply, shapeCast_self, Nat.zero_add, one, Ideal.ofBits_def]
  rw [prod384_apply_r3, prod384_apply_r3, prod384_apply_r3, prod384_apply_r3, prod384_apply_r3, prod384_apply_r3]
  simp only [truncf_apply]

/-- THE SECOND RESULT'S BLOCK, at entry (p, q): a block of new states contracted with the message map. -/
theorem msg_pay_apply_r3 (y : FVec Ideal S2000x128 .f32) (x6 : Vec Ideal S128x128 .f32) (p : Fin 2000) (q : Fin 128) :
    k3_pay1 (F := Ideal) y x6 (ix2 p q) = lin y x6 (ix2 p q) := by
  rw [lin_apply]
  unfold k3_pay1
  simp only [shapeCast_self]
  rw [prod128_apply_r3]
  simp only [truncf_apply]

/-- An entry of the cell's output depends on its three inputs only through the entry's row: two triples of inputs whose
    rows agree give the same entry. -/
theorem gru_affine_row_r3 {n n' : Nat} (X H : Mat n 128) (X' H' : Mat n' 128) (Wih Whh : Mat 384 128) (bih bhh : Mat 1 384)
    (a : Fin n) (a' : Fin n') (hX : ∀ k, X (ix2 a k) = X' (ix2 a' k)) (hH : ∀ k, H (ix2 a k) = H' (ix2 a' k)) (j : Fin 128) :
    gru (affine X Wih bih) (affine H Whh bhh) H (ix2 a j) = gru (affine X' Wih bih) (affine H' Whh bhh) H' (ix2 a' j) := by
  simp only [gru_apply, affine_apply, hX, hH]

/-- The same for the cell's output contracted with the message map. -/
theorem lin_gru_affine_row_r3 {n n' : Nat} (X H : Mat n 128) (X' H' : Mat n' 128) (Wih Whh : Mat 384 128) (bih bhh : Mat 1 384)
    (Wm : Mat 128 128) (a : Fin n) (a' : Fin n') (hX : ∀ k, X (ix2 a k) = X' (ix2 a' k)) (hH : ∀ k, H (ix2 a k) = H' (ix2 a' k))
    (j : Fin 128) :
    lin (gru (affine X Wih bih) (affine H Whh bhh) H) Wm (ix2 a j)
      = lin (gru (affine X' Wih bih) (affine H' Whh bhh) H') Wm (ix2 a' j) := by
  rw [lin_apply, lin_apply]
  refine Finset.sum_congr rfl fun k _ => ?_
  rw [gru_affine_row_r3 X H X' H' Wih Whh bih bhh a a' hX hH k]

/-! ## The blocks -/

variable (V : (c : Dev nD) → (b : Ref sig .tc) → Buf (Elt Ideal) ((c : Thread nD τ).loc b))

theorem hz_r3 : (![0, 0] : Fin 2 → Nat) = fun _ => 0 := funext fun a => by fin_cases a <;> rfl

/-- The index maps, decided over the 25 points: the two row windows and the two results sit at row block t, column
    block 0; the five whole windows at block (0, 0). -/
theorem idx_facts_r3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

/-- Block t of the summed messages is their rows 2000·t … 2000·t + 1999. -/
theorem blk0_apply_r3 (c : Dev nD) (t : Fin cfg3.N) (p : Fin 2000) (k : Fin 128) (i : Fin 50000) (hi : i.val = 2000 * t.val + p.val) :
    (iblk3 V c 0 t : Vec Ideal S2000x128 .f32) (ix2 p k) = (V c main_v38 : S50000x128.Idx → EReal) (ix2 i k) := by
  obtain ⟨⟨e0, e1⟩, -⟩ := idx_facts_r3 t
  unfold iblk3
  rw [View.read_apply]
  show V c main_v38 _ = V c main_v38 _
  congr 1
  funext a
  apply Fin.ext
  match a with
  | ⟨0, _⟩ => show win3_0.index t (0 : Fin 2) * 2000 + 1 * p.val = i.val; rw [e0, hi]; omega
  | ⟨1, _⟩ => show win3_0.index t (1 : Fin 2) * 128 + 1 * k.val = k.val; rw [e1]; omega

/-- Block t of the old state is its rows 2000·t … 2000·t + 1999. -/
theorem blk1_apply_r3 (c : Dev nD) (t : Fin cfg3.N) (p : Fin 2000) (k : Fin 128) (i : Fin 50000) (hi : i.val = 2000 * t.val + p.val) :
    (iblk3 V c 1 t : Vec Ideal S2000x128 .f32) (ix2 p k) = (V c main_v27_0 : S50000x128.Idx → EReal) (ix2 i k) := by
  obtain ⟨-, ⟨e0, e1⟩, -⟩ := idx_facts_r3 t
  unfold iblk3
  rw [View.read_apply]
  show V c main_v27_0 _ = V c main_v27_0 _
  congr 1
  funext a
  apply Fin.ext
  match a with
  | ⟨0, _⟩ => show win3_1.index t (0 : Fin 2) * 2000 + 1 * p.val = i.val; rw [e0, hi]; omega
  | ⟨1, _⟩ => show win3_1.index t (1 : Fin 2) * 128 + 1 * k.val = k.val; rw [e1]; omega

/-- The input-side gate matrix is staged whole. -/
theorem blk2_eq_r3 (c : Dev nD) (t : Fin cfg3.N) : (iblk3 V c 2 t : Vec Ideal S384x128 .f32) = V c main_arg9 := by
  obtain ⟨-, -, ⟨e0, e1⟩, -⟩ := idx_facts_r3 t
  funext y
  unfold iblk3
  rw [View.read_apply]
  show V c main_arg9 _ = V c main_arg9 y
  congr 1
  funext a
  apply Fin.ext
  match a with
  | ⟨0, _⟩ => show win3_2.index t (0 : Fin 2) * 384 + 1 * (y 0).val = (y 0).val; rw [e0]; omega
  | ⟨1, _⟩ => show win3_2.index t (1 : Fin 2) * 128 + 1 * (y 1).val = (y 1).val; rw [e1]; omega

/-- The state-side gate matrix is staged whole. -/
theorem blk3_eq_r3 (c : Dev nD) (t : Fin cfg3.N) : (iblk3 V c 3 t : Vec Ideal S384x128 .f32) = V c main_arg10 := by
  obtain ⟨-, -, -, ⟨e0, e1⟩, -⟩ := idx_facts_r3 t
  funext y
  unfold iblk3
  rw [View.read_apply]
  show V c main_arg10 _ = V c main_arg10 y
  congr 1
  funext a
  apply Fin.ext
  match a with
  | ⟨0, _⟩ => show win3_3.index t (0 : Fin 2) * 384 + 1 * (y 0).val = (y 0).val; rw [e0]; omega
  | ⟨1, _⟩ => show win3_3.index t (1 : Fin 2) * 128 + 1 * (y 1).val = (y 1).val; rw [e1]; omega

/-- The input-side gate bias is staged whole. -/
theorem blk4_eq_r3 (c : Dev nD) (t : Fin cfg3.N) : (iblk3 V c 4 t : Vec Ideal S1x384 .f32) = V c main_v39 := by
  obtain ⟨-, -, -, -, ⟨e0, e1⟩, -⟩ := idx_facts_r3 t
  funext y
  unfold iblk3
  rw [View.read_apply]
  show V c main_v39 _ = V c main_v39 y
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 384 + 1 * (y 1).val = (y 1).val; rw [e1]; omega

/-- The state-side gate bias is staged whole. -/
theorem blk5_eq_r3 (c : Dev nD) (t : Fin cfg3.N) : (iblk3 V c 5 t : Vec Ideal S1x384 .f32) = V c main_v40 := by
  obtain ⟨-, -, -, -, -, ⟨e0, e1⟩, -⟩ := idx_facts_r3 t
  funext y
  unfold iblk3
  rw [View.read_apply]
  show V c main_v40 _ = V c main_v40 y
  congr 1
  funext a
  apply Fin.ext
  match a with
  | ⟨0, _⟩ => show win3_5.index t (0 : Fin 2) * 1 + 1 * (y 0).val = (y 0).val; rw [e0]; omega
  | ⟨1, _⟩ => show win3_5.index t (1 : Fin 2) * 384 + 1 * (y 1).val = (y 1).val; rw [e1]; omega

/-- The state half of the message map is staged whole. -/
theorem blk6_eq_r3 (c : Dev nD) (t : Fin cfg3.N) : (iblk3 V c 6 t : Vec Ideal S128x128 .f32) = V c main_v0 := by
  obtain ⟨-, -, -, -, -, -, ⟨e0, e1⟩, -⟩ := idx_facts_r3 t
  funext y
  unfold iblk3
  rw [View.read_apply]
  show V c main_v0 _ = V c main_v0 y
  congr 1
  funext a
  apply Fin.ext
  match a with
  | ⟨0, _⟩ => show win3_6.index t (0 : Fin 2) * 128 + 1 * (y 0).val = (y 0).val; rw [e0]; omega
  | ⟨1, _⟩ => show win3_6.index t (1 : Fin 2) * 128 + 1 * (y 1).val = (y 1).val; rw [e1]; omega

/-- Entry (p, q) of block t of the new state sits at row 2000·t + p, column q of its array. -/
theorem emb7_r3 (t : Fin cfg3.N) (p : Fin 2000) (q : Fin 128) (i : Fin 50000) (hi : i.val = 2000 * t.val + p.val) :
    ((cfg3.win 7).blk t).view.emb (ix2 p q) = (ix2 i q : S50000x128.Idx) := by
  obtain ⟨-, -, -, -, -, -, -, ⟨e0, e1⟩, -⟩ := idx_facts_r3 t
  funext a
  apply Fin.ext
  match a with
  | ⟨0, _⟩ => show win3_7.index t (0 : Fin 2) * 2000 + 1 * p.val = i.val; rw [e0, hi]; omega
  | ⟨1, _⟩ => show win3_7.index t (1 : Fin 2) * 128 + 1 * q.val = q.val; rw [e1]; omega

/-- Entry (p, q) of block t of the second result sits at row 2000·t + p, column q of its array. -/
theorem emb8_r3 (t : Fin cfg3.N) (p : Fin 2000) (q : Fin 128) (i : Fin 50000) (hi : i.val = 2000 * t.val + p.val) :
    ((cfg3.win 8).blk t).view.emb (ix2 p q) = (ix2 i q : S50000x128.Idx) := by
  obtain ⟨-, -, -, -, -, -, -, -, ⟨e0, e1⟩⟩ := idx_facts_r3 t
  funext a
  apply Fin.ext
  match a with
  | ⟨0, _⟩ => show win3_8.index t (0 : Fin 2) * 2000 + 1 * p.val = i.val; rw [e0, hi]; omega
  | ⟨1, _⟩ => show win3_8.index t (1 : Fin 2) * 128 + 1 * q.val = q.val; rw [e1]; omega

/-! ## What a point writes back -/

/-- The new state as one function of the arrays the region finds. -/
abbrev newState_r3 (c : Dev nD) : Mat 50000 128 :=
  gru (affine (V c main_v38) (V c main_arg9) (V c main_v39)) (affine (V c main_v27_0) (V c main_arg10) (V c main_v40)) (V c main_v27_0)

/-- WHAT POINT t WRITES BACK INTO THE NEW STATE is block t of the cell of the whole arrays. -/
theorem flushed7_eq_r3 (c : Dev nD) (t : Fin cfg3.N) :
    (dat3 (F := Ideal) V c).flushed 7 t = ((cfg3.win 7).blk t).view.read (Elt Ideal) (newState_r3 V c) := by
  show (cfg3.win 7).cut (grid3.coords t) ((dat3 V c).after 7 t) = _
  rw [after3_7]
  unfold out3_7
  rw [View.canon_unit_zero hz_r3]
  simp only [View.ld_unit_zero (S := S2000x128) hz_r3, View.ld_unit_zero (S := S384x128) hz_r3,
    View.ld_unit_zero (S := S1x384) hz_r3]
  funext j
  obtain ⟨p, q, rfl⟩ : ∃ (p : Fin 2000) (q : Fin 128), j = ix2 p q := ⟨j 0, j 1, eq_ix2 j⟩
  have hN : cfg3.N = 25 := N_3
  have ht : t.val < 25 := hN ▸ t.isLt
  have hrow : 2000 * t.val + p.val < 50000 := by have := p.isLt; omega
  show k3_pay2 (iblk3 V c 0 t) (iblk3 V c 1 t) (iblk3 V c 2 t) (iblk3 V c 3 t) (iblk3 V c 4 t) (iblk3 V c 5 t) (ix2 p q)
    = newState_r3 V c (((cfg3.win 7).blk t).view.emb (ix2 p q))
  rw [emb7_r3 t p q ⟨2000 * t.val + p.val, hrow⟩ rfl]
  refine (state_pay_apply_r3 (iblk3 V c 0 t) (iblk3 V c 1 t) (iblk3 V c 2 t) (iblk3 V c 3 t) (iblk3 V c 4 t)
    (iblk3 V c 5 t) p q).trans ?_
  rw [blk2_eq_r3 V c t, blk3_eq_r3 V c t, blk4_eq_r3 V c t, blk5_eq_r3 V c t]
  exact gru_affine_row_r3 _ _ _ _ _ _ _ _ p ⟨2000 * t.val + p.val, hrow⟩
    (fun k => blk0_apply_r3 V c t p k _ rfl) (fun k => blk1_apply_r3 V c t p k _ rfl) q

/-- WHAT POINT t WRITES BACK INTO THE SECOND RESULT is block t of the new state contracted with the message map. -/
theorem flushed8_eq_r3 (c : Dev nD) (t : Fin cfg3.N) :
    (dat3 (F := Ideal) V c).flushed 8 t
      = ((cfg3.win 8).blk t).view.read (Elt Ideal) (lin (newState_r3 V c) (V c main_v0)) := by
  show (cfg3.win 8).cut (grid3.coords t) ((dat3 V c).after 8 t) = _
  rw [after3_8]
  unfold out3_8
  rw [View.canon_unit_zero hz_r3]
  simp only [View.ld_unit_zero (S := S2000x128) hz_r3, View.ld_unit_zero (S := S384x128) hz_r3,
    View.ld_unit_zero (S := S1x384) hz_r3, View.ld_unit_zero (S := S128x128) hz_r3]
  funext j
  obtain ⟨p, q, rfl⟩ : ∃ (p : Fin 2000) (q : Fin 128), j = ix2 p q := ⟨j 0, j 1, eq_ix2 j⟩
  have hN : cfg3.N = 25 := N_3
  have ht : t.val < 25 := hN ▸ t.isLt
  have hrow : 2000 * t.val + p.val < 50000 := by have := p.isLt; omega
  show k3_pay1 (k3_pay2 (iblk3 V c 0 t) (iblk3 V c 1 t) (iblk3 V c 2 t) (iblk3 V c 3 t) (iblk3 V c 4 t) (iblk3 V c 5 t))
      (iblk3 V c 6 t) (ix2 p q)
    = lin (newState_r3 V c) (V c main_v0) (((cfg3.win 8).blk t).view.emb (ix2 p q))
  rw [emb8_r3 t p q ⟨2000 * t.val + p.val, hrow⟩ rfl]
  refine (msg_pay_apply_r3 (k3_pay2 (iblk3 V c 0 t) (iblk3 V c 1 t) (iblk3 V c 2 t) (iblk3 V c 3 t) (iblk3 V c 4 t)
    (iblk3 V c 5 t)) (iblk3 V c 6 t) p q).trans ?_
  have hs : (k3_pay2 (F := Ideal) (iblk3 V c 0 t) (iblk3 V c 1 t) (iblk3 V c 2 t) (iblk3 V c 3 t) (iblk3 V c 4 t)
      (iblk3 V c 5 t) : Mat 2000 128)
      = gru (affine (iblk3 V c 0 t) (iblk3 V c 2 t) (iblk3 V c 4 t))
          (affine (iblk3 V c 1 t) (iblk3 V c 3 t) (iblk3 V c 5 t)) (iblk3 V c 1 t) := by
    funext j
    obtain ⟨a, b, rfl⟩ : ∃ (a : Fin 2000) (b : Fin 128), j = ix2 a b := ⟨j 0, j 1, eq_ix2 j⟩
    exact state_pay_apply_r3 (iblk3 V c 0 t) (iblk3 V c 1 t) (iblk3 V c 2 t) (iblk3 V c 3 t) (iblk3 V c 4 t)
      (iblk3 V c 5 t) a b
  rw [hs, blk2_eq_r3 V c t, blk3_eq_r3 V c t, blk4_eq_r3 V c t, blk5_eq_r3 V c t, blk6_eq_r3 V c t]
  exact lin_gru_affine_row_r3 _ _ _ _ _ _ _ _ _ p ⟨2000 * t.val + p.val, hrow⟩
    (fun k => blk0_apply_r3 V c t p k _ rfl) (fun k => blk1_apply_r3 V c t p k _ rfl) q

/-! ## The blocks tile the arrays -/

/-- An index of the new state's array is in point t's block iff each coordinate is in the block's range. -/
theorem mem_blk7_r3 (t : Fin cfg3.N) (i : S50000x128.Idx) :
    i ∈ ((cfg3.win 7).blk t).view.set ↔ ∀ a : Fin 2, win3_7.index t a * S2000x128.size a ≤ (i a).val
      ∧ (i a).val < win3_7.index t a * S2000x128.size a + S2000x128.size a := by
  show i ∈ ((View.whole main_v41_0).slice (win3_7.rect t)).set ↔ _
  rw [View.set_slice_whole, Rect.mem_set_unit]
  exact Iff.rfl

/-- The same for the second result's array. -/
theorem mem_blk8_r3 (t : Fin cfg3.N) (i : S50000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v41_1).slice (win3_8.rect t)).set ↔ _
  rw [View.set_slice_whole, Rect.mem_set_unit]
  exact Iff.rfl

/-- Row r of the new state is in the block of point r / 2000, and every point writes back. -/
theorem covered7_r3 (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 25 := N_3
  have hq : (i 0).val / 2000 < cfg3.N := by rw [hN]; omega
  obtain ⟨-, -, -, -, -, -, -, ⟨e0, e1⟩, -⟩ := idx_facts_r3 ⟨(i 0).val / 2000, hq⟩
  refine ⟨⟨(i 0).val / 2000, hq⟩, flush3_7 _, ?_⟩
  rw [mem_blk7_r3]
  intro a
  match a with
  | ⟨0, _⟩ =>
    show win3_7.index ⟨(i 0).val / 2000, hq⟩ (0 : Fin 2) * 2000 ≤ (i 0).val
      ∧ (i 0).val < win3_7.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win3_7.index ⟨(i 0).val / 2000, hq⟩ (1 : Fin 2) * 128 ≤ (i 1).val
      ∧ (i 1).val < win3_7.index ⟨(i 0).val / 2000, hq⟩ (1 : Fin 2) * 128 + 128
    rw [e1]; omega

/-- The same for the second result. -/
theorem covered8_r3 (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have hN : cfg3.N = 25 := N_3
  have hq : (i 0).val / 2000 < cfg3.N := by rw [hN]; omega
  obtain ⟨-, -, -, -, -, -, -, -, ⟨e0, e1⟩⟩ := idx_facts_r3 ⟨(i 0).val / 2000, hq⟩
  refine ⟨⟨(i 0).val / 2000, hq⟩, flush3_8 _, ?_⟩
  rw [mem_blk8_r3]
  intro a
  match a with
  | ⟨0, _⟩ =>
    show win3_8.index ⟨(i 0).val / 2000, hq⟩ (0 : Fin 2) * 2000 ≤ (i 0).val
      ∧ (i 0).val < win3_8.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win3_8.index ⟨(i 0).val / 2000, hq⟩ (1 : Fin 2) * 128 ≤ (i 1).val
      ∧ (i 1).val < win3_8.index ⟨(i 0).val / 2000, hq⟩ (1 : Fin 2) * 128 + 128
    rw [e1]; omega

/-! ## The arrays after the region -/

/-- THE NEW STATE after region 3: the recurrent cell of the summed messages and the old state, row by row. -/
theorem region3_h (c : Dev nD) : (dat3 (F := Ideal) V c).arrAt 7 cfg3.N
    = gru (affine (V c main_v38) (V c main_arg9) (V c main_v39)) (affine (V c main_v27_0) (V c main_arg10) (V c main_v40)) (V c main_v27_0) :=
  (dat3 V c).arrAt_eq_of_cover 7 (newState_r3 V c) (fun t _ => flushed7_eq_r3 V c t) covered7_r3

/-- THE SECOND RESULT after region 3: that new state contracted with the state half of the message map. -/
theorem region3_hW (c : Dev nD) : (dat3 (F := Ideal) V c).arrAt 8 cfg3.N
    = lin (gru (affine (V c main_v38) (V c main_arg9) (V c main_v39)) (affine (V c main_v27_0) (V c main_arg10) (V c main_v40)) (V c main_v27_0))
        (V c main_v0) :=
  (dat3 V c).arrAt_eq_of_cover 8 (lin (newState_r3 V c) (V c main_v0)) (fun t _ => flushed8_eq_r3 V c t) covered8_r3

end Cert.KernelIdeal.RegionVal

end
-- ==== Proof.Region4.lean ====
/-
  The value of fused recurrent-cell region 4 of the kernel's program, at the ideal values.

  The region walks the 50000 node rows in 25 blocks of 2000. At block t it reads rows 2000·t … 2000·t + 1999 of the
  summed messages and of the old node state, the whole of the two gate matrices (384 × 128), of the two gate biases
  (1 × 384) and of the state half of the message map (128 × 128). From these it forms the input-side and state-side
  pre-activations x · Wᵀ + b over 384 columns, cuts each into the reset, update and candidate thirds, and leaves
  (1 − z) · n + z · h in the block of the new state, and the new state contracted with the message map in the block of
  the second result. Format changes are the identity on extended reals, a product into the zero splat is the plain sum,
  and the logistic function is the specification's 1 / (1 + e⁻ˣ) because the word for one is the real one.

  An entry of either result depends on the inputs only through the entry's row, so block t of the whole-array function
  (`Cert.Gnn.gru` of the two `Cert.Gnn.affine`s; `Cert.Gnn.lin` of that) is the same function of the blocks; the 25
  blocks tile the array (the block covering row r is r / 2000), so each result array ends holding the whole-array
  function.
-/
import proofs.«158604_j30331059044708_2_alg».proof.Proof.Patched.KernelIdeal.Frame
import proofs.«158604_j30331059044708_2_alg».proof.Proof.Spec
import proofs.«158604_j30331059044708_2_alg».proof.Proof.LibPlainProduct
import Idealize.ShloMosaic.Lib.ValueLayout
import Idealize.ShloMosaic.Lib.Pipeline.Value
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen Cert.Gnn Cert.LibPlainProduct

/-! ## The cell's arithmetic at an entry -/

/-- The specification's logistic expression is the ideal logistic function: its word for one is the real one. -/
theorem sigm_eq_logistic_r4 (x : EReal) : sigm x = Ideal.logistic x := by
  unfold sigm Ideal.logistic one
  rw [Ideal.ofBits_one_f32]

/-- A logistic of a vector, at an index. -/
theorem logistic_apply_r4 {s : Shape} {φ : FTy} (a : FVec Ideal s φ) (i : s.Idx) : logistic a i = Ideal.logistic (a i) := rfl
/-- A hyperbolic tangent of a vector, at an index. -/
theorem tanh_apply_r4 {s : Shape} {φ : FTy} (a : FVec Ideal s φ) (i : s.Idx) : tanh a i = Ideal.tanh (a i) := rfl

/-- A product against a transposed N × K matrix, accumulated into the zero splat, at entry (p, j): the sum over c of
    A(p, c) · B(j, c). -/
theorem prodT_apply_r4 {M K N : Nat} {φ₁ φ₂ : FTy}
    (w : DotDims.WF ⟨2, ![M, K]⟩ ⟨2, ![K, N]⟩ ⟨2, ![M, N]⟩ [1] [0] [0] [1] [] [])
    (ht : (⟨2, ![N, K]⟩ : Shape).Transposes [1, 0] ⟨2, ![K, N]⟩)
    (A : FVec Ideal ⟨2, ![M, K]⟩ φ₁) (B : FVec Ideal ⟨2, ![N, K]⟩ φ₂) (p : Fin M) (j : Fin N) :
    matmul (plainDims w) none A (transpose ⟨2, ![K, N]⟩ [1, 0] B ht) (constant ⟨2, ![M, N]⟩ .f32 0x00000000#32) (ix2 p j)
      = ∑ c : Fin K, A (ix2 p c) * B (ix2 j c) := by
  refine (matmul_zero_plain_apply w none _ _ p j).trans ?_
  refine Finset.sum_congr rfl fun c _ => ?_
  rw [transpose_ix2_apply]

/-- The cell's 384-column products, at entry (p, j). -/
theorem prod384_apply_r4 {φ₁ φ₂ : FTy} (A : FVec Ideal S2000x128 φ₁) (B : FVec Ideal S384x128 φ₂) (p : Fin 2000) (j : Fin 384) :
    matmul dot_S2000x128_S128x384_S2000x384_1_0_0_1_n_n none A
        (transpose S128x384 [1, 0] B transposes_S384x128_p1_0_S128x384) (constant S2000x384 .f32 0x00000000#32) (ix2 p j)
      = ∑ c : Fin 128, A (ix2 p c) * B (ix2 j c) :=
  prodT_apply_r4 (M := 2000) (K := 128) (N := 384) dot_S2000x128_S128x384_S2000x384_1_0_0_1_n_n_wf
    transposes_S384x128_p1_0_S128x384 A B p j

/-- The product with the message map, at entry (p, j). -/
theorem prod128_apply_r4 {φ₁ φ₂ : FTy} (A : FVec Ideal S2000x128 φ₁) (B : FVec Ideal S128x128 φ₂) (p : Fin 2000) (j : Fin 128) :
    matmul dot_S2000x128_S128x128_S2000x128_1_0_0_1_n_n none A
        (transpose S128x128 [1, 0] B transposes_S128x128_p1_0_S128x128) (constant S2000x128 .f32 0x00000000#32) (ix2 p j)
      = ∑ c : Fin 128, A (ix2 p c) * B (ix2 j c) :=
  prodT_apply_r4 (M := 2000) (K := 128) (N := 128) dot_S2000x128_S128x128_S2000x128_1_0_0_1_n_n_wf
    transposes_S128x128_p1_0_S128x128 A B p j

/-- THE NEW STATE'S BLOCK, at entry (p, q): the cell of the blocks' pre-activations. -/
theorem state_pay_apply_r4 (x0 x1 : Vec Ideal S2000x128 .f32) (x2 x3 : Vec Ideal S384x128 .f32) (x4 x5 : Vec Ideal S1x384 .f32)
    (p : Fin 2000) (q : Fin 128) :
    k4_pay2 (F := Ideal) x0 x1 x2 x3 x4 x5 (ix2 p q) = gru (affine x0 x2 x4) (affine x1 x3 x5) x1 (ix2 p q) := by
  rw [gru_apply]
  simp only [affine_apply, sigm_eq_logistic_r4]
  unfold k4_pay2
  simp only [addf_apply, mulf_apply, subf_apply, logistic_apply_r4, tanh_apply_r4, broadcast_apply, slice2_axis1_eq,
    broadcastTo_1b_ab_apply, shapeCast_self, Nat.zero_add, one, Ideal.ofBits_def]
  rw [prod384_apply_r4, prod384_apply_r4, prod384_apply_r4, prod384_apply_r4, prod384_apply_r4, prod384_apply_r4]
  simp only [truncf_apply]

/-- THE SECOND RESULT'S BLOCK, at entry (p, q): a block of new states contracted with the message map. -/
theorem msg_pay_apply_r4 (y : FVec Ideal S2000x128 .f32) (x6 : Vec Ideal S128x128 .f32) (p : Fin 2000) (q : Fin 128) :
    k4_pay1 (F := Ideal) y x6 (ix2 p q) = lin y x6 (ix2 p q) := by
  rw [lin_apply]
  unfold k4_pay1
  simp only [shapeCast_self]
  rw [prod128_apply_r4]
  simp only [truncf_apply]

/-- An entry of the cell's output depends on its three inputs only through the entry's row: two triples of inputs whose
    rows agree give the same entry. -/
theorem gru_affine_row_r4 {n n' : Nat} (X H : Mat n 128) (X' H' : Mat n' 128) (Wih Whh : Mat 384 128) (bih bhh : Mat 1 384)
    (a : Fin n) (a' : Fin n') (hX : ∀ k, X (ix2 a k) = X' (ix2 a' k)) (hH : ∀ k, H (ix2 a k) = H' (ix2 a' k)) (j : Fin 128) :
    gru (affine X Wih bih) (affine H Whh bhh) H (ix2 a j) = gru (affine X' Wih bih) (affine H' Whh bhh) H' (ix2 a' j) := by
  simp only [gru_apply, affine_apply, hX, hH]

/-- The same for the cell's output contracted with the message map. -/
theorem lin_gru_affine_row_r4 {n n' : Nat} (X H : Mat n 128) (X' H' : Mat n' 128) (Wih Whh : Mat 384 128) (bih bhh : Mat 1 384)
    (Wm : Mat 128 128) (a : Fin n) (a' : Fin n') (hX : ∀ k, X (ix2 a k) = X' (ix2 a' k)) (hH : ∀ k, H (ix2 a k) = H' (ix2 a' k))
    (j : Fin 128) :
    lin (gru (affine X Wih bih) (affine H Whh bhh) H) Wm (ix2 a j)
      = lin (gru (affine X' Wih bih) (affine H' Whh bhh) H') Wm (ix2 a' j) := by
  rw [lin_apply, lin_apply]
  refine Finset.sum_congr rfl fun k _ => ?_
  rw [gru_affine_row_r4 X H X' H' Wih Whh bih bhh a a' hX hH k]

/-! ## The blocks -/

variable (V : (c : Dev nD) → (b : Ref sig .tc) → Buf (Elt Ideal) ((c : Thread nD τ).loc b))

theorem hz_r4 : (![0, 0] : Fin 2 → Nat) = fun _ => 0 := funext fun a => by fin_cases a <;> rfl

/-- The index maps, decided over the 25 points: the two row windows and the two results sit at row block t, column
    block 0; the five whole windows at block (0, 0). -/
theorem idx_facts_r4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0)
    ∧ (win4_8.index t (0 : Fin 2) = t.val ∧ win4_8.index t (1 : Fin 2) = 0) :=
  (by decide +kernel : ∀ t : Fin grid4.N, _)

/-- Block t of the summed messages is their rows 2000·t … 2000·t + 1999. -/
theorem blk0_apply_r4 (c : Dev nD) (t : Fin cfg4.N) (p : Fin 2000) (k : Fin 128) (i : Fin 50000) (hi : i.val = 2000 * t.val + p.val) :
    (iblk4 V c 0 t : Vec Ideal S2000x128 .f32) (ix2 p k) = (V c main_v52 : S50000x128.Idx → EReal) (ix2 i k) := by
  obtain ⟨⟨e0, e1⟩, -⟩ := idx_facts_r4 t
  unfold iblk4
  rw [View.read_apply]
  show V c main_v52 _ = V c main_v52 _
  congr 1
  funext a
  apply Fin.ext
  match a with
  | ⟨0, _⟩ => show win4_0.index t (0 : Fin 2) * 2000 + 1 * p.val = i.val; rw [e0, hi]; omega
  | ⟨1, _⟩ => show win4_0.index t (1 : Fin 2) * 128 + 1 * k.val = k.val; rw [e1]; omega

/-- Block t of the old state is its rows 2000·t … 2000·t + 1999. -/
theorem blk1_apply_r4 (c : Dev nD) (t : Fin cfg4.N) (p : Fin 2000) (k : Fin 128) (i : Fin 50000) (hi : i.val = 2000 * t.val + p.val) :
    (iblk4 V c 1 t : Vec Ideal S2000x128 .f32) (ix2 p k) = (V c main_v41_0 : S50000x128.Idx → EReal) (ix2 i k) := by
  obtain ⟨-, ⟨e0, e1⟩, -⟩ := idx_facts_r4 t
  unfold iblk4
  rw [View.read_apply]
  show V c main_v41_0 _ = V c main_v41_0 _
  congr 1
  funext a
  apply Fin.ext
  match a with
  | ⟨0, _⟩ => show win4_1.index t (0 : Fin 2) * 2000 + 1 * p.val = i.val; rw [e0, hi]; omega
  | ⟨1, _⟩ => show win4_1.index t (1 : Fin 2) * 128 + 1 * k.val = k.val; rw [e1]; omega

/-- The input-side gate matrix is staged whole. -/
theorem blk2_eq_r4 (c : Dev nD) (t : Fin cfg4.N) : (iblk4 V c 2 t : Vec Ideal S384x128 .f32) = V c main_arg9 := by
  obtain ⟨-, -, ⟨e0, e1⟩, -⟩ := idx_facts_r4 t
  funext y
  unfold iblk4
  rw [View.read_apply]
  show V c main_arg9 _ = V c main_arg9 y
  congr 1
  funext a
  apply Fin.ext
  match a with
  | ⟨0, _⟩ => show win4_2.index t (0 : Fin 2) * 384 + 1 * (y 0).val = (y 0).val; rw [e0]; omega
  | ⟨1, _⟩ => show win4_2.index t (1 : Fin 2) * 128 + 1 * (y 1).val = (y 1).val; rw [e1]; omega

/-- The state-side gate matrix is staged whole. -/
theorem blk3_eq_r4 (c : Dev nD) (t : Fin cfg4.N) : (iblk4 V c 3 t : Vec Ideal S384x128 .f32) = V c main_arg10 := by
  obtain ⟨-, -, -, ⟨e0, e1⟩, -⟩ := idx_facts_r4 t
  funext y
  unfold iblk4
  rw [View.read_apply]
  show V c main_arg10 _ = V c main_arg10 y
  congr 1
  funext a
  apply Fin.ext
  match a with
  | ⟨0, _⟩ => show win4_3.index t (0 : Fin 2) * 384 + 1 * (y 0).val = (y 0).val; rw [e0]; omega
  | ⟨1, _⟩ => show win4_3.index t (1 : Fin 2) * 128 + 1 * (y 1).val = (y 1).val; rw [e1]; omega

/-- The input-side gate bias is staged whole. -/
theorem blk4_eq_r4 (c : Dev nD) (t : Fin cfg4.N) : (iblk4 V c 4 t : Vec Ideal S1x384 .f32) = V c main_v53 := by
  obtain ⟨-, -, -, -, ⟨e0, e1⟩, -⟩ := idx_facts_r4 t
  funext y
  unfold iblk4
  rw [View.read_apply]
  show V c main_v53 _ = V c main_v53 y
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 384 + 1 * (y 1).val = (y 1).val; rw [e1]; omega

/-- The state-side gate bias is staged whole. -/
theorem blk5_eq_r4 (c : Dev nD) (t : Fin cfg4.N) : (iblk4 V c 5 t : Vec Ideal S1x384 .f32) = V c main_v54 := by
  obtain ⟨-, -, -, -, -, ⟨e0, e1⟩, -⟩ := idx_facts_r4 t
  funext y
  unfold iblk4
  rw [View.read_apply]
  show V c main_v54 _ = V c main_v54 y
  congr 1
  funext a
  apply Fin.ext
  match a with
  | ⟨0, _⟩ => show win4_5.index t (0 : Fin 2) * 1 + 1 * (y 0).val = (y 0).val; rw [e0]; omega
  | ⟨1, _⟩ => show win4_5.index t (1 : Fin 2) * 384 + 1 * (y 1).val = (y 1).val; rw [e1]; omega

/-- The state half of the message map is staged whole. -/
theorem blk6_eq_r4 (c : Dev nD) (t : Fin cfg4.N) : (iblk4 V c 6 t : Vec Ideal S128x128 .f32) = V c main_v0 := by
  obtain ⟨-, -, -, -, -, -, ⟨e0, e1⟩, -⟩ := idx_facts_r4 t
  funext y
  unfold iblk4
  rw [View.read_apply]
  show V c main_v0 _ = V c main_v0 y
  congr 1
  funext a
  apply Fin.ext
  match a with
  | ⟨0, _⟩ => show win4_6.index t (0 : Fin 2) * 128 + 1 * (y 0).val = (y 0).val; rw [e0]; omega
  | ⟨1, _⟩ => show win4_6.index t (1 : Fin 2) * 128 + 1 * (y 1).val = (y 1).val; rw [e1]; omega

/-- Entry (p, q) of block t of the new state sits at row 2000·t + p, column q of its array. -/
theorem emb7_r4 (t : Fin cfg4.N) (p : Fin 2000) (q : Fin 128) (i : Fin 50000) (hi : i.val = 2000 * t.val + p.val) :
    ((cfg4.win 7).blk t).view.emb (ix2 p q) = (ix2 i q : S50000x128.Idx) := by
  obtain ⟨-, -, -, -, -, -, -, ⟨e0, e1⟩, -⟩ := idx_facts_r4 t
  funext a
  apply Fin.ext
  match a with
  | ⟨0, _⟩ => show win4_7.index t (0 : Fin 2) * 2000 + 1 * p.val = i.val; rw [e0, hi]; omega
  | ⟨1, _⟩ => show win4_7.index t (1 : Fin 2) * 128 + 1 * q.val = q.val; rw [e1]; omega

/-- Entry (p, q) of block t of the second result sits at row 2000·t + p, column q of its array. -/
theorem emb8_r4 (t : Fin cfg4.N) (p : Fin 2000) (q : Fin 128) (i : Fin 50000) (hi : i.val = 2000 * t.val + p.val) :
    ((cfg4.win 8).blk t).view.emb (ix2 p q) = (ix2 i q : S50000x128.Idx) := by
  obtain ⟨-, -, -, -, -, -, -, -, ⟨e0, e1⟩⟩ := idx_facts_r4 t
  funext a
  apply Fin.ext
  match a with
  | ⟨0, _⟩ => show win4_8.index t (0 : Fin 2) * 2000 + 1 * p.val = i.val; rw [e0, hi]; omega
  | ⟨1, _⟩ => show win4_8.index t (1 : Fin 2) * 128 + 1 * q.val = q.val; rw [e1]; omega

/-! ## What a point writes back -/

/-- The new state as one function of the arrays the region finds. -/
abbrev newState_r4 (c : Dev nD) : Mat 50000 128 :=
  gru (affine (V c main_v52) (V c main_arg9) (V c main_v53)) (affine (V c main_v41_0) (V c main_arg10) (V c main_v54)) (V c main_v41_0)

/-- WHAT POINT t WRITES BACK INTO THE NEW STATE is block t of the cell of the whole arrays. -/
theorem flushed7_eq_r4 (c : Dev nD) (t : Fin cfg4.N) :
    (dat4 (F := Ideal) V c).flushed 7 t = ((cfg4.win 7).blk t).view.read (Elt Ideal) (newState_r4 V c) := by
  show (cfg4.win 7).cut (grid4.coords t) ((dat4 V c).after 7 t) = _
  rw [after4_7]
  unfold out4_7
  rw [View.canon_unit_zero hz_r4]
  simp only [View.ld_unit_zero (S := S2000x128) hz_r4, View.ld_unit_zero (S := S384x128) hz_r4,
    View.ld_unit_zero (S := S1x384) hz_r4]
  funext j
  obtain ⟨p, q, rfl⟩ : ∃ (p : Fin 2000) (q : Fin 128), j = ix2 p q := ⟨j 0, j 1, eq_ix2 j⟩
  have hN : cfg4.N = 25 := N_4
  have ht : t.val < 25 := hN ▸ t.isLt
  have hrow : 2000 * t.val + p.val < 50000 := by have := p.isLt; omega
  show k4_pay2 (iblk4 V c 0 t) (iblk4 V c 1 t) (iblk4 V c 2 t) (iblk4 V c 3 t) (iblk4 V c 4 t) (iblk4 V c 5 t) (ix2 p q)
    = newState_r4 V c (((cfg4.win 7).blk t).view.emb (ix2 p q))
  rw [emb7_r4 t p q ⟨2000 * t.val + p.val, hrow⟩ rfl]
  refine (state_pay_apply_r4 (iblk4 V c 0 t) (iblk4 V c 1 t) (iblk4 V c 2 t) (iblk4 V c 3 t) (iblk4 V c 4 t)
    (iblk4 V c 5 t) p q).trans ?_
  rw [blk2_eq_r4 V c t, blk3_eq_r4 V c t, blk4_eq_r4 V c t, blk5_eq_r4 V c t]
  exact gru_affine_row_r4 _ _ _ _ _ _ _ _ p ⟨2000 * t.val + p.val, hrow⟩
    (fun k => blk0_apply_r4 V c t p k _ rfl) (fun k => blk1_apply_r4 V c t p k _ rfl) q

/-- WHAT POINT t WRITES BACK INTO THE SECOND RESULT is block t of the new state contracted with the message map. -/
theorem flushed8_eq_r4 (c : Dev nD) (t : Fin cfg4.N) :
    (dat4 (F := Ideal) V c).flushed 8 t
      = ((cfg4.win 8).blk t).view.read (Elt Ideal) (lin (newState_r4 V c) (V c main_v0)) := by
  show (cfg4.win 8).cut (grid4.coords t) ((dat4 V c).after 8 t) = _
  rw [after4_8]
  unfold out4_8
  rw [View.canon_unit_zero hz_r4]
  simp only [View.ld_unit_zero (S := S2000x128) hz_r4, View.ld_unit_zero (S := S384x128) hz_r4,
    View.ld_unit_zero (S := S1x384) hz_r4, View.ld_unit_zero (S := S128x128) hz_r4]
  funext j
  obtain ⟨p, q, rfl⟩ : ∃ (p : Fin 2000) (q : Fin 128), j = ix2 p q := ⟨j 0, j 1, eq_ix2 j⟩
  have hN : cfg4.N = 25 := N_4
  have ht : t.val < 25 := hN ▸ t.isLt
  have hrow : 2000 * t.val + p.val < 50000 := by have := p.isLt; omega
  show k4_pay1 (k4_pay2 (iblk4 V c 0 t) (iblk4 V c 1 t) (iblk4 V c 2 t) (iblk4 V c 3 t) (iblk4 V c 4 t) (iblk4 V c 5 t))
      (iblk4 V c 6 t) (ix2 p q)
    = lin (newState_r4 V c) (V c main_v0) (((cfg4.win 8).blk t).view.emb (ix2 p q))
  rw [emb8_r4 t p q ⟨2000 * t.val + p.val, hrow⟩ rfl]
  refine (msg_pay_apply_r4 (k4_pay2 (iblk4 V c 0 t) (iblk4 V c 1 t) (iblk4 V c 2 t) (iblk4 V c 3 t) (iblk4 V c 4 t)
    (iblk4 V c 5 t)) (iblk4 V c 6 t) p q).trans ?_
  have hs : (k4_pay2 (F := Ideal) (iblk4 V c 0 t) (iblk4 V c 1 t) (iblk4 V c 2 t) (iblk4 V c 3 t) (iblk4 V c 4 t)
      (iblk4 V c 5 t) : Mat 2000 128)
      = gru (affine (iblk4 V c 0 t) (iblk4 V c 2 t) (iblk4 V c 4 t))
          (affine (iblk4 V c 1 t) (iblk4 V c 3 t) (iblk4 V c 5 t)) (iblk4 V c 1 t) := by
    funext j
    obtain ⟨a, b, rfl⟩ : ∃ (a : Fin 2000) (b : Fin 128), j = ix2 a b := ⟨j 0, j 1, eq_ix2 j⟩
    exact state_pay_apply_r4 (iblk4 V c 0 t) (iblk4 V c 1 t) (iblk4 V c 2 t) (iblk4 V c 3 t) (iblk4 V c 4 t)
      (iblk4 V c 5 t) a b
  rw [hs, blk2_eq_r4 V c t, blk3_eq_r4 V c t, blk4_eq_r4 V c t, blk5_eq_r4 V c t, blk6_eq_r4 V c t]
  exact lin_gru_affine_row_r4 _ _ _ _ _ _ _ _ _ p ⟨2000 * t.val + p.val, hrow⟩
    (fun k => blk0_apply_r4 V c t p k _ rfl) (fun k => blk1_apply_r4 V c t p k _ rfl) q

/-! ## The blocks tile the arrays -/

/-- An index of the new state's array is in point t's block iff each coordinate is in the block's range. -/
theorem mem_blk7_r4 (t : Fin cfg4.N) (i : S50000x128.Idx) :
    i ∈ ((cfg4.win 7).blk t).view.set ↔ ∀ a : Fin 2, win4_7.index t a * S2000x128.size a ≤ (i a).val
      ∧ (i a).val < win4_7.index t a * S2000x128.size a + S2000x128.size a := by
  show i ∈ ((View.whole main_v55_0).slice (win4_7.rect t)).set ↔ _
  rw [View.set_slice_whole, Rect.mem_set_unit]
  exact Iff.rfl

/-- The same for the second result's array. -/
theorem mem_blk8_r4 (t : Fin cfg4.N) (i : S50000x128.Idx) :
    i ∈ ((cfg4.win 8).blk t).view.set ↔ ∀ a : Fin 2, win4_8.index t a * S2000x128.size a ≤ (i a).val
      ∧ (i a).val < win4_8.index t a * S2000x128.size a + S2000x128.size a := by
  show i ∈ ((View.whole main_v55_1).slice (win4_8.rect t)).set ↔ _
  rw [View.set_slice_whole, Rect.mem_set_unit]
  exact Iff.rfl

/-- Row r of the new state is in the block of point r / 2000, and every point writes back. -/
theorem covered7_r4 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 25 := N_4
  have hq : (i 0).val / 2000 < cfg4.N := by rw [hN]; omega
  obtain ⟨-, -, -, -, -, -, -, ⟨e0, e1⟩, -⟩ := idx_facts_r4 ⟨(i 0).val / 2000, hq⟩
  refine ⟨⟨(i 0).val / 2000, hq⟩, flush4_7 _, ?_⟩
  rw [mem_blk7_r4]
  intro a
  match a with
  | ⟨0, _⟩ =>
    show win4_7.index ⟨(i 0).val / 2000, hq⟩ (0 : Fin 2) * 2000 ≤ (i 0).val
      ∧ (i 0).val < win4_7.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win4_7.index ⟨(i 0).val / 2000, hq⟩ (1 : Fin 2) * 128 ≤ (i 1).val
      ∧ (i 1).val < win4_7.index ⟨(i 0).val / 2000, hq⟩ (1 : Fin 2) * 128 + 128
    rw [e1]; omega

/-- The same for the second result. -/
theorem covered8_r4 (i : S50000x128.Idx) :
    ∃ t : Fin cfg4.N, (cfg4.win 8).flush t = true ∧ i ∈ ((cfg4.win 8).blk t).view.set := by
  have hi0 : (i 0).val < 50000 := (i 0).isLt
  have hi1 : (i 1).val < 128 := (i 1).isLt
  have hN : cfg4.N = 25 := N_4
  have hq : (i 0).val / 2000 < cfg4.N := by rw [hN]; omega
  obtain ⟨-, -, -, -, -, -, -, -, ⟨e0, e1⟩⟩ := idx_facts_r4 ⟨(i 0).val / 2000, hq⟩
  refine ⟨⟨(i 0).val / 2000, hq⟩, flush4_8 _, ?_⟩
  rw [mem_blk8_r4]
  intro a
  match a with
  | ⟨0, _⟩ =>
    show win4_8.index ⟨(i 0).val / 2000, hq⟩ (0 : Fin 2) * 2000 ≤ (i 0).val
      ∧ (i 0).val < win4_8.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win4_8.index ⟨(i 0).val / 2000, hq⟩ (1 : Fin 2) * 128 ≤ (i 1).val
      ∧ (i 1).val < win4_8.index ⟨(i 0).val / 2000, hq⟩ (1 : Fin 2) * 128 + 128
    rw [e1]; omega

/-! ## The arrays after the region -/

/-- THE NEW STATE after region 4: the recurrent cell of the summed messages and the old state, row by row. -/
theorem region4_h (c : Dev nD) : (dat4 (F := Ideal) V c).arrAt 7 cfg4.N
    = gru (affine (V c main_v52) (V c main_arg9) (V c main_v53)) (affine (V c main_v41_0) (V c main_arg10) (V c main_v54)) (V c main_v41_0) :=
  (dat4 V c).arrAt_eq_of_cover 7 (newState_r4 V c) (fun t _ => flushed7_eq_r4 V c t) covered7_r4

/-- THE SECOND RESULT after region 4: that new state contracted with the state half of the message map. -/
theorem region4_hW (c : Dev nD) : (dat4 (F := Ideal) V c).arrAt 8 cfg4.N
    = lin (gru (affine (V c main_v52) (V c main_arg9) (V c main_v53)) (affine (V c main_v41_0) (V c main_arg10) (V c main_v54)) (V c main_v41_0))
        (V c main_v0) :=
  (dat4 V c).arrAt_eq_of_cover 8 (lin (newState_r4 V c) (V c main_v0)) (fun t _ => flushed8_eq_r4 V c t) covered8_r4

end Cert.KernelIdeal.RegionVal

end
-- ==== Proof.ChainValue.lean ====
/-
  The kernel's run, boundary by boundary: the contents of the buffers that matter at each boundary of the program
  (after a stretch of host operations, after a region), as the specification's functions of the launch memory.

  The node states after region 0 are h0; the projected edge features and the edge messages after region 1 are
  eProj and eMsg; and each of regions 2, 3, 4, fed the aggregate its host stretch has just formed — the segment sum
  over target words of the gathered per-node messages `lin h W`, plus the edge messages' segment sum —, the old
  states and the per-node messages, leaves `stepK` of the old states and their per-node messages. Three such updates
  of h0 are `netK`.
-/
import proofs.«158604_j30331059044708_2_alg».proof.Proof.ChainKeep
import proofs.«158604_j30331059044708_2_alg».proof.Proof.ChainStages
import proofs.«158604_j30331059044708_2_alg».proof.Proof.Region0
import proofs.«158604_j30331059044708_2_alg».proof.Proof.Region1
import proofs.«158604_j30331059044708_2_alg».proof.Proof.Region2
import proofs.«158604_j30331059044708_2_alg».proof.Proof.Region3
import proofs.«158604_j30331059044708_2_alg».proof.Proof.Region4

set_option maxRecDepth 16384

noncomputable section

namespace Cert.KernelIdeal.Chain

open Cert.KernelIdeal Cert.KernelIdeal.Gen Cert.KernelIdeal.RegionVal Cert.Gnn Cert.Gnn.HostOps
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Buffers nothing writes keep their launch contents at every boundary -/

/-- Written by no host operation and no region's output. -/
abbrev Untouched (r : Ref sig .tc) : Prop :=
  r ∉ written0 ∧ r ∉ written1 ∧ r ∉ written2 ∧ r ∉ written3 ∧ r ∉ written4
    ∧ r ≠ main_v3_0 ∧ r ≠ main_v3_1 ∧ r ≠ main_v6_0 ∧ r ≠ main_v6_1 ∧ r ≠ main_v27_0 ∧ r ≠ main_v27_1
    ∧ r ≠ main_v41_0 ∧ r ≠ main_v41_1 ∧ r ≠ main_v55_0 ∧ r ≠ main_v55_1

theorem W1_keep (r : Ref sig .tc) (h : Untouched r) : W1 m ρ c (Proc.devRef .tc r) = m ((c : Thread nD τ).loc r) :=
  (keepH0 m ρ c r h.1).trans rfl
theorem W2_keep (r : Ref sig .tc) (h : Untouched r) : W2 m ρ c (Proc.devRef .tc r) = m ((c : Thread nD τ).loc r) :=
  (keepR0 m ρ c r h.2.2.2.2.2.1 h.2.2.2.2.2.2.1).trans (W1_keep m ρ c r h)
theorem W3_keep (r : Ref sig .tc) (h : Untouched r) : W3 m ρ c (Proc.devRef .tc r) = m ((c : Thread nD τ).loc r) :=
  (keepH1 m ρ c r h.2.1).trans (W2_keep m ρ c r h)
theorem W4_keep (r : Ref sig .tc) (h : Untouched r) : W4 m ρ c (Proc.devRef .tc r) = m ((c : Thread nD τ).loc r) :=
  (keepR1 m ρ c r h.2.2.2.2.2.2.2.1 h.2.2.2.2.2.2.2.2.1).trans (W3_keep m ρ c r h)
theorem W5_keep (r : Ref sig .tc) (h : Untouched r) : W5 m ρ c (Proc.devRef .tc r) = m ((c : Thread nD τ).loc r) :=
  (keepH2 m ρ c r h.2.2.1).trans (W4_keep m ρ c r h)
theorem W6_keep (r : Ref sig .tc) (h : Untouched r) : W6 m ρ c (Proc.devRef .tc r) = m ((c : Thread nD τ).loc r) :=
  (keepR2 m ρ c r h.2.2.2.2.2.2.2.2.2.1 h.2.2.2.2.2.2.2.2.2.2.1).trans (W5_keep m ρ c r h)
theorem W7_keep (r : Ref sig .tc) (h : Untouched r) : W7 m ρ c (Proc.devRef .tc r) = m ((c : Thread nD τ).loc r) :=
  (keepH3 m ρ c r h.2.2.2.1).trans (W6_keep m ρ c r h)
theorem W8_keep (r : Ref sig .tc) (h : Untouched r) : W8 m ρ c (Proc.devRef .tc r) = m ((c : Thread nD τ).loc r) :=
  (keepR3 m ρ c r h.2.2.2.2.2.2.2.2.2.2.2.1 h.2.2.2.2.2.2.2.2.2.2.2.2.1).trans (W7_keep m ρ c r h)
theorem W9_keep (r : Ref sig .tc) (h : Untouched r) : W9 m ρ c (Proc.devRef .tc r) = m ((c : Thread nD τ).loc r) :=
  (keepH4 m ρ c r h.2.2.2.2.1).trans (W8_keep m ρ c r h)

/-! ## The specification's pieces, of the launch memory -/

/-- The left half of the message weight. -/
abbrev WmL : Mat 128 128 := leftHalf (m ((c : Thread nD τ).loc main_arg7))
/-- The node states before the first update. -/
abbrev hK0 : Mat 50000 128 := h0 (m ((c : Thread nD τ).loc main_arg0)) (m ((c : Thread nD τ).loc main_arg3)) (rowMat (m ((c : Thread nD τ).loc main_arg4)))
/-- The projected edge features. -/
abbrev eK : Mat 800000 128 := eProj (m ((c : Thread nD τ).loc main_arg2)) (m ((c : Thread nD τ).loc main_arg5)) (rowMat (m ((c : Thread nD τ).loc main_arg6)))
/-- The edge messages. -/
abbrev eM : Mat 800000 128 := eMsg (m ((c : Thread nD τ).loc main_arg2)) (m ((c : Thread nD τ).loc main_arg5)) (rowMat (m ((c : Thread nD τ).loc main_arg6))) (m ((c : Thread nD τ).loc main_arg7)) (rowMat (m ((c : Thread nD τ).loc main_arg8)))
/-- The source rows and the target words of the edges. -/
abbrev sK : Fin 800000 → Fin 50000 := srcRow (srcWords (m ((c : Thread nD τ).loc main_arg1)))
abbrev dK : Fin 800000 → Int := dstWord (dstWords (m ((c : Thread nD τ).loc main_arg1)))
/-- One update, per node. -/
abbrev stp (h : Mat 50000 128) : Mat 50000 128 :=
  stepK (sK m c) (dK m c) (WmL m c) (eM m c) (m ((c : Thread nD τ).loc main_arg9)) (m ((c : Thread nD τ).loc main_arg10)) (rowMat (m ((c : Thread nD τ).loc main_arg11))) (rowMat (m ((c : Thread nD τ).loc main_arg12))) h

/-! ## Region 0 -/

theorem W1_v0 : W1 m ρ c (Proc.devRef .tc main_v0) = WmL m c := by
  show after hostOps0 (W0 m ρ c) (Proc.devRef .tc main_v0) = _
  rw [stage0_v0]
theorem W1_v1 : W1 m ρ c (Proc.devRef .tc main_v1) = rightHalf (m ((c : Thread nD τ).loc main_arg7)) := by
  show after hostOps0 (W0 m ρ c) (Proc.devRef .tc main_v1) = _
  rw [stage0_v1]
theorem W1_v2 : W1 m ρ c (Proc.devRef .tc main_v2) = rowMat (m ((c : Thread nD τ).loc main_arg4)) := by
  show after hostOps0 (W0 m ρ c) (Proc.devRef .tc main_v2) = _
  rw [stage0_v2]

theorem W2_v3_0 : W2 m ρ c (Proc.devRef .tc main_v3_0) = hK0 m c := by
  refine (W2_arr m ρ c 4).trans ((region0_h (V1 m ρ) c).trans ?_)
  show affine (W1 m ρ c (Proc.devRef .tc main_arg0)) (W1 m ρ c (Proc.devRef .tc main_arg3)) (W1 m ρ c (Proc.devRef .tc main_v2)) = _
  rw [W1_keep m ρ c main_arg0 (by decide), W1_keep m ρ c main_arg3 (by decide), W1_v2]; rfl

theorem W2_v3_1 : W2 m ρ c (Proc.devRef .tc main_v3_1) = lin (hK0 m c) (WmL m c) := by
  refine (W2_arr m ρ c 5).trans ((region0_hW (V1 m ρ) c).trans ?_)
  show lin (affine (W1 m ρ c (Proc.devRef .tc main_arg0)) (W1 m ρ c (Proc.devRef .tc main_arg3)) (W1 m ρ c (Proc.devRef .tc main_v2)))
      (W1 m ρ c (Proc.devRef .tc main_v0)) = _
  rw [W1_keep m ρ c main_arg0 (by decide), W1_keep m ρ c main_arg3 (by decide), W1_v2, W1_v0]; rfl

/-! ## Region 1 -/

theorem W3_v4 : W3 m ρ c (Proc.devRef .tc main_v4) = rowMat (m ((c : Thread nD τ).loc main_arg6)) := by
  show after hostOps1 (W2 m ρ c) (Proc.devRef .tc main_v4) = _
  rw [stage1_v4, W2_keep m ρ c main_arg6 (by decide)]
theorem W3_v5 : W3 m ρ c (Proc.devRef .tc main_v5) = rowMat (m ((c : Thread nD τ).loc main_arg8)) := by
  show after hostOps1 (W2 m ρ c) (Proc.devRef .tc main_v5) = _
  rw [stage1_v5, W2_keep m ρ c main_arg8 (by decide)]
theorem W3_v1 : W3 m ρ c (Proc.devRef .tc main_v1) = rightHalf (m ((c : Thread nD τ).loc main_arg7)) :=
  (keepH1 m ρ c main_v1 (by decide)).trans ((keepR0 m ρ c main_v1 (by decide) (by decide)).trans (W1_v1 m ρ c))

theorem W4_v6_0 : W4 m ρ c (Proc.devRef .tc main_v6_0) = eK m c := by
  refine (W4_arr m ρ c 5).trans ((region1_e (V3 m ρ) c).trans ?_)
  show affine (W3 m ρ c (Proc.devRef .tc main_arg2)) (W3 m ρ c (Proc.devRef .tc main_arg5)) (W3 m ρ c (Proc.devRef .tc main_v4)) = _
  rw [W3_keep m ρ c main_arg2 (by decide), W3_keep m ρ c main_arg5 (by decide), W3_v4]; rfl

theorem W4_v6_1 : W4 m ρ c (Proc.devRef .tc main_v6_1) = eM m c := by
  refine (W4_arr m ρ c 6).trans ((region1_emsg (V3 m ρ) c).trans ?_)
  show affine (affine (W3 m ρ c (Proc.devRef .tc main_arg2)) (W3 m ρ c (Proc.devRef .tc main_arg5)) (W3 m ρ c (Proc.devRef .tc main_v4)))
      (W3 m ρ c (Proc.devRef .tc main_v1)) (W3 m ρ c (Proc.devRef .tc main_v5)) = _
  rw [W3_keep m ρ c main_arg2 (by decide), W3_keep m ρ c main_arg5 (by decide), W3_v4, W3_v1, W3_v5]; rfl

theorem W4_v3_0 : W4 m ρ c (Proc.devRef .tc main_v3_0) = hK0 m c :=
  (keepR1 m ρ c main_v3_0 (by decide) (by decide)).trans ((keepH1 m ρ c main_v3_0 (by decide)).trans (W2_v3_0 m ρ c))
theorem W4_v3_1 : W4 m ρ c (Proc.devRef .tc main_v3_1) = lin (hK0 m c) (WmL m c) :=
  (keepR1 m ρ c main_v3_1 (by decide) (by decide)).trans ((keepH1 m ρ c main_v3_1 (by decide)).trans (W2_v3_1 m ρ c))
theorem W4_v0 : W4 m ρ c (Proc.devRef .tc main_v0) = WmL m c :=
  (keepR1 m ρ c main_v0 (by decide) (by decide)).trans ((keepH1 m ρ c main_v0 (by decide)).trans
    ((keepR0 m ρ c main_v0 (by decide) (by decide)).trans (W1_v0 m ρ c)))

/-! ## The first update (region 2) -/

theorem W5_v8 : W5 m ρ c (Proc.devRef .tc main_v8) = srcWords (m ((c : Thread nD τ).loc main_arg1)) := by
  show after hostOps2 (W4 m ρ c) (Proc.devRef .tc main_v8) = _
  rw [stage2_v8, W4_keep m ρ c main_arg1 (by decide)]
theorem W5_v10 : W5 m ρ c (Proc.devRef .tc main_v10) = dstWords (m ((c : Thread nD τ).loc main_arg1)) := by
  show after hostOps2 (W4 m ρ c) (Proc.devRef .tc main_v10) = _
  rw [stage2_v10, W4_keep m ρ c main_arg1 (by decide)]
theorem W5_v13 : W5 m ρ c (Proc.devRef .tc main_v13) = segSum (N := 50000) (dK m c) (eM m c) := by
  show after hostOps2 (W4 m ρ c) (Proc.devRef .tc main_v13) = _
  rw [stage2_v13, W4_keep m ρ c main_arg1 (by decide), W4_v6_1]
theorem W5_v24 : W5 m ρ c (Proc.devRef .tc main_v24)
    = fun i => segSum (N := 50000) (dK m c) (rowsAt (lin (hK0 m c) (WmL m c)) (sK m c)) i + segSum (N := 50000) (dK m c) (eM m c) i := by
  show after hostOps2 (W4 m ρ c) (Proc.devRef .tc main_v24) = _
  rw [stage2_v24, W4_keep m ρ c main_arg1 (by decide), W4_v6_1, W4_v3_1]
theorem W5_v25 : W5 m ρ c (Proc.devRef .tc main_v25) = rowMat (m ((c : Thread nD τ).loc main_arg11)) := by
  show after hostOps2 (W4 m ρ c) (Proc.devRef .tc main_v25) = _
  rw [stage2_v25, W4_keep m ρ c main_arg11 (by decide)]
theorem W5_v26 : W5 m ρ c (Proc.devRef .tc main_v26) = rowMat (m ((c : Thread nD τ).loc main_arg12)) := by
  show after hostOps2 (W4 m ρ c) (Proc.devRef .tc main_v26) = _
  rw [stage2_v26, W4_keep m ρ c main_arg12 (by decide)]
theorem W5_v3_0 : W5 m ρ c (Proc.devRef .tc main_v3_0) = hK0 m c :=
  (keepH2 m ρ c main_v3_0 (by decide)).trans (W4_v3_0 m ρ c)
theorem W5_v0 : W5 m ρ c (Proc.devRef .tc main_v0) = WmL m c :=
  (keepH2 m ρ c main_v0 (by decide)).trans (W4_v0 m ρ c)

theorem W6_v27_0 : W6 m ρ c (Proc.devRef .tc main_v27_0) = stp m c (hK0 m c) := by
  refine (W6_arr m ρ c 7).trans ((region2_h (V5 m ρ) c).trans ?_)
  show gru (affine (W5 m ρ c (Proc.devRef .tc main_v24)) (W5 m ρ c (Proc.devRef .tc main_arg9)) (W5 m ρ c (Proc.devRef .tc main_v25)))
      (affine (W5 m ρ c (Proc.devRef .tc main_v3_0)) (W5 m ρ c (Proc.devRef .tc main_arg10)) (W5 m ρ c (Proc.devRef .tc main_v26)))
      (W5 m ρ c (Proc.devRef .tc main_v3_0)) = _
  rw [W5_v24, W5_keep m ρ c main_arg9 (by decide), W5_v25, W5_v3_0, W5_keep m ρ c main_arg10 (by decide), W5_v26]; rfl

theorem W6_v27_1 : W6 m ρ c (Proc.devRef .tc main_v27_1) = lin (stp m c (hK0 m c)) (WmL m c) := by
  refine (W6_arr m ρ c 8).trans ((region2_hW (V5 m ρ) c).trans ?_)
  show lin (gru (affine (W5 m ρ c (Proc.devRef .tc main_v24)) (W5 m ρ c (Proc.devRef .tc main_arg9)) (W5 m ρ c (Proc.devRef .tc main_v25)))
      (affine (W5 m ρ c (Proc.devRef .tc main_v3_0)) (W5 m ρ c (Proc.devRef .tc main_arg10)) (W5 m ρ c (Proc.devRef .tc main_v26)))
      (W5 m ρ c (Proc.devRef .tc main_v3_0))) (W5 m ρ c (Proc.devRef .tc main_v0)) = _
  rw [W5_v24, W5_keep m ρ c main_arg9 (by decide), W5_v25, W5_v3_0, W5_keep m ρ c main_arg10 (by decide), W5_v26, W5_v0]; rfl

theorem W6_v8 : W6 m ρ c (Proc.devRef .tc main_v8) = srcWords (m ((c : Thread nD τ).loc main_arg1)) :=
  (keepR2 m ρ c main_v8 (by decide) (by decide)).trans (W5_v8 m ρ c)
theorem W6_v10 : W6 m ρ c (Proc.devRef .tc main_v10) = dstWords (m ((c : Thread nD τ).loc main_arg1)) :=
  (keepR2 m ρ c main_v10 (by decide) (by decide)).trans (W5_v10 m ρ c)
theorem W6_v13 : W6 m ρ c (Proc.devRef .tc main_v13) = segSum (N := 50000) (dK m c) (eM m c) :=
  (keepR2 m ρ c main_v13 (by decide) (by decide)).trans (W5_v13 m ρ c)
theorem W6_v0 : W6 m ρ c (Proc.devRef .tc main_v0) = WmL m c :=
  (keepR2 m ρ c main_v0 (by decide) (by decide)).trans (W5_v0 m ρ c)

/-! ## The second update (region 3) -/

theorem W7_v38 : W7 m ρ c (Proc.devRef .tc main_v38)
    = fun i => segSum (N := 50000) (dK m c) (rowsAt (lin (stp m c (hK0 m c)) (WmL m c)) (sK m c)) i + segSum (N := 50000) (dK m c) (eM m c) i := by
  show after hostOps3 (W6 m ρ c) (Proc.devRef .tc main_v38) = _
  rw [stage3_v38, W6_v10, W6_v27_1, W6_v8, W6_v13]
theorem W7_v39 : W7 m ρ c (Proc.devRef .tc main_v39) = rowMat (m ((c : Thread nD τ).loc main_arg11)) := by
  show after hostOps3 (W6 m ρ c) (Proc.devRef .tc main_v39) = _
  rw [stage3_v39, W6_keep m ρ c main_arg11 (by decide)]
theorem W7_v40 : W7 m ρ c (Proc.devRef .tc main_v40) = rowMat (m ((c : Thread nD τ).loc main_arg12)) := by
  show after hostOps3 (W6 m ρ c) (Proc.devRef .tc main_v40) = _
  rw [stage3_v40, W6_keep m ρ c main_arg12 (by decide)]
theorem W7_v27_0 : W7 m ρ c (Proc.devRef .tc main_v27_0) = stp m c (hK0 m c) :=
  (keepH3 m ρ c main_v27_0 (by decide)).trans (W6_v27_0 m ρ c)
theorem W7_v0 : W7 m ρ c (Proc.devRef .tc main_v0) = WmL m c :=
  (keepH3 m ρ c main_v0 (by decide)).trans (W6_v0 m ρ c)

theorem W8_v41_0 : W8 m ρ c (Proc.devRef .tc main_v41_0) = stp m c (stp m c (hK0 m c)) := by
  refine (W8_arr m ρ c 7).trans ((region3_h (V7 m ρ) c).trans ?_)
  show gru (affine (W7 m ρ c (Proc.devRef .tc main_v38)) (W7 m ρ c (Proc.devRef .tc main_arg9)) (W7 m ρ c (Proc.devRef .tc main_v39)))
      (affine (W7 m ρ c (Proc.devRef .tc main_v27_0)) (W7 m ρ c (Proc.devRef .tc main_arg10)) (W7 m ρ c (Proc.devRef .tc main_v40)))
      (W7 m ρ c (Proc.devRef .tc main_v27_0)) = _
  rw [W7_v38, W7_keep m ρ c main_arg9 (by decide), W7_v39, W7_v27_0, W7_keep m ρ c main_arg10 (by decide), W7_v40]; rfl

theorem W8_v41_1 : W8 m ρ c (Proc.devRef .tc main_v41_1) = lin (stp m c (stp m c (hK0 m c))) (WmL m c) := by
  refine (W8_arr m ρ c 8).trans ((region3_hW (V7 m ρ) c).trans ?_)
  show lin (gru (affine (W7 m ρ c (Proc.devRef .tc main_v38)) (W7 m ρ c (Proc.devRef .tc main_arg9)) (W7 m ρ c (Proc.devRef .tc main_v39)))
      (affine (W7 m ρ c (Proc.devRef .tc main_v27_0)) (W7 m ρ c (Proc.devRef .tc main_arg10)) (W7 m ρ c (Proc.devRef .tc main_v40)))
      (W7 m ρ c (Proc.devRef .tc main_v27_0))) (W7 m ρ c (Proc.devRef .tc main_v0)) = _
  rw [W7_v38, W7_keep m ρ c main_arg9 (by decide), W7_v39, W7_v27_0, W7_keep m ρ c main_arg10 (by decide), W7_v40, W7_v0]; rfl

theorem W8_v8 : W8 m ρ c (Proc.devRef .tc main_v8) = srcWords (m ((c : Thread nD τ).loc main_arg1)) :=
  (keepR3 m ρ c main_v8 (by decide) (by decide)).trans ((keepH3 m ρ c main_v8 (by decide)).trans (W6_v8 m ρ c))
theorem W8_v10 : W8 m ρ c (Proc.devRef .tc main_v10) = dstWords (m ((c : Thread nD τ).loc main_arg1)) :=
  (keepR3 m ρ c main_v10 (by decide) (by decide)).trans ((keepH3 m ρ c main_v10 (by decide)).trans (W6_v10 m ρ c))
theorem W8_v13 : W8 m ρ c (Proc.devRef .tc main_v13) = segSum (N := 50000) (dK m c) (eM m c) :=
  (keepR3 m ρ c main_v13 (by decide) (by decide)).trans ((keepH3 m ρ c main_v13 (by decide)).trans (W6_v13 m ρ c))
theorem W8_v0 : W8 m ρ c (Proc.devRef .tc main_v0) = WmL m c :=
  (keepR3 m ρ c main_v0 (by decide) (by decide)).trans (W7_v0 m ρ c)

/-! ## The third update (region 4) -/

theorem W9_v52 : W9 m ρ c (Proc.devRef .tc main_v52)
    = fun i => segSum (N := 50000) (dK m c) (rowsAt (lin (stp m c (stp m c (hK0 m c))) (WmL m c)) (sK m c)) i + segSum (N := 50000) (dK m c) (eM m c) i := by
  show after hostOps4 (W8 m ρ c) (Proc.devRef .tc main_v52) = _
  rw [stage4_v52, W8_v10, W8_v41_1, W8_v8, W8_v13]
theorem W9_v53 : W9 m ρ c (Proc.devRef .tc main_v53) = rowMat (m ((c : Thread nD τ).loc main_arg11)) := by
  show after hostOps4 (W8 m ρ c) (Proc.devRef .tc main_v53) = _
  rw [stage4_v53, W8_keep m ρ c main_arg11 (by decide)]
theorem W9_v54 : W9 m ρ c (Proc.devRef .tc main_v54) = rowMat (m ((c : Thread nD τ).loc main_arg12)) := by
  show after hostOps4 (W8 m ρ c) (Proc.devRef .tc main_v54) = _
  rw [stage4_v54, W8_keep m ρ c main_arg12 (by decide)]
theorem W9_v41_0 : W9 m ρ c (Proc.devRef .tc main_v41_0) = stp m c (stp m c (hK0 m c)) :=
  (keepH4 m ρ c main_v41_0 (by decide)).trans (W8_v41_0 m ρ c)
theorem W9_v0 : W9 m ρ c (Proc.devRef .tc main_v0) = WmL m c :=
  (keepH4 m ρ c main_v0 (by decide)).trans (W8_v0 m ρ c)

/-- The final node states: three per-node updates of h0. -/
theorem W10_v55_0 : W10 m ρ c (Proc.devRef .tc main_v55_0)
    = netK (sK m c) (dK m c) (m ((c : Thread nD τ).loc main_arg0)) (m ((c : Thread nD τ).loc main_arg2)) (m ((c : Thread nD τ).loc main_arg3)) (rowMat (m ((c : Thread nD τ).loc main_arg4))) (m ((c : Thread nD τ).loc main_arg5)) (rowMat (m ((c : Thread nD τ).loc main_arg6)))
        (m ((c : Thread nD τ).loc main_arg7)) (rowMat (m ((c : Thread nD τ).loc main_arg8))) (m ((c : Thread nD τ).loc main_arg9)) (m ((c : Thread nD τ).loc main_arg10)) (rowMat (m ((c : Thread nD τ).loc main_arg11))) (rowMat (m ((c : Thread nD τ).loc main_arg12))) := by
  refine (W10_arr m ρ c 7).trans ((region4_h (V9 m ρ) c).trans ?_)
  show gru (affine (W9 m ρ c (Proc.devRef .tc main_v52)) (W9 m ρ c (Proc.devRef .tc main_arg9)) (W9 m ρ c (Proc.devRef .tc main_v53)))
      (affine (W9 m ρ c (Proc.devRef .tc main_v41_0)) (W9 m ρ c (Proc.devRef .tc main_arg10)) (W9 m ρ c (Proc.devRef .tc main_v54)))
      (W9 m ρ c (Proc.devRef .tc main_v41_0)) = _
  rw [W9_v52, W9_keep m ρ c main_arg9 (by decide), W9_v53, W9_v41_0, W9_keep m ρ c main_arg10 (by decide), W9_v54]; rfl

/-- The projected edge features, written by region 1 and left alone after it. -/
theorem W10_v6_0 : W10 m ρ c (Proc.devRef .tc main_v6_0) = eK m c :=
  (keepR4 m ρ c main_v6_0 (by decide) (by decide)).trans ((keepH4 m ρ c main_v6_0 (by decide)).trans
    ((keepR3 m ρ c main_v6_0 (by decide) (by decide)).trans ((keepH3 m ρ c main_v6_0 (by decide)).trans
      ((keepR2 m ρ c main_v6_0 (by decide) (by decide)).trans ((keepH2 m ρ c main_v6_0 (by decide)).trans (W4_v6_0 m ρ c))))))

end Cert.KernelIdeal.Chain

end
-- ==== Proof.KernelValue.lean ====
/-
  The idealized kernel's run, read: every weakly fair execution ends, without a fault, with the final node states
  at three per-node updates of the initial states (`netK` of the launch memory's arrays) and the projected edge
  features at `eProj`, the arguments as launched.
-/
import proofs.«158604_j30331059044708_2_alg».proof.Proof.KernelRun
import proofs.«158604_j30331059044708_2_alg».proof.Proof.ChainValue

noncomputable section

namespace Cert.KernelIdeal.Chain

open Cert.KernelIdeal Cert.Gnn Cert.Gnn.HostOps
open Idealize.ShloMosaic Idealize.ShloMosaic.TcCoe Idealize.SL.Sem

theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55_0)
          = netK (srcRow (srcWords (m ((c.tc : Thread nD τ).loc main_arg1)))) (dstWord (dstWords (m ((c.tc : Thread nD τ).loc main_arg1))))
              (m ((c.tc : Thread nD τ).loc main_arg0)) (m ((c.tc : Thread nD τ).loc main_arg2)) (m ((c.tc : Thread nD τ).loc main_arg3)) (rowMat (m ((c.tc : Thread nD τ).loc main_arg4))) (m ((c.tc : Thread nD τ).loc main_arg5)) (rowMat (m ((c.tc : Thread nD τ).loc main_arg6)))
              (m ((c.tc : Thread nD τ).loc main_arg7)) (rowMat (m ((c.tc : Thread nD τ).loc main_arg8))) (m ((c.tc : Thread nD τ).loc main_arg9)) (m ((c.tc : Thread nD τ).loc main_arg10)) (rowMat (m ((c.tc : Thread nD τ).loc main_arg11))) (rowMat (m ((c.tc : Thread nD τ).loc main_arg12)))
      ∧ r.2.mem ((c.tc : Thread nD τ).loc main_v6_0) = eProj (m ((c.tc : Thread nD τ).loc main_arg2)) (m ((c.tc : Thread nD τ).loc main_arg5)) (rowMat (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun r h c => ⟨(h c).1.trans (W10_v55_0 m ρ c), (h c).2.1.trans (W10_v6_0 m ρ c), (h c).2.2⟩)
    (run_W10 (F := Ideal) m ρ)

end Cert.KernelIdeal.Chain

end
-- ==== Proof.RefValue.lean ====
/-
  The reference's results as the specification's functions of its arguments.

  The reference computes the node states by three updates in the per-edge arrangement: every update gathers the
  source rows of the current states, contracts them with the left half of the message weight, adds the edge
  messages, sums by target word into zeros, and feeds the sum and the old states to the gated cell. Its whole-array
  term for one update is named here once, over variables (`updT`), and shown to be the specification's `stepR`
  (`updT_eq`); the program's three updates are that one term at three states. With the initial states, the edge
  words, the left half of the message weight and the edge messages read as the specification's `h0`, `srcWords`,
  `dstWords`, `leftHalf` and `eMsg`, the first result is `netR` of the arguments and the second is `eProj`.
-/
import proofs.«158604_j30331059044708_2_alg».proof.Proof.Gen.ReferenceIdeal.Run
import proofs.«158604_j30331059044708_2_alg».proof.Proof.Spec
import proofs.«158604_j30331059044708_2_alg».proof.Proof.HostOps

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Cert.Gnn Cert.Gnn.HostOps

/-! ## The reference's whole-array terms, over variables -/

section Terms
variable {F : FTy → Type} [FloatOps F]

/-- The initial node states: the node features against the transposed node weight, plus the bias down the rows. -/
def h0T (x : FVec F S50000x64 .f32) (Wn : FVec F S128x64 .f32) (bn : FVec F S128 .f32) : FVec F S50000x128 .f32 :=
  addf (Host.dotGeneral dot_S50000x64_S64x128_S50000x128_1_0_0_1_n_n none x (transpose S64x128 [1, 0] Wn transposes_S128x64_S64x128_1_0)) (broadcastInDim S50000x128 ![0, 1] bcast_S1x128_S50000x128_0_1 (broadcastInDim S1x128 ![1] bcast_S128_S1x128_1 bn))

/-- The projected edge features (the second result). -/
def eT (ef : FVec F S800000x32 .f32) (We : FVec F S128x32 .f32) (be : FVec F S128 .f32) : FVec F S800000x128 .f32 :=
  addf (Host.dotGeneral dot_S800000x32_S32x128_S800000x128_1_0_0_1_n_n none ef (transpose S32x128 [1, 0] We transposes_S128x32_S32x128_1_0)) (broadcastInDim S800000x128 ![0, 1] bcast_S1x128_S800000x128_0_1 (broadcastInDim S1x128 ![1] bcast_S128_S1x128_1 be))

/-- The edge messages: the projected edge features against the transposed right half of the message weight, plus the bias. -/
def emT (ef : FVec F S800000x32 .f32) (We : FVec F S128x32 .f32) (be : FVec F S128 .f32) (Wmsg : FVec F S128x256 .f32)
    (bm : FVec F S128 .f32) : FVec F S800000x128 .f32 :=
  addf (Host.dotGeneral dot_S800000x128_S128x128_S800000x128_1_0_0_1_n_n none (addf (Host.dotGeneral dot_S800000x32_S32x128_S800000x128_1_0_0_1_n_n none ef (transpose S32x128 [1, 0] We transposes_S128x32_S32x128_1_0)) (broadcastInDim S800000x128 ![0, 1] bcast_S1x128_S800000x128_0_1 (broadcastInDim S1x128 ![1] bcast_S128_S1x128_1 be))) (transpose S128x128 [1, 0] (extractStridedSlice S128x128 ![0, 128] Wmsg slices_S128x256_S128x128_0_128) transposes_S128x128_S128x128_1_0)) (broadcastInDim S800000x128 ![0, 1] bcast_S1x128_S800000x128_0_1 (broadcastInDim S1x128 ![1] bcast_S128_S1x128_1 bm))

/-- The source words: row 0 of the edge-index array, as a vector. -/
def srcT (ei : IVec S2x800000 32) : IVec S800000 32 :=
  shapeCast S800000 (extractStridedSlice S1x800000 ![0, 0] ei slices_S2x800000_S1x800000_0_0) shapeCasts_S1x800000_S800000

/-- The target words: row 1 of the edge-index array, as a vector. -/
def dstT (ei : IVec S2x800000 32) : IVec S800000 32 :=
  shapeCast S800000 (extractStridedSlice S1x800000 ![1, 0] ei slices_S2x800000_S1x800000_1_0) shapeCasts_S1x800000_S800000

/-- The left half of the message weight. -/
def wmT (Wmsg : FVec F S128x256 .f32) : FVec F S128x128 .f32 :=
  extractStridedSlice S128x128 ![0, 0] Wmsg slices_S128x256_S128x128_0_0

/-- The input-side gate pre-activations of one update from the states `H`: gather by source word, contract with the
    message weight's left half, add the edge messages, sum by target word into zeros, then the input weight and bias. -/
def giT (H : FVec F S50000x128 .f32) (w11 w13 : IVec S800000 32) (Wm : FVec F S128x128 .f32) (em : FVec F S800000x128 .f32)
    (Wih : FVec F S384x128 .f32) (bih : FVec F S384 .f32) : FVec F S50000x384 .f32 :=
  addf (Host.dotGeneral dot_S50000x128_S128x384_S50000x384_1_0_0_1_n_n none (Host.scatterAdd scatter_S50000x128_S800000x1_S800000x128_1_0_0_1 (broadcastInDim S50000x128 ![] bcast_S_S50000x128 (constant S_ .f32 0x00000000#32)) (broadcastInDim S800000x1 ![0] bcast_S800000_S800000x1_0 w13) (addf (Host.dotGeneral dot_S800000x128_S128x128_S800000x128_1_0_0_1_n_n none (Host.gather gather_S50000x128_S800000x1_S800000x128_1_0_n_n_0_1_1128 H (broadcastInDim S800000x1 ![0] bcast_S800000_S800000x1_0 (select (cmpi .slt w11 (broadcastInDim S800000 ![] bcast_S_S800000 (constantI S_ 32 0#32))) (addi w11 (broadcastInDim S800000 ![] bcast_S_S800000 (constantI S_ 32 50000#32))) w11))) (transpose S128x128 [1, 0] Wm transposes_S128x128_S128x128_1_0)) em)) (transpose S128x384 [1, 0] Wih transposes_S384x128_S128x384_1_0)) (broadcastInDim S50000x384 ![0, 1] bcast_S1x384_S50000x384_0_1 (broadcastInDim S1x384 ![1] bcast_S384_S1x384_1 bih))

/-- The state-side gate pre-activations of one update. -/
def ghT (H : FVec F S50000x128 .f32) (Whh : FVec F S384x128 .f32) (bhh : FVec F S384 .f32) : FVec F S50000x384 .f32 :=
  addf (Host.dotGeneral dot_S50000x128_S128x384_S50000x384_1_0_0_1_n_n none H (transpose S128x384 [1, 0] Whh transposes_S384x128_S128x384_1_0)) (broadcastInDim S50000x384 ![0, 1] bcast_S1x384_S50000x384_0_1 (broadcastInDim S1x384 ![1] bcast_S384_S1x384_1 bhh))

/-- The update gate: the logistic function of the middle 128 columns' sum. -/
def zT (gi gh : FVec F S50000x384 .f32) : FVec F S50000x128 .f32 :=
  Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 128] gi slices_S50000x384_S50000x128_0_128) (extractStridedSlice S50000x128 ![0, 128] gh slices_S50000x384_S50000x128_0_128)))))

/-- The gated cell in whole-array operations. -/
def cellT (gi gh : FVec F S50000x384 .f32) (H : FVec F S50000x128 .f32) : FVec F S50000x128 .f32 :=
  addf (mulf (subf (broadcastInDim S50000x128 ![] bcast_S_S50000x128 (constant S_ .f32 0x3F800000#32)) (zT gi gh)) (Host.tanh (addf (extractStridedSlice S50000x128 ![0, 256] gi slices_S50000x384_S50000x128_0_256) (mulf (Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 0] gi slices_S50000x384_S50000x128_0_0) (extractStridedSlice S50000x128 ![0, 0] gh slices_S50000x384_S50000x128_0_0)))))) (extractStridedSlice S50000x128 ![0, 256] gh slices_S50000x384_S50000x128_0_256))))) (mulf (zT gi gh) H)

/-- One update of the node states, as the reference spells it. -/
def updT (H : FVec F S50000x128 .f32) (w11 w13 : IVec S800000 32) (Wm : FVec F S128x128 .f32) (em : FVec F S800000x128 .f32)
    (Wih Whh : FVec F S384x128 .f32) (bih bhh : FVec F S384 .f32) : FVec F S50000x128 .f32 :=
  cellT (giT H w11 w13 Wm em Wih bih) (ghT H Whh bhh) H

/-! ## The program's named intermediates are these terms -/

variable (V0 : Valuation τ sig (Elt F))

theorem v4_term : res_main_v4 V0 = h0T (V0 (Proc.devRef .tc main_arg0)) (V0 (Proc.devRef .tc main_arg3)) (V0 (Proc.devRef .tc main_arg4)) := rfl

theorem v11_term : res_main_v11 V0 = srcT (V0 (Proc.devRef .tc main_arg1)) := rfl

theorem v13_term : res_main_v13 V0 = dstT (V0 (Proc.devRef .tc main_arg1)) := rfl

theorem v14_term : res_main_v14 V0 = wmT (V0 (Proc.devRef .tc main_arg7)) := rfl

theorem v20_term : res_main_v20 V0 = emT (V0 (Proc.devRef .tc main_arg2)) (V0 (Proc.devRef .tc main_arg5)) (V0 (Proc.devRef .tc main_arg6)) (V0 (Proc.devRef .tc main_arg7)) (V0 (Proc.devRef .tc main_arg8)) := rfl

set_option maxRecDepth 8192 in
theorem v71_term : res_main_v71 V0 = updT (res_main_v4 V0) (res_main_v11 V0) (res_main_v13 V0) (res_main_v14 V0) (res_main_v20 V0) (V0 (Proc.devRef .tc main_arg9)) (V0 (Proc.devRef .tc main_arg10)) (V0 (Proc.devRef .tc main_arg11)) (V0 (Proc.devRef .tc main_arg12)) := rfl

set_option maxRecDepth 8192 in
theorem v122_term : res_main_v122 V0 = updT (res_main_v71 V0) (res_main_v11 V0) (res_main_v13 V0) (res_main_v14 V0) (res_main_v20 V0) (V0 (Proc.devRef .tc main_arg9)) (V0 (Proc.devRef .tc main_arg10)) (V0 (Proc.devRef .tc main_arg11)) (V0 (Proc.devRef .tc main_arg12)) := rfl

set_option maxRecDepth 8192 in
/-- The first result's term (as the run states it) is the third update. -/
theorem v173_term :
    addf (mulf (subf (broadcastInDim S50000x128 ![] bcast_S_S50000x128 (constant S_ .f32 0x3F800000#32)) (res_main_v165 V0)) (Host.tanh (addf (extractStridedSlice S50000x128 ![0, 256] (res_main_v140 V0) slices_S50000x384_S50000x128_0_256) (mulf (Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 0] (res_main_v140 V0) slices_S50000x384_S50000x128_0_0) (extractStridedSlice S50000x128 ![0, 0] (res_main_v145 V0) slices_S50000x384_S50000x128_0_0)))))) (extractStridedSlice S50000x128 ![0, 256] (res_main_v145 V0) slices_S50000x384_S50000x128_0_256))))) (mulf (res_main_v165 V0) (res_main_v122 V0))
      = updT (res_main_v122 V0) (res_main_v11 V0) (res_main_v13 V0) (res_main_v14 V0) (res_main_v20 V0) (V0 (Proc.devRef .tc main_arg9)) (V0 (Proc.devRef .tc main_arg10)) (V0 (Proc.devRef .tc main_arg11)) (V0 (Proc.devRef .tc main_arg12)) := rfl

/-- The second result's term (as the run states it). -/
theorem v9_term :
    addf (Host.dotGeneral dot_S800000x32_S32x128_S800000x128_1_0_0_1_n_n none (V0 (Proc.devRef .tc main_arg2)) (transpose S32x128 [1, 0] (V0 (Proc.devRef .tc main_arg5)) transposes_S128x32_S32x128_1_0)) (broadcastInDim S800000x128 ![0, 1] bcast_S1x128_S800000x128_0_1 (broadcastInDim S1x128 ![1] bcast_S128_S1x128_1 (V0 (Proc.devRef .tc main_arg6))))
      = eT (V0 (Proc.devRef .tc main_arg2)) (V0 (Proc.devRef .tc main_arg5)) (V0 (Proc.devRef .tc main_arg6)) := rfl

end Terms

/-! ## The terms at the extended reals are the specification's functions -/

theorem h0T_eq (x : Mat 50000 64) (Wn : Mat 128 64) (bn : S128.Idx → EReal) :
    h0T (F := Ideal) x Wn bn = h0 x Wn (rowMat bn) := by
  unfold h0T h0
  exact affine_host dot_S50000x64_S64x128_S50000x128_1_0_0_1_n_n_wf transposes_S128x64_S64x128_1_0 bcast_S128_S1x128_1
    bcast_S1x128_S50000x128_0_1 x Wn bn

theorem eT_eq (ef : Mat 800000 32) (We : Mat 128 32) (be : S128.Idx → EReal) :
    eT (F := Ideal) ef We be = eProj ef We (rowMat be) := by
  unfold eT eProj
  exact affine_host dot_S800000x32_S32x128_S800000x128_1_0_0_1_n_n_wf transposes_S128x32_S32x128_1_0 bcast_S128_S1x128_1
    bcast_S1x128_S800000x128_0_1 ef We be

theorem emT_eq (ef : Mat 800000 32) (We : Mat 128 32) (be : S128.Idx → EReal) (Wmsg : Mat 128 256) (bm : S128.Idx → EReal) :
    emT (F := Ideal) ef We be Wmsg bm = eMsg ef We (rowMat be) Wmsg (rowMat bm) := by
  unfold emT eMsg eProj
  exact (affine_host dot_S800000x128_S128x128_S800000x128_1_0_0_1_n_n_wf transposes_S128x128_S128x128_1_0 bcast_S128_S1x128_1
      bcast_S1x128_S800000x128_0_1 _ _ bm).trans
    (congrArg₂ (fun (a : Mat 800000 128) (b : Mat 128 128) => affine a b (rowMat bm))
      (affine_host dot_S800000x32_S32x128_S800000x128_1_0_0_1_n_n_wf transposes_S128x32_S32x128_1_0 bcast_S128_S1x128_1
        bcast_S1x128_S800000x128_0_1 ef We be)
      (slice_right slices_S128x256_S128x128_0_128 Wmsg))

theorem srcT_eq (ei : IVec S2x800000 32) : srcT ei = srcWords ei := by
  unfold srcT
  exact srcWords_eq ei slices_S2x800000_S1x800000_0_0 shapeCasts_S1x800000_S800000

theorem dstT_eq (ei : IVec S2x800000 32) : dstT ei = dstWords ei := by
  unfold dstT
  exact dstWords_eq ei slices_S2x800000_S1x800000_1_0 shapeCasts_S1x800000_S800000

theorem wmT_eq (Wmsg : Mat 128 256) : wmT (F := Ideal) Wmsg = leftHalf Wmsg := by
  unfold wmT
  exact slice_left slices_S128x256_S128x128_0_0 Wmsg

/-- The input-side pre-activations: the segment sum by target word of the per-edge messages, through the input weight. -/
theorem giT_eq (H : Mat 50000 128) (w11 w13 : IVec S800000 32) (Wm : Mat 128 128) (em : Mat 800000 128)
    (Wih : Mat 384 128) (bih : S384.Idx → EReal) :
    giT (F := Ideal) H w11 w13 Wm em Wih bih
      = affine (segSum (N := 50000) (dstWord w13) (fun i => lin (rowsAt H (srcRow w11)) Wm i + em i)) Wih (rowMat bih) := by
  have hg := gather_src gather_S50000x128_S800000x1_S800000x128_1_0_n_n_0_1_1128_wf bcast_S800000_S800000x1_0 bcast_S_S800000 H w11
  have hd := (dot_transpose dot_S800000x128_S128x128_S800000x128_1_0_0_1_n_n_wf transposes_S128x128_S128x128_1_0 _ Wm).trans
    (congrArg (fun x : Mat 800000 128 => lin x Wm) hg)
  have hm := congrArg (fun u : Mat 800000 128 => addf (F := Ideal) (φ := .f32) u em) hd
  have hs := (scatter_dst scatter_S50000x128_S800000x1_S800000x128_1_0_0_1_wf bcast_S_S50000x128 bcast_S800000_S800000x1_0 w13 _).trans
    (congrArg (fun u : Mat 800000 128 => segSum (N := 50000) (dstWord w13) u) hm)
  have ha := (affine_host dot_S50000x128_S128x384_S50000x384_1_0_0_1_n_n_wf transposes_S384x128_S128x384_1_0 bcast_S384_S1x384_1
      bcast_S1x384_S50000x384_0_1 _ Wih bih).trans
    (congrArg (fun x : Mat 50000 128 => affine x Wih (rowMat bih)) hs)
  unfold giT
  exact ha

/-- The state-side pre-activations. -/
theorem ghT_eq (H : Mat 50000 128) (Whh : Mat 384 128) (bhh : S384.Idx → EReal) :
    ghT (F := Ideal) H Whh bhh = affine H Whh (rowMat bhh) := by
  unfold ghT
  exact affine_host dot_S50000x128_S128x384_S50000x384_1_0_0_1_n_n_wf transposes_S384x128_S128x384_1_0 bcast_S384_S1x384_1
    bcast_S1x384_S50000x384_0_1 H Whh bhh

/-- The cell. -/
theorem cellT_eq (gi gh : Mat 50000 384) (H : Mat 50000 128) : cellT (F := Ideal) gi gh H = gru gi gh H := by
  unfold cellT zT
  exact gru_host bcast_S_S50000x128 slices_S50000x384_S50000x128_0_0 slices_S50000x384_S50000x128_0_128
    slices_S50000x384_S50000x128_0_256 gi gh H

/-- One update as the reference spells it is the specification's per-edge update. -/
theorem updT_eq (H : Mat 50000 128) (w11 w13 : IVec S800000 32) (Wm : Mat 128 128) (em : Mat 800000 128)
    (Wih Whh : Mat 384 128) (bih bhh : S384.Idx → EReal) :
    updT (F := Ideal) H w11 w13 Wm em Wih Whh bih bhh
      = stepR (srcRow w11) (dstWord w13) Wm em Wih Whh (rowMat bih) (rowMat bhh) H := by
  unfold updT stepR
  exact (cellT_eq _ _ H).trans
    (congrArg₂ (fun (a b : Mat 50000 384) => gru a b H) (giT_eq H w11 w13 Wm em Wih bih) (ghT_eq H Whh bhh))

/-! ## The program's results -/

section Results
variable (V0 : Valuation τ sig (Elt Ideal))

theorem res_main_v4_eq : res_main_v4 V0 = h0 (V0 (Proc.devRef .tc main_arg0)) (V0 (Proc.devRef .tc main_arg3)) (rowMat (V0 (Proc.devRef .tc main_arg4))) :=
  (v4_term V0).trans (h0T_eq _ _ _)

theorem res_main_v11_eq : res_main_v11 V0 = srcWords (V0 (Proc.devRef .tc main_arg1)) :=
  (v11_term V0).trans (srcT_eq _)

theorem res_main_v13_eq : res_main_v13 V0 = dstWords (V0 (Proc.devRef .tc main_arg1)) :=
  (v13_term V0).trans (dstT_eq _)

theorem res_main_v14_eq : res_main_v14 V0 = leftHalf (V0 (Proc.devRef .tc main_arg7)) :=
  (v14_term V0).trans (wmT_eq _)

theorem res_main_v20_eq : res_main_v20 V0 = eMsg (V0 (Proc.devRef .tc main_arg2)) (V0 (Proc.devRef .tc main_arg5)) (rowMat (V0 (Proc.devRef .tc main_arg6))) (V0 (Proc.devRef .tc main_arg7)) (rowMat (V0 (Proc.devRef .tc main_arg8))) :=
  (v20_term V0).trans (emT_eq _ _ _ _ _)

/-- The states after the first update. -/
theorem res_main_v71_eq : res_main_v71 V0 = stepR (srcRow (res_main_v11 V0)) (dstWord (res_main_v13 V0)) (res_main_v14 V0) (res_main_v20 V0) (V0 (Proc.devRef .tc main_arg9)) (V0 (Proc.devRef .tc main_arg10)) (rowMat (V0 (Proc.devRef .tc main_arg11))) (rowMat (V0 (Proc.devRef .tc main_arg12))) (res_main_v4 V0) :=
  (v71_term V0).trans (updT_eq _ _ _ _ _ _ _ _ _)

/-- The states after the second update. -/
theorem res_main_v122_eq : res_main_v122 V0 = stepR (srcRow (res_main_v11 V0)) (dstWord (res_main_v13 V0)) (res_main_v14 V0) (res_main_v20 V0) (V0 (Proc.devRef .tc main_arg9)) (V0 (Proc.devRef .tc main_arg10)) (rowMat (V0 (Proc.devRef .tc main_arg11))) (rowMat (V0 (Proc.devRef .tc main_arg12))) (res_main_v71 V0) :=
  (v122_term V0).trans (updT_eq _ _ _ _ _ _ _ _ _)

/-- The second result is the projected edge features. -/
theorem res_e :
    addf (F := Ideal) (φ := .f32) (Host.dotGeneral (F := Ideal) (φ₁ := .f32) (φ₂ := .f32) dot_S800000x32_S32x128_S800000x128_1_0_0_1_n_n none (V0 (Proc.devRef .tc main_arg2)) (transpose S32x128 [1, 0] (V0 (Proc.devRef .tc main_arg5)) transposes_S128x32_S32x128_1_0)) (broadcastInDim S800000x128 ![0, 1] bcast_S1x128_S800000x128_0_1 (broadcastInDim S1x128 ![1] bcast_S128_S1x128_1 (V0 (Proc.devRef .tc main_arg6))))
      = eProj (V0 (Proc.devRef .tc main_arg2)) (V0 (Proc.devRef .tc main_arg5)) (rowMat (V0 (Proc.devRef .tc main_arg6))) :=
  (v9_term V0).trans (eT_eq _ _ _)

set_option maxRecDepth 8192 in
/-- The first result is the per-edge network of the arguments. -/
theorem res_net :
    addf (F := Ideal) (mulf (subf (broadcastInDim S50000x128 ![] bcast_S_S50000x128 (constant S_ .f32 0x3F800000#32)) (res_main_v165 V0)) (Host.tanh (addf (extractStridedSlice S50000x128 ![0, 256] (res_main_v140 V0) slices_S50000x384_S50000x128_0_256) (mulf (Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 0] (res_main_v140 V0) slices_S50000x384_S50000x128_0_0) (extractStridedSlice S50000x128 ![0, 0] (res_main_v145 V0) slices_S50000x384_S50000x128_0_0)))))) (extractStridedSlice S50000x128 ![0, 256] (res_main_v145 V0) slices_S50000x384_S50000x128_0_256))))) (mulf (res_main_v165 V0) (res_main_v122 V0))
      = netR (srcRow (srcWords (V0 (Proc.devRef .tc main_arg1)))) (dstWord (dstWords (V0 (Proc.devRef .tc main_arg1))))
          (V0 (Proc.devRef .tc main_arg0)) (V0 (Proc.devRef .tc main_arg2)) (V0 (Proc.devRef .tc main_arg3)) (rowMat (V0 (Proc.devRef .tc main_arg4))) (V0 (Proc.devRef .tc main_arg5)) (rowMat (V0 (Proc.devRef .tc main_arg6))) (V0 (Proc.devRef .tc main_arg7)) (rowMat (V0 (Proc.devRef .tc main_arg8)))
          (V0 (Proc.devRef .tc main_arg9)) (V0 (Proc.devRef .tc main_arg10)) (rowMat (V0 (Proc.devRef .tc main_arg11))) (rowMat (V0 (Proc.devRef .tc main_arg12))) := by
  refine ((v173_term V0).trans (updT_eq _ _ _ _ _ _ _ _ _)).trans ?_
  rw [res_main_v122_eq, res_main_v71_eq, res_main_v4_eq, res_main_v11_eq, res_main_v13_eq, res_main_v14_eq, res_main_v20_eq]
  rfl

end Results

/-- On every device, from any memory with zero counters: every weakly fair execution of the reference terminates with
    its first result the per-edge network of the arguments, its second the projected edge features, and the
    arguments unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v173)
          = netR (srcRow (srcWords (m ((c.tc : Thread nD τ).loc main_arg1)))) (dstWord (dstWords (m ((c.tc : Thread nD τ).loc main_arg1))))
              (m ((c.tc : Thread nD τ).loc main_arg0)) (m ((c.tc : Thread nD τ).loc main_arg2)) (m ((c.tc : Thread nD τ).loc main_arg3)) (rowMat (m ((c.tc : Thread nD τ).loc main_arg4))) (m ((c.tc : Thread nD τ).loc main_arg5)) (rowMat (m ((c.tc : Thread nD τ).loc main_arg6))) (m ((c.tc : Thread nD τ).loc main_arg7)) (rowMat (m ((c.tc : Thread nD τ).loc main_arg8)))
              (m ((c.tc : Thread nD τ).loc main_arg9)) (m ((c.tc : Thread nD τ).loc main_arg10)) (rowMat (m ((c.tc : Thread nD τ).loc main_arg11))) (rowMat (m ((c.tc : Thread nD τ).loc main_arg12)))
      ∧ r.2.mem ((c.tc : Thread nD τ).loc main_v9) = eProj (m ((c.tc : Thread nD τ).loc main_arg2)) (m ((c.tc : Thread nD τ).loc main_arg5)) (rowMat (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c => ⟨(h c).1.trans (res_net (launchContents m c)), (h c).2.1.trans (res_e (launchContents m c)), (h c).2.2⟩)
    (Value.run (F := Ideal) m ρ)

end Cert.ReferenceIdeal.RefValue

end
-- ==== Proof.lean ====
/-
  The certificate of the message-passing kernel against its reference.

  The three frames: the two kernel programs' are the frame certificates of their five-region runs; the reference's is
  its run with the results dropped. The idealization rewrote nothing, so `preserves` has nothing to state.

  The algebraic claim: at the extended reals the kernel ends with the node states at three PER-NODE updates of the
  initial states (the message map applied once per node and gathered, the edge messages' segment sum formed once and
  added to each update's aggregate), the reference with three PER-EDGE updates (the message map applied to the
  gathered rows, the edge message inside each summed message). The two are one function of the arguments: gathering
  commutes with a row-wise contraction, and a segment sum of a + b is the sum of the two segment sums in any
  commutative monoid, so no finiteness of the inputs is used (`Cert.Gnn.netK_eq_netR`). The second result, the
  projected edge features, is computed the same way by both.
-/
import proofs.«158604_j30331059044708_2_alg».proof.Defs
import proofs.«158604_j30331059044708_2_alg».proof.Proof.Gen.Kernel
import proofs.«158604_j30331059044708_2_alg».proof.Proof.Gen.KernelIdeal
import proofs.«158604_j30331059044708_2_alg».proof.Proof.Gen.ReferenceIdeal
import proofs.«158604_j30331059044708_2_alg».proof.Proof.Gen.Pre_finite_inputs
import proofs.«158604_j30331059044708_2_alg».proof.Proof.Patched.Kernel.Frame
import proofs.«158604_j30331059044708_2_alg».proof.Proof.Patched.KernelIdeal.Frame
import proofs.«158604_j30331059044708_2_alg».proof.Proof.KernelValue
import proofs.«158604_j30331059044708_2_alg».proof.Proof.RefValue
import proofs.«158604_j30331059044708_2_alg».proof.Proof.Spec

noncomputable section

namespace Cert.Proof

open Idealize.ShloMosaic Idealize.SL.Sem Cert.Gnn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.RefValue.run_net m ρ)

theorem preserves : Cert.preserves_Kernel_KernelIdeal := trivial

/-- Both programs run; the kernel's results are `netK` and `eProj` of its arguments, the reference's `netR` and
    `eProj` of its own, the arguments agree, and `netK = netR`. -/
theorem algebraic : Cert.algebraic_KernelIdeal_ReferenceIdeal := by
  intro m ρ m' ρ' _ hagree
  refine ⟨_, _, Cert.KernelIdeal.Chain.run_net m ρ, ?_⟩
  refine (θ_run Cert.ReferenceIdeal.defs _ _).mono (fun _ h c => ?_) (Cert.ReferenceIdeal.RefValue.run_net m' ρ')
  obtain ⟨a0, a1, a2, a3, a4, a5, a6, a7, a8, a9, a10, a11, a12⟩ := hagree c
  refine ⟨(h c).1.trans ?_, (h c).2.1.trans ?_, (h c).2.2⟩
  · rw [a0, a1, a2, a3, a4, a5, a6, a7, a8, a9, a10, a11, a12]
    exact (netK_eq_netR _ _ _ _ _ _ _ _ _ _ _ _ _ _).symm
  · rw [a2, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
